-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S256x64 : Shape := ⟨2, ![256, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg13 : FVec F S64 .f32) (main_v48 : IVec S_ 1) (main_v49 : FVec F S256x64 .f32) (main_v50 : FVec F S256x64 .f32) : IVec S_ 1 :=
  let main_v51 : IVec S256x64 1 := cmpf .olt main_v49 main_v50
  let main_c_19 : IVec S_ 1 := constantI S_ 1 1#1
  let main_v52 : IVec S_ 1 := (fun x v => Host.reduce IntOp.andi x v reducesTo_S256x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg9 : FVec F S128 .f32) (main_arg10 : FVec F S128x128 .f32) (main_arg11 : FVec F S128 .f32) (main_arg12 : FVec F S256x64 .f32) (main_arg13 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x64 .f32 := Host.absf main_arg12
  let main_cst_18 : FVec F S_ .f32 := constant S_ .f32 0x7F800000#32
  let main_v50 : FVec F S256x64 .f32 := broadcastInDim S256x64 ![] bcast_S_S256x64 main_cst_18
  fn_part3 (F := F) main_arg13 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S256x64 .f32) (main_arg13 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : IVec S2x600000 32) (main_arg2 : FVec F S50000x128 .f32) (main_arg3 : IVec S2x600000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S256x64 .f32) (main_arg13 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg2
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S256x64 : Shape := ⟨2, ![256, 64]⟩
abbrev S64 : Shape := ⟨1, ![64]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x1 : Shape := ⟨2, ![50000, 1]⟩
abbrev S5000x128 : Shape := ⟨2, ![5000, 128]⟩
abbrev S5000x1 : Shape := ⟨2, ![5000, 1]⟩
abbrev S650000x128 : Shape := ⟨2, ![650000, 128]⟩
abbrev S1x128 : Shape := ⟨2, ![1, 128]⟩
abbrev S128x64 : Shape := ⟨2, ![128, 64]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 126
  | .vmem => 65
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000x128, .f32⟩
  | .hbm, ⟨3, _⟩ => ⟨S2x600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S256x64, .f32⟩
  | .hbm, ⟨13, _⟩ => ⟨S64, .f32⟩
  | .hbm, ⟨14, _⟩ => ⟨S50000, .i32⟩
  | .hbm, ⟨15, _⟩ => ⟨S1x600000, .i32⟩
  | .hbm, ⟨16, _⟩ => ⟨S600000, .i32⟩
  | .hbm, ⟨17, _⟩ => ⟨S650000, .i32⟩
  | .hbm, ⟨18, _⟩ => ⟨S1x600000, .i32⟩
  | .hbm, ⟨19, _⟩ => ⟨S600000, .i32⟩
  | .hbm, ⟨20, _⟩ => ⟨S650000, .i32⟩
  | .hbm, ⟨21, _⟩ => ⟨S50000, .i32⟩
  | .hbm, ⟨22, _⟩ => ⟨S1x600000, .i32⟩
  | .hbm, ⟨23, _⟩ => ⟨S600000, .i32⟩
  | .hbm, ⟨24, _⟩ => ⟨S650000, .i32⟩
  | .hbm, ⟨25, _⟩ => ⟨S1x600000, .i32⟩
  | .hbm, ⟨26, _⟩ => ⟨S600000, .i32⟩
  | .hbm, ⟨27, _⟩ => ⟨S650000, .i32⟩
  | .hbm, ⟨28, _⟩ => ⟨S_, .f32⟩
  | .hbm, ⟨29, _⟩ => ⟨S650000, .f32⟩
  | .hbm, ⟨30, _⟩ => ⟨S_, .f32⟩
  | .hbm, ⟨31, _⟩ => ⟨S50000, .f32⟩
  | .hbm, ⟨32, _⟩ => ⟨S650000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .i1⟩
  | .hbm, ⟨37, _⟩ => ⟨S50000, .f32⟩
  | .hbm, ⟨38, _⟩ => ⟨S_, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x1, .f32⟩
  | .hbm, ⟨43, _⟩ => ⟨S_, .f32⟩
  | .hbm, ⟨44, _⟩ => ⟨S650000, .f32⟩
  | .hbm, ⟨45, _⟩ => ⟨S_, .f32⟩
  | .hbm, ⟨46, _⟩ => ⟨S50000, .f32⟩
  | .hbm, ⟨47, _⟩ => ⟨S650000x1, .i32⟩
  | .hbm, ⟨48, _⟩ => ⟨S50000, .f32⟩
  | .hbm, ⟨49, _⟩ => ⟨S_, .f32⟩
  | .hbm, ⟨50, _⟩ => ⟨S50000, .f32⟩
  | .hbm, ⟨51, _⟩ => ⟨S50000, .i1⟩
  | .hbm, ⟨52, _⟩ => ⟨S50000, .f32⟩
  | .hbm, ⟨53, _⟩ => ⟨S_, .f32⟩
  | .hbm, ⟨54, _⟩ => ⟨S_, .f32⟩
  | .hbm, ⟨55, _⟩ => ⟨S50000, .f32⟩
  | .hbm, ⟨56, _⟩ => ⟨S50000, .f32⟩
  | .hbm, ⟨57, _⟩ => ⟨S50000x1, .f32⟩
  | .hbm, ⟨58, _⟩ => ⟨S50000x128, .f32⟩
  | .hbm, ⟨59, _⟩ => ⟨S_, .i32⟩
  | .hbm, ⟨60, _⟩ => ⟨S650000, .i32⟩
  | .hbm, ⟨61, _⟩ => ⟨S650000, .i1⟩
  | .hbm, ⟨62, _⟩ => ⟨S_, .i32⟩
  | .hbm, ⟨63, _⟩ => ⟨S650000, .i32⟩
  | .hbm, ⟨64, _⟩ => ⟨S650000, .i32⟩
  | .hbm, ⟨65, _⟩ => ⟨S650000, .i32⟩
  | .hbm, ⟨66, _⟩ => ⟨S650000x1, .i32⟩
  | .hbm, ⟨67, _⟩ => ⟨S650000x128, .f32⟩
  | .hbm, ⟨68, _⟩ => ⟨S_, .f32⟩
  | .hbm, ⟨69, _⟩ => ⟨S50000x128, .f32⟩
  | .hbm, ⟨70, _⟩ => ⟨S650000x1, .i32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S_, .i32⟩
  | .hbm, ⟨76, _⟩ => ⟨S650000, .i32⟩
  | .hbm, ⟨77, _⟩ => ⟨S650000, .i1⟩
  | .hbm, ⟨78, _⟩ => ⟨S_, .i32⟩
  | .hbm, ⟨79, _⟩ => ⟨S650000, .i32⟩
  | .hbm, ⟨80, _⟩ => ⟨S650000, .i32⟩
  | .hbm, ⟨81, _⟩ => ⟨S650000, .i32⟩
  | .hbm, ⟨82, _⟩ => ⟨S650000x1, .i32⟩
  | .hbm, ⟨83, _⟩ => ⟨S650000x128, .f32⟩
  | .hbm, ⟨84, _⟩ => ⟨S_, .f32⟩
  | .hbm, ⟨85, _⟩ => ⟨S50000x128, .f32⟩
  | .hbm, ⟨86, _⟩ => ⟨S650000x1, .i32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S_, .i32⟩
  | .hbm, ⟨92, _⟩ => ⟨S650000, .i32⟩
  | .hbm, ⟨93, _⟩ => ⟨S650000, .i1⟩
  | .hbm, ⟨94, _⟩ => ⟨S_, .i32⟩
  | .hbm, ⟨95, _⟩ => ⟨S650000, .i32⟩
  | .hbm, ⟨96, _⟩ => ⟨S650000, .i32⟩
  | .hbm, ⟨97, _⟩ => ⟨S650000, .i32⟩
  | .hbm, ⟨98, _⟩ => ⟨S650000x1, .i32⟩
  | .hbm, ⟨99, _⟩ => ⟨S650000x128, .f32⟩
  | .hbm, ⟨100, _⟩ => ⟨S_, .f32⟩
  | .hbm, ⟨101, _⟩ => ⟨S50000x128, .f32⟩
  | .hbm, ⟨102, _⟩ => ⟨S650000x1, .i32⟩
  | .hbm, ⟨103, _⟩ => ⟨S50000x128, .f32⟩
  | .hbm, ⟨104, _⟩ => ⟨S1x128, .f32⟩
  | .hbm, ⟨105, _⟩ => ⟨S50000x128, .f32⟩
  | .hbm, ⟨106, _⟩ => ⟨S50000x128, .f32⟩
  | .hbm, ⟨107, _⟩ => ⟨S_, .i32⟩
  | .hbm, ⟨108, _⟩ => ⟨S650000, .i32⟩
  | .hbm, ⟨109, _⟩ => ⟨S650000, .i1⟩
  | .hbm, ⟨110, _⟩ => ⟨S_, .i32⟩
  | .hbm, ⟨111, _⟩ => ⟨S650000, .i32⟩
  | .hbm, ⟨112, _⟩ => ⟨S650000, .i32⟩
  | .hbm, ⟨113, _⟩ => ⟨S650000, .i32⟩
  | .hbm, ⟨114, _⟩ => ⟨S650000x1, .i32⟩
  | .hbm, ⟨115, _⟩ => ⟨S650000x128, .f32⟩
  | .hbm, ⟨116, _⟩ => ⟨S_, .f32⟩
  | .hbm, ⟨117, _⟩ => ⟨S50000x128, .f32⟩
  | .hbm, ⟨118, _⟩ => ⟨S650000x1, .i32⟩
  | .hbm, ⟨119, _⟩ => ⟨S50000x128, .f32⟩
  | .hbm, ⟨120, _⟩ => ⟨S1x128, .f32⟩
  | .hbm, ⟨121, _⟩ => ⟨S50000x128, .f32⟩
  | .hbm, ⟨122, _⟩ => ⟨S128x64, .f32⟩
  | .hbm, ⟨123, _⟩ => ⟨S128x64, .f32⟩
  | .hbm, ⟨124, _⟩ => ⟨S1x64, .f32⟩
  | .hbm, ⟨125, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x1, .f32⟩
  | .local _ .vmem, ⟨18, _⟩ => ⟨S5000x1, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x1, .f32⟩
  | .local _ .vmem, ⟨32, _⟩ => ⟨S5000x1, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S5000x1, .f32⟩
  | .local _ .vmem, ⟨46, _⟩ => ⟨S5000x1, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x1, .f32⟩
  | .local _ .vmem, ⟨52, _⟩ => ⟨S5000x1, .f32⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S128x64, .f32⟩
  | .local _ .vmem, ⟨61, _⟩ => ⟨S128x64, .f32⟩
  | .local _ .vmem, ⟨62, _⟩ => ⟨S1x64, .f32⟩
  | .local _ .vmem, ⟨63, _⟩ => ⟨S5000x64, .f32⟩
  | .local _ .vmem, ⟨64, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_6 : Ref sig .tc := ⟨.hbm, 53, rfl⟩
abbrev main_call1_v0 : Ref sig .tc := ⟨.hbm, 54, rfl⟩
abbrev main_call1_v1 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c : Ref sig .tc := ⟨.hbm, 59, rfl⟩
abbrev main_v33 : Ref sig .tc := ⟨.hbm, 60, rfl⟩
abbrev main_v34 : Ref sig .tc := ⟨.hbm, 61, rfl⟩
abbrev main_c_7 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_c_9 : Ref sig .tc := ⟨.hbm, 75, rfl⟩
abbrev main_v46 : Ref sig .tc := ⟨.hbm, 76, rfl⟩
abbrev main_v47 : Ref sig .tc := ⟨.hbm, 77, rfl⟩
abbrev main_c_10 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_11 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_12 : Ref sig .tc := ⟨.hbm, 91, rfl⟩
abbrev main_v59 : Ref sig .tc := ⟨.hbm, 92, rfl⟩
abbrev main_v60 : Ref sig .tc := ⟨.hbm, 93, rfl⟩
abbrev main_c_13 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_14 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_15 : Ref sig .tc := ⟨.hbm, 107, rfl⟩
abbrev main_v72 : Ref sig .tc := ⟨.hbm, 108, rfl⟩
abbrev main_v73 : Ref sig .tc := ⟨.hbm, 109, rfl⟩
abbrev main_c_16 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_17 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc6_stg3_0 : Ref sig .tc := ⟨.vmem, 47, rfl⟩
abbrev cc6_stg3_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg3_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg1_1 : Ref sig .tc := ⟨.vmem, 59, rfl⟩
abbrev cc8_stg2_0 : Ref sig .tc := ⟨.vmem, 60, rfl⟩
abbrev cc8_stg3_0 : Ref sig .tc := ⟨.vmem, 61, rfl⟩
abbrev cc8_stg4_0 : Ref sig .tc := ⟨.vmem, 62, rfl⟩
abbrev cc8_stg5_0 : Ref sig .tc := ⟨.vmem, 63, rfl⟩
abbrev cc8_stg5_1 : Ref sig .tc := ⟨.vmem, 64, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc6_sem3_0 : DmaSem sig := 47
abbrev cc6_sem3_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem3_0 : DmaSem sig := 54
abbrev cc7_sem3_1 : DmaSem sig := 55
abbrev cc8_sem0_0 : DmaSem sig := 56
abbrev cc8_sem0_1 : DmaSem sig := 57
abbrev cc8_sem1_0 : DmaSem sig := 58
abbrev cc8_sem1_1 : DmaSem sig := 59
abbrev cc8_sem2_0 : DmaSem sig := 60
abbrev cc8_sem3_0 : DmaSem sig := 61
abbrev cc8_sem4_0 : DmaSem sig := 62
abbrev cc8_sem5_0 : DmaSem sig := 63
abbrev cc8_sem5_1 : DmaSem sig := 64

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S256x64_S128x64_0_0 : S256x64.Slices ![0, 0] S128x64
  slices_S256x64_S128x64_128_0 : S256x64.Slices ![128, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S650000x1_S650000_n_0_0_1_wf : ScatterDims.WF S50000 S650000x1 S650000 [] [0] [0] 1
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S50000x1.size a
  hwx6_2 : ∀ i : grid6.Coords, EltTy.bits .f32 = 32 ∨ (Rect.block (s := S50000x1) S5000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .f32 = 32 ∨ (Rect.block (s := S50000x128) S5000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S50000x1.size a
  hwx7_1 : ∀ i : grid7.Coords, EltTy.bits .f32 = 32 ∨ (Rect.block (s := S50000x1) S5000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S50000x128.size a
  hwx7_3 : ∀ i : grid7.Coords, EltTy.bits .f32 = 32 ∨ (Rect.block (s := S50000x128) S5000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x64.size a ≤ S128x64.size a
  hwx8_2 : ∀ i : grid8.Coords, EltTy.bits .f32 = 32 ∨ (Rect.block (s := S128x64) S128x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x64.size a ≤ S128x64.size a
  hwx8_3 : ∀ i : grid8.Coords, EltTy.bits .f32 = 32 ∨ (Rect.block (s := S128x64) S128x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x64.size a ≤ S50000x64.size a
  hwx8_5 : ∀ i : grid8.Coords, EltTy.bits .f32 = 32 ∨ (Rect.block (s := S50000x64) S5000x64.size (cc8_transform_5 i) (hinb8_5 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v45) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v55) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v22) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg2) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v31) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v58) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v68) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v31) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v69) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v70) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v70) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v31) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v71) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v81) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v31) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v82) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v83) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v57) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v83) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v84) S128x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v85) S128x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v86) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v87) S5000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S256x64 : Shape := ⟨2, ![256, 64]⟩
abbrev S64 : Shape := ⟨1, ![64]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x256 : Shape := ⟨2, ![50000, 256]⟩
abbrev S50000x64 : Shape := ⟨2, ![50000, 64]⟩
abbrev S1x64 : Shape := ⟨2, ![1, 64]⟩

abbrev nBuf : Space → Nat
  | .hbm => 257
  | .vmem => 0
  | .smem => 0
  | _ => 0

abbrev hbmTy0_0 (i : Nat) : BufTy := match i % 128 with
  | 0 => ⟨S50000x128, .f32⟩
  | 1 => ⟨S2x600000, .i32⟩
  | 2 => ⟨S50000x128, .f32⟩
  | 3 => ⟨S2x600000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S256x64, .f32⟩
  | 13 => ⟨S64, .f32⟩
  | 14 => ⟨S50000, .i32⟩
  | 15 => ⟨S1x600000, .i32⟩
  | 16 => ⟨S600000, .i32⟩
  | 17 => ⟨S650000, .i32⟩
  | 18 => ⟨S1x600000, .i32⟩
  | 19 => ⟨S600000, .i32⟩
  | 20 => ⟨S650000, .i32⟩
  | 21 => ⟨S50000, .i32⟩
  | 22 => ⟨S1x600000, .i32⟩
  | 23 => ⟨S600000, .i32⟩
  | 24 => ⟨S650000, .i32⟩
  | 25 => ⟨S1x600000, .i32⟩
  | 26 => ⟨S600000, .i32⟩
  | 27 => ⟨S650000, .i32⟩
  | 28 => ⟨S50000x128, .f32⟩
  | 29 => ⟨S_, .f32⟩
  | 30 => ⟨S650000, .f32⟩
  | 31 => ⟨S_, .f32⟩
  | 32 => ⟨S50000, .f32⟩
  | 33 => ⟨S650000x1, .i32⟩
  | 34 => ⟨S50000, .f32⟩
  | 35 => ⟨S_, .f32⟩
  | 36 => ⟨S50000, .f32⟩
  | 37 => ⟨S50000, .i1⟩
  | 38 => ⟨S50000, .f32⟩
  | 39 => ⟨S_, .f32⟩
  | 40 => ⟨S_, .f32⟩
  | 41 => ⟨S50000, .f32⟩
  | 42 => ⟨S50000, .f32⟩
  | 43 => ⟨S_, .i32⟩
  | 44 => ⟨S650000, .i32⟩
  | 45 => ⟨S650000, .i1⟩
  | 46 => ⟨S_, .i32⟩
  | 47 => ⟨S650000, .i32⟩
  | 48 => ⟨S650000, .i32⟩
  | 49 => ⟨S650000, .i32⟩
  | 50 => ⟨S650000x1, .i32⟩
  | 51 => ⟨S650000, .f32⟩
  | 52 => ⟨S_, .i32⟩
  | 53 => ⟨S650000, .i32⟩
  | 54 => ⟨S650000, .i1⟩
  | 55 => ⟨S_, .i32⟩
  | 56 => ⟨S650000, .i32⟩
  | 57 => ⟨S650000, .i32⟩
  | 58 => ⟨S650000, .i32⟩
  | 59 => ⟨S650000x1, .i32⟩
  | 60 => ⟨S650000, .f32⟩
  | 61 => ⟨S650000, .f32⟩
  | 62 => ⟨S_, .i32⟩
  | 63 => ⟨S650000, .i32⟩
  | 64 => ⟨S650000, .i1⟩
  | 65 => ⟨S_, .i32⟩
  | 66 => ⟨S650000, .i32⟩
  | 67 => ⟨S650000, .i32⟩
  | 68 => ⟨S650000, .i32⟩
  | 69 => ⟨S650000x1, .i32⟩
  | 70 => ⟨S650000x128, .f32⟩
  | 71 => ⟨S650000x1, .f32⟩
  | 72 => ⟨S650000x128, .f32⟩
  | 73 => ⟨S650000x128, .f32⟩
  | 74 => ⟨S_, .f32⟩
  | 75 => ⟨S50000x128, .f32⟩
  | 76 => ⟨S650000x1, .i32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S50000x128, .f32⟩
  | 85 => ⟨S_, .f32⟩
  | 86 => ⟨S650000, .f32⟩
  | 87 => ⟨S_, .f32⟩
  | 88 => ⟨S50000, .f32⟩
  | 89 => ⟨S650000x1, .i32⟩
  | 90 => ⟨S50000, .f32⟩
  | 91 => ⟨S_, .f32⟩
  | 92 => ⟨S50000, .f32⟩
  | 93 => ⟨S50000, .i1⟩
  | 94 => ⟨S50000, .f32⟩
  | 95 => ⟨S_, .f32⟩
  | 96 => ⟨S_, .f32⟩
  | 97 => ⟨S50000, .f32⟩
  | 98 => ⟨S50000, .f32⟩
  | 99 => ⟨S_, .i32⟩
  | 100 => ⟨S650000, .i32⟩
  | 101 => ⟨S650000, .i1⟩
  | 102 => ⟨S_, .i32⟩
  | 103 => ⟨S650000, .i32⟩
  | 104 => ⟨S650000, .i32⟩
  | 105 => ⟨S650000, .i32⟩
  | 106 => ⟨S650000x1, .i32⟩
  | 107 => ⟨S650000, .f32⟩
  | 108 => ⟨S_, .i32⟩
  | 109 => ⟨S650000, .i32⟩
  | 110 => ⟨S650000, .i1⟩
  | 111 => ⟨S_, .i32⟩
  | 112 => ⟨S650000, .i32⟩
  | 113 => ⟨S650000, .i32⟩
  | 114 => ⟨S650000, .i32⟩
  | 115 => ⟨S650000x1, .i32⟩
  | 116 => ⟨S650000, .f32⟩
  | 117 => ⟨S650000, .f32⟩
  | 118 => ⟨S_, .i32⟩
  | 119 => ⟨S650000, .i32⟩
  | 120 => ⟨S650000, .i1⟩
  | 121 => ⟨S_, .i32⟩
  | 122 => ⟨S650000, .i32⟩
  | 123 => ⟨S650000, .i32⟩
  | 124 => ⟨S650000, .i32⟩
  | 125 => ⟨S650000x1, .i32⟩
  | 126 => ⟨S650000x128, .f32⟩
  | 127 => ⟨S650000x1, .f32⟩
  | _ => ⟨S50000x128, .f32⟩

abbrev hbmTy0_1 (i : Nat) : BufTy := match i % 128 with
  | 0 => ⟨S650000x128, .f32⟩
  | 1 => ⟨S650000x128, .f32⟩
  | 2 => ⟨S_, .f32⟩
  | 3 => ⟨S50000x128, .f32⟩
  | 4 => ⟨S650000x1, .i32⟩
  | 5 => ⟨S50000x128, .f32⟩
  | 6 => ⟨S1x128, .f32⟩
  | 7 => ⟨S50000x128, .f32⟩
  | 8 => ⟨S50000x128, .f32⟩
  | 9 => ⟨S_, .f32⟩
  | 10 => ⟨S50000x128, .f32⟩
  | 11 => ⟨S50000x128, .f32⟩
  | 12 => ⟨S50000x128, .f32⟩
  | 13 => ⟨S_, .f32⟩
  | 14 => ⟨S650000, .f32⟩
  | 15 => ⟨S_, .f32⟩
  | 16 => ⟨S50000, .f32⟩
  | 17 => ⟨S650000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S650000, .i32⟩
  | 29 => ⟨S650000, .i1⟩
  | 30 => ⟨S_, .i32⟩
  | 31 => ⟨S650000, .i32⟩
  | 32 => ⟨S650000, .i32⟩
  | 33 => ⟨S650000, .i32⟩
  | 34 => ⟨S650000x1, .i32⟩
  | 35 => ⟨S650000, .f32⟩
  | 36 => ⟨S_, .i32⟩
  | 37 => ⟨S650000, .i32⟩
  | 38 => ⟨S650000, .i1⟩
  | 39 => ⟨S_, .i32⟩
  | 40 => ⟨S650000, .i32⟩
  | 41 => ⟨S650000, .i32⟩
  | 42 => ⟨S650000, .i32⟩
  | 43 => ⟨S650000x1, .i32⟩
  | 44 => ⟨S650000, .f32⟩
  | 45 => ⟨S650000, .f32⟩
  | 46 => ⟨S_, .i32⟩
  | 47 => ⟨S650000, .i32⟩
  | 48 => ⟨S650000, .i1⟩
  | 49 => ⟨S_, .i32⟩
  | 50 => ⟨S650000, .i32⟩
  | 51 => ⟨S650000, .i32⟩
  | 52 => ⟨S650000, .i32⟩
  | 53 => ⟨S650000x1, .i32⟩
  | 54 => ⟨S650000x128, .f32⟩
  | 55 => ⟨S650000x1, .f32⟩
  | 56 => ⟨S650000x128, .f32⟩
  | 57 => ⟨S650000x128, .f32⟩
  | 58 => ⟨S_, .f32⟩
  | 59 => ⟨S50000x128, .f32⟩
  | 60 => ⟨S650000x1, .i32⟩
  | 61 => ⟨S50000x128, .f32⟩
  | 62 => ⟨S1x128, .f32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S50000x128, .f32⟩
  | 69 => ⟨S_, .f32⟩
  | 70 => ⟨S650000, .f32⟩
  | 71 => ⟨S_, .f32⟩
  | 72 => ⟨S50000, .f32⟩
  | 73 => ⟨S650000x1, .i32⟩
  | 74 => ⟨S50000, .f32⟩
  | 75 => ⟨S_, .f32⟩
  | 76 => ⟨S50000, .f32⟩
  | 77 => ⟨S50000, .i1⟩
  | 78 => ⟨S50000, .f32⟩
  | 79 => ⟨S_, .f32⟩
  | 80 => ⟨S_, .f32⟩
  | 81 => ⟨S50000, .f32⟩
  | 82 => ⟨S50000, .f32⟩
  | 83 => ⟨S_, .i32⟩
  | 84 => ⟨S650000, .i32⟩
  | 85 => ⟨S650000, .i1⟩
  | 86 => ⟨S_, .i32⟩
  | 87 => ⟨S650000, .i32⟩
  | 88 => ⟨S650000, .i32⟩
  | 89 => ⟨S650000, .i32⟩
  | 90 => ⟨S650000x1, .i32⟩
  | 91 => ⟨S650000, .f32⟩
  | 92 => ⟨S_, .i32⟩
  | 93 => ⟨S650000, .i32⟩
  | 94 => ⟨S650000, .i1⟩
  | 95 => ⟨S_, .i32⟩
  | 96 => ⟨S650000, .i32⟩
  | 97 => ⟨S650000, .i32⟩
  | 98 => ⟨S650000, .i32⟩
  | 99 => ⟨S650000x1, .i32⟩
  | 100 => ⟨S650000, .f32⟩
  | 101 => ⟨S650000, .f32⟩
  | 102 => ⟨S_, .i32⟩
  | 103 => ⟨S650000, .i32⟩
  | 104 => ⟨S650000, .i1⟩
  | 105 => ⟨S_, .i32⟩
  | 106 => ⟨S650000, .i32⟩
  | 107 => ⟨S650000, .i32⟩
  | 108 => ⟨S650000, .i32⟩
  | 109 => ⟨S650000x1, .i32⟩
  | 110 => ⟨S650000x128, .f32⟩
  | 111 => ⟨S650000x1, .f32⟩
  | 112 => ⟨S650000x128, .f32⟩
  | 113 => ⟨S650000x128, .f32⟩
  | 114 => ⟨S_, .f32⟩
  | 115 => ⟨S50000x128, .f32⟩
  | 116 => ⟨S650000x1, .i32⟩
  | 117 => ⟨S50000x128, .f32⟩
  | 118 => ⟨S1x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S50000x256, .f32⟩
  | 125 => ⟨S50000x64, .f32⟩
  | 126 => ⟨S1x64, .f32⟩
  | 127 => ⟨S50000x64, .f32⟩
  | _ => ⟨S50000x128, .f32⟩

abbrev hbmTy0_2 (i : Nat) : BufTy := match i % 128 with
  | 0 => ⟨S50000x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_call0_v0 : Ref sig .tc := ⟨.hbm, 40, rfl⟩
abbrev main_call0_v1 : Ref sig .tc := ⟨.hbm, 41, rfl⟩
abbrev main_v22 : Ref sig .tc := ⟨.hbm, 42, rfl⟩
abbrev main_c : Ref sig .tc := ⟨.hbm, 43, rfl⟩
abbrev main_v23 : Ref sig .tc := ⟨.hbm, 44, rfl⟩
abbrev main_v24 : Ref sig .tc := ⟨.hbm, 45, rfl⟩
abbrev main_c_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_6 : Ref sig .tc := ⟨.hbm, 62, rfl⟩
abbrev main_v38 : Ref sig .tc := ⟨.hbm, 63, rfl⟩
abbrev main_v39 : Ref sig .tc := ⟨.hbm, 64, rfl⟩
abbrev main_c_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_8 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call1_cst : Ref sig .tc := ⟨.hbm, 81, rfl⟩
abbrev main_call1_v0 : Ref sig .tc := ⟨.hbm, 82, rfl⟩
abbrev main_v54 : Ref sig .tc := ⟨.hbm, 83, rfl⟩
abbrev main_v55 : Ref sig .tc := ⟨.hbm, 84, rfl⟩
abbrev main_cst_9 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_call2_v0 : Ref sig .tc := ⟨.hbm, 96, rfl⟩
abbrev main_call2_v1 : Ref sig .tc := ⟨.hbm, 97, rfl⟩
abbrev main_v63 : Ref sig .tc := ⟨.hbm, 98, rfl⟩
abbrev main_c_13 : Ref sig .tc := ⟨.hbm, 99, rfl⟩
abbrev main_v64 : Ref sig .tc := ⟨.hbm, 100, rfl⟩
abbrev main_v65 : Ref sig .tc := ⟨.hbm, 101, rfl⟩
abbrev main_c_14 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_c_15 : Ref sig .tc := ⟨.hbm, 108, rfl⟩
abbrev main_v71 : Ref sig .tc := ⟨.hbm, 109, rfl⟩
abbrev main_v72 : Ref sig .tc := ⟨.hbm, 110, rfl⟩
abbrev main_c_16 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_c_17 : Ref sig .tc := ⟨.hbm, 118, rfl⟩
abbrev main_v79 : Ref sig .tc := ⟨.hbm, 119, rfl⟩
abbrev main_v80 : Ref sig .tc := ⟨.hbm, 120, rfl⟩
abbrev main_c_18 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_19 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_call3_cst : Ref sig .tc := ⟨.hbm, 137, rfl⟩
abbrev main_call3_v0 : Ref sig .tc := ⟨.hbm, 138, rfl⟩
abbrev main_v95 : Ref sig .tc := ⟨.hbm, 139, rfl⟩
abbrev main_v96 : Ref sig .tc := ⟨.hbm, 140, rfl⟩
abbrev main_cst_20 : Ref sig .tc := ⟨.hbm, 141, rfl⟩
abbrev main_v97 : Ref sig .tc := ⟨.hbm, 142, rfl⟩
abbrev main_cst_21 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_22 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_cst_23 : Ref sig .tc := ⟨.hbm, 151, rfl⟩
abbrev main_call4_v0 : Ref sig .tc := ⟨.hbm, 152, rfl⟩
abbrev main_call4_v1 : Ref sig .tc := ⟨.hbm, 153, rfl⟩
abbrev main_v104 : Ref sig .tc := ⟨.hbm, 154, rfl⟩
abbrev main_c_24 : Ref sig .tc := ⟨.hbm, 155, rfl⟩
abbrev main_v105 : Ref sig .tc := ⟨.hbm, 156, rfl⟩
abbrev main_v106 : Ref sig .tc := ⟨.hbm, 157, rfl⟩
abbrev main_c_25 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_c_26 : Ref sig .tc := ⟨.hbm, 164, rfl⟩
abbrev main_v112 : Ref sig .tc := ⟨.hbm, 165, rfl⟩
abbrev main_v113 : Ref sig .tc := ⟨.hbm, 166, rfl⟩
abbrev main_c_27 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_c_28 : Ref sig .tc := ⟨.hbm, 174, rfl⟩
abbrev main_v120 : Ref sig .tc := ⟨.hbm, 175, rfl⟩
abbrev main_v121 : Ref sig .tc := ⟨.hbm, 176, rfl⟩
abbrev main_c_29 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_cst_30 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_call5_cst : Ref sig .tc := ⟨.hbm, 193, rfl⟩
abbrev main_call5_v0 : Ref sig .tc := ⟨.hbm, 194, rfl⟩
abbrev main_v136 : Ref sig .tc := ⟨.hbm, 195, rfl⟩
abbrev main_v137 : Ref sig .tc := ⟨.hbm, 196, rfl⟩
abbrev main_cst_31 : Ref sig .tc := ⟨.hbm, 197, rfl⟩
abbrev main_v138 : Ref sig .tc := ⟨.hbm, 198, rfl⟩
abbrev main_cst_32 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_cst_33 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_cst_34 : Ref sig .tc := ⟨.hbm, 207, rfl⟩
abbrev main_call6_v0 : Ref sig .tc := ⟨.hbm, 208, rfl⟩
abbrev main_call6_v1 : Ref sig .tc := ⟨.hbm, 209, rfl⟩
abbrev main_v145 : Ref sig .tc := ⟨.hbm, 210, rfl⟩
abbrev main_c_35 : Ref sig .tc := ⟨.hbm, 211, rfl⟩
abbrev main_v146 : Ref sig .tc := ⟨.hbm, 212, rfl⟩
abbrev main_v147 : Ref sig .tc := ⟨.hbm, 213, rfl⟩
abbrev main_c_36 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_c_37 : Ref sig .tc := ⟨.hbm, 220, rfl⟩
abbrev main_v153 : Ref sig .tc := ⟨.hbm, 221, rfl⟩
abbrev main_v154 : Ref sig .tc := ⟨.hbm, 222, rfl⟩
abbrev main_c_38 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_c_39 : Ref sig .tc := ⟨.hbm, 230, rfl⟩
abbrev main_v161 : Ref sig .tc := ⟨.hbm, 231, rfl⟩
abbrev main_v162 : Ref sig .tc := ⟨.hbm, 232, rfl⟩
abbrev main_c_40 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_cst_41 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_call7_cst : Ref sig .tc := ⟨.hbm, 249, rfl⟩
abbrev main_call7_v0 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_v182 : Ref sig .tc := ⟨.hbm, 256, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x256_S256x64_S50000x64_1_0_0_1_n_n_wf : DotDims.WF S50000x256 S256x64 S50000x64 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.KRun.lean ====
/-
  The idealized kernel program's run, with its result named. Every weakly fair execution of @main ends with the result
  buffer `main_v87` holding what the last region's write-backs leave in it — the contents `W19` of the fold of buffer
  contents through @main's nineteen segments (ten stretches of host operations, nine kernel regions) — and with the
  fourteen argument arrays as launched. The launch theorem for a program of several regions is applied to the segments
  with the final buffer contents read off for the result as well as for the arguments.
-/
import proofs.«173324_j25683904430211_2_alg».proof.Proof.Gen.KernelIdeal.Frame

set_option maxRecDepth 16384

noncomputable section

namespace Cert.Gnn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem kernel_run : θ_run defs (onTc (τ := τ) (main (F := F))) ⟨m, fun _ => 0, ρ⟩ (fun r => ∀ c : Dev nD,
      r.2.mem ((c.tc : Thread nD τ).loc main_v87) = W19 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v87 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c)⟩)

end Cert.Gnn

end
-- ==== Proof.ChainKept.lean ====
/-
  Buffers carried unchanged through the idealized kernel program: a stretch of host operations leaves every buffer it
  does not write as it was, and a kernel region leaves every buffer but its output array as it was (its input arrays
  because the pipeline only reads them). Each statement follows one buffer from the boundary where it is read back to the
  boundary where it was written (or, for an argument, to the launch).
-/
import proofs.«173324_j25683904430211_2_alg».proof.Proof.Gen.KernelIdeal.Frame
import Idealize.ShloMosaic.Lib.StableHlo.Run
import Idealize.ShloMosaic.PureOps.Ideal

set_option maxRecDepth 16384
set_option maxHeartbeats 3200000

noncomputable section

namespace Cert.Gnn.Chain

open Idealize.ShloMosaic Idealize.ShloMosaic.TcCoe Idealize.ShloMosaic.StableHlo
open Idealize.SL Idealize.SL.Sem
open Cert.KernelIdeal Cert.KernelIdeal.Gen

variable (m : (ℓ : Loc nD τ sig) → Buf (Elt Ideal) ℓ) (ρ : Dev nD → PrngReg) (c : Dev nD)

theorem tr_arg0_0_5 : W5 m ρ c (Proc.devRef .tc main_arg0) = W0 m ρ c (Proc.devRef .tc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
        simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W3 m ρ c (Proc.devRef .tc main_arg0) := StableHlo.after_of_forall_not_mem (b := Proc.devRef .tc main_arg0) _ _ (List.forall_iff_forall_mem.mp (by
        simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W2 m ρ c (Proc.devRef .tc main_arg0) := StableHlo.after_of_forall_not_mem (b := Proc.devRef .tc main_arg0) _ _ (List.forall_iff_forall_mem.mp (by
        simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W1 m ρ c (Proc.devRef .tc main_arg0) := StableHlo.after_of_forall_not_mem (b := Proc.devRef .tc main_arg0) _ _ (List.forall_iff_forall_mem.mp (by
        simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W0 m ρ c (Proc.devRef .tc main_arg0) := StableHlo.after_of_forall_not_mem (b := Proc.devRef .tc main_arg0) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))

theorem tr_arg4_0_5 : W5 m ρ c (Proc.devRef .tc main_arg4) = W0 m ρ c (Proc.devRef .tc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
        simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W3 m ρ c (Proc.devRef .tc main_arg4) := StableHlo.after_of_forall_not_mem (b := Proc.devRef .tc main_arg4) _ _ (List.forall_iff_forall_mem.mp (by
        simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W2 m ρ c (Proc.devRef .tc main_arg4) := StableHlo.after_of_forall_not_mem (b := Proc.devRef .tc main_arg4) _ _ (List.forall_iff_forall_mem.mp (by
        simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W1 m ρ c (Proc.devRef .tc main_arg4) := StableHlo.after_of_forall_not_mem (b := Proc.devRef .tc main_arg4) _ _ (List.forall_iff_forall_mem.mp (by
        simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W0 m ρ c (Proc.devRef .tc main_arg4) := StableHlo.after_of_forall_not_mem (b := Proc.devRef .tc main_arg4) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))

theorem tr_arg5_0_6 : W6 m ρ c (Proc.devRef .tc main_arg5) = W0 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
        simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W3 m ρ c (Proc.devRef .tc main_arg5) := StableHlo.after_of_forall_not_mem (b := Proc.devRef .tc main_arg5) _ _ (List.forall_iff_forall_mem.mp (by
        simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W2 m ρ c (Proc.devRef .tc main_arg5) := StableHlo.after_of_forall_not_mem (b := Proc.devRef .tc main_arg5) _ _ (List.forall_iff_forall_mem.mp (by
        simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W1 m ρ c (Proc.devRef .tc main_arg5) := StableHlo.after_of_forall_not_mem (b := Proc.devRef .tc main_arg5) _ _ (List.forall_iff_forall_mem.mp (by
        simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W0 m ρ c (Proc.devRef .tc main_arg5) := StableHlo.after_of_forall_not_mem (b := Proc.devRef .tc main_arg5) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))

theorem tr_arg6_0_8 : W8 m ρ c (Proc.devRef .tc main_arg6) = W0 m ρ c (Proc.devRef .tc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
        simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W3 m ρ c (Proc.devRef .tc main_arg6) := StableHlo.after_of_forall_not_mem (b := Proc.devRef .tc main_arg6) _ _ (List.forall_iff_forall_mem.mp (by
        simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W2 m ρ c (Proc.devRef .tc main_arg6) := StableHlo.after_of_forall_not_mem (b := Proc.devRef .tc main_arg6) _ _ (List.forall_iff_forall_mem.mp (by
        simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W1 m ρ c (Proc.devRef .tc main_arg6) := StableHlo.after_of_forall_not_mem (b := Proc.devRef .tc main_arg6) _ _ (List.forall_iff_forall_mem.mp (by
        simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W0 m ρ c (Proc.devRef .tc main_arg6) := StableHlo.after_of_forall_not_mem (b := Proc.devRef .tc main_arg6) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))

theorem tr_arg7_0_9 : W9 m ρ c (Proc.devRef .tc main_arg7) = W0 m ρ c (Proc.devRef .tc main_arg7) :=
  calc W9 m ρ c (Proc.devRef .tc main_arg7)
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
        simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W3 m ρ c (Proc.devRef .tc main_arg7) := StableHlo.after_of_forall_not_mem (b := Proc.devRef .tc main_arg7) _ _ (List.forall_iff_forall_mem.mp (by
        simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W2 m ρ c (Proc.devRef .tc main_arg7) := StableHlo.after_of_forall_not_mem (b := Proc.devRef .tc main_arg7) _ _ (List.forall_iff_forall_mem.mp (by
        simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W1 m ρ c (Proc.devRef .tc main_arg7) := StableHlo.after_of_forall_not_mem (b := Proc.devRef .tc main_arg7) _ _ (List.forall_iff_forall_mem.mp (by
        simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W0 m ρ c (Proc.devRef .tc main_arg7) := StableHlo.after_of_forall_not_mem (b := Proc.devRef .tc main_arg7) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))

theorem tr_arg2_0_11 : W11 m ρ c (Proc.devRef .tc main_arg2) = W0 m ρ c (Proc.devRef .tc main_arg2) :=
  calc W11 m ρ c (Proc.devRef .tc main_arg2)
    _ = W10 m ρ c (Proc.devRef .tc main_arg2) := W11_of_ne m ρ c main_arg2 (by decide)
    _ = W9 m ρ c (Proc.devRef .tc main_arg2) := StableHlo.after_of_forall_not_mem (b := Proc.devRef .tc main_arg2) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
        simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W3 m ρ c (Proc.devRef .tc main_arg2) := StableHlo.after_of_forall_not_mem (b := Proc.devRef .tc main_arg2) _ _ (List.forall_iff_forall_mem.mp (by
        simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W2 m ρ c (Proc.devRef .tc main_arg2) := StableHlo.after_of_forall_not_mem (b := Proc.devRef .tc main_arg2) _ _ (List.forall_iff_forall_mem.mp (by
        simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W1 m ρ c (Proc.devRef .tc main_arg2) := StableHlo.after_of_forall_not_mem (b := Proc.devRef .tc main_arg2) _ _ (List.forall_iff_forall_mem.mp (by
        simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W0 m ρ c (Proc.devRef .tc main_arg2) := StableHlo.after_of_forall_not_mem (b := Proc.devRef .tc main_arg2) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))

theorem tr_arg8_0_11 : W11 m ρ c (Proc.devRef .tc main_arg8) = W0 m ρ c (Proc.devRef .tc main_arg8) :=
  calc W11 m ρ c (Proc.devRef .tc main_arg8)
    _ = W10 m ρ c (Proc.devRef .tc main_arg8) := W11_of_ne m ρ c main_arg8 (by decide)
    _ = W9 m ρ c (Proc.devRef .tc main_arg8) := StableHlo.after_of_forall_not_mem (b := Proc.devRef .tc main_arg8) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
        simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W3 m ρ c (Proc.devRef .tc main_arg8) := StableHlo.after_of_forall_not_mem (b := Proc.devRef .tc main_arg8) _ _ (List.forall_iff_forall_mem.mp (by
        simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W2 m ρ c (Proc.devRef .tc main_arg8) := StableHlo.after_of_forall_not_mem (b := Proc.devRef .tc main_arg8) _ _ (List.forall_iff_forall_mem.mp (by
        simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W1 m ρ c (Proc.devRef .tc main_arg8) := StableHlo.after_of_forall_not_mem (b := Proc.devRef .tc main_arg8) _ _ (List.forall_iff_forall_mem.mp (by
        simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W0 m ρ c (Proc.devRef .tc main_arg8) := StableHlo.after_of_forall_not_mem (b := Proc.devRef .tc main_arg8) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))

theorem tr_arg9_0_12 : W12 m ρ c (Proc.devRef .tc main_arg9) = W0 m ρ c (Proc.devRef .tc main_arg9) :=
  calc W12 m ρ c (Proc.devRef .tc main_arg9)
    _ = W11 m ρ c (Proc.devRef .tc main_arg9) := W12_of_ne m ρ c main_arg9 (by decide)
    _ = W10 m ρ c (Proc.devRef .tc main_arg9) := W11_of_ne m ρ c main_arg9 (by decide)
    _ = W9 m ρ c (Proc.devRef .tc main_arg9) := StableHlo.after_of_forall_not_mem (b := Proc.devRef .tc main_arg9) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W8 m ρ c (Proc.devRef .tc main_arg9) := W9_of_ne m ρ c main_arg9 (by decide)
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
        simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W3 m ρ c (Proc.devRef .tc main_arg9) := StableHlo.after_of_forall_not_mem (b := Proc.devRef .tc main_arg9) _ _ (List.forall_iff_forall_mem.mp (by
        simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W2 m ρ c (Proc.devRef .tc main_arg9) := StableHlo.after_of_forall_not_mem (b := Proc.devRef .tc main_arg9) _ _ (List.forall_iff_forall_mem.mp (by
        simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W1 m ρ c (Proc.devRef .tc main_arg9) := StableHlo.after_of_forall_not_mem (b := Proc.devRef .tc main_arg9) _ _ (List.forall_iff_forall_mem.mp (by
        simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W0 m ρ c (Proc.devRef .tc main_arg9) := StableHlo.after_of_forall_not_mem (b := Proc.devRef .tc main_arg9) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))

theorem tr_arg10_0_14 : W14 m ρ c (Proc.devRef .tc main_arg10) = W0 m ρ c (Proc.devRef .tc main_arg10) :=
  calc W14 m ρ c (Proc.devRef .tc main_arg10)
    _ = W13 m ρ c (Proc.devRef .tc main_arg10) := W14_of_ne m ρ c main_arg10 (by decide)
    _ = W12 m ρ c (Proc.devRef .tc main_arg10) := StableHlo.after_of_forall_not_mem (b := Proc.devRef .tc main_arg10) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W11 m ρ c (Proc.devRef .tc main_arg10) := W12_of_ne m ρ c main_arg10 (by decide)
    _ = W10 m ρ c (Proc.devRef .tc main_arg10) := W11_of_ne m ρ c main_arg10 (by decide)
    _ = W9 m ρ c (Proc.devRef .tc main_arg10) := StableHlo.after_of_forall_not_mem (b := Proc.devRef .tc main_arg10) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W8 m ρ c (Proc.devRef .tc main_arg10) := W9_of_ne m ρ c main_arg10 (by decide)
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
        simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W3 m ρ c (Proc.devRef .tc main_arg10) := StableHlo.after_of_forall_not_mem (b := Proc.devRef .tc main_arg10) _ _ (List.forall_iff_forall_mem.mp (by
        simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W2 m ρ c (Proc.devRef .tc main_arg10) := StableHlo.after_of_forall_not_mem (b := Proc.devRef .tc main_arg10) _ _ (List.forall_iff_forall_mem.mp (by
        simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W1 m ρ c (Proc.devRef .tc main_arg10) := StableHlo.after_of_forall_not_mem (b := Proc.devRef .tc main_arg10) _ _ (List.forall_iff_forall_mem.mp (by
        simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W0 m ρ c (Proc.devRef .tc main_arg10) := StableHlo.after_of_forall_not_mem (b := Proc.devRef .tc main_arg10) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))

theorem tr_arg11_0_15 : W15 m ρ c (Proc.devRef .tc main_arg11) = W0 m ρ c (Proc.devRef .tc main_arg11) :=
  calc W15 m ρ c (Proc.devRef .tc main_arg11)
    _ = W14 m ρ c (Proc.devRef .tc main_arg11) := W15_of_ne m ρ c main_arg11 (by decide)
    _ = W13 m ρ c (Proc.devRef .tc main_arg11) := W14_of_ne m ρ c main_arg11 (by decide)
    _ = W12 m ρ c (Proc.devRef .tc main_arg11) := StableHlo.after_of_forall_not_mem (b := Proc.devRef .tc main_arg11) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W11 m ρ c (Proc.devRef .tc main_arg11) := W12_of_ne m ρ c main_arg11 (by decide)
    _ = W10 m ρ c (Proc.devRef .tc main_arg11) := W11_of_ne m ρ c main_arg11 (by decide)
    _ = W9 m ρ c (Proc.devRef .tc main_arg11) := StableHlo.after_of_forall_not_mem (b := Proc.devRef .tc main_arg11) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W8 m ρ c (Proc.devRef .tc main_arg11) := W9_of_ne m ρ c main_arg11 (by decide)
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
        simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W3 m ρ c (Proc.devRef .tc main_arg11) := StableHlo.after_of_forall_not_mem (b := Proc.devRef .tc main_arg11) _ _ (List.forall_iff_forall_mem.mp (by
        simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W2 m ρ c (Proc.devRef .tc main_arg11) := StableHlo.after_of_forall_not_mem (b := Proc.devRef .tc main_arg11) _ _ (List.forall_iff_forall_mem.mp (by
        simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W1 m ρ c (Proc.devRef .tc main_arg11) := StableHlo.after_of_forall_not_mem (b := Proc.devRef .tc main_arg11) _ _ (List.forall_iff_forall_mem.mp (by
        simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W0 m ρ c (Proc.devRef .tc main_arg11) := StableHlo.after_of_forall_not_mem (b := Proc.devRef .tc main_arg11) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))

theorem tr_arg12_0_17 : W17 m ρ c (Proc.devRef .tc main_arg12) = W0 m ρ c (Proc.devRef .tc main_arg12) :=
  calc W17 m ρ c (Proc.devRef .tc main_arg12)
    _ = W16 m ρ c (Proc.devRef .tc main_arg12) := W17_of_ne m ρ c main_arg12 (by decide)
    _ = W15 m ρ c (Proc.devRef .tc main_arg12) := StableHlo.after_of_forall_not_mem (b := Proc.devRef .tc main_arg12) _ _ (List.forall_iff_forall_mem.mp (by
        simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W14 m ρ c (Proc.devRef .tc main_arg12) := W15_of_ne m ρ c main_arg12 (by decide)
    _ = W13 m ρ c (Proc.devRef .tc main_arg12) := W14_of_ne m ρ c main_arg12 (by decide)
    _ = W12 m ρ c (Proc.devRef .tc main_arg12) := StableHlo.after_of_forall_not_mem (b := Proc.devRef .tc main_arg12) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W11 m ρ c (Proc.devRef .tc main_arg12) := W12_of_ne m ρ c main_arg12 (by decide)
    _ = W10 m ρ c (Proc.devRef .tc main_arg12) := W11_of_ne m ρ c main_arg12 (by decide)
    _ = W9 m ρ c (Proc.devRef .tc main_arg12) := StableHlo.after_of_forall_not_mem (b := Proc.devRef .tc main_arg12) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W8 m ρ c (Proc.devRef .tc main_arg12) := W9_of_ne m ρ c main_arg12 (by decide)
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
        simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W3 m ρ c (Proc.devRef .tc main_arg12) := StableHlo.after_of_forall_not_mem (b := Proc.devRef .tc main_arg12) _ _ (List.forall_iff_forall_mem.mp (by
        simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W2 m ρ c (Proc.devRef .tc main_arg12) := StableHlo.after_of_forall_not_mem (b := Proc.devRef .tc main_arg12) _ _ (List.forall_iff_forall_mem.mp (by
        simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W1 m ρ c (Proc.devRef .tc main_arg12) := StableHlo.after_of_forall_not_mem (b := Proc.devRef .tc main_arg12) _ _ (List.forall_iff_forall_mem.mp (by
        simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W0 m ρ c (Proc.devRef .tc main_arg12) := StableHlo.after_of_forall_not_mem (b := Proc.devRef .tc main_arg12) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))

theorem tr_arg13_0_17 : W17 m ρ c (Proc.devRef .tc main_arg13) = W0 m ρ c (Proc.devRef .tc main_arg13) :=
  calc W17 m ρ c (Proc.devRef .tc main_arg13)
    _ = W16 m ρ c (Proc.devRef .tc main_arg13) := W17_of_ne m ρ c main_arg13 (by decide)
    _ = W15 m ρ c (Proc.devRef .tc main_arg13) := StableHlo.after_of_forall_not_mem (b := Proc.devRef .tc main_arg13) _ _ (List.forall_iff_forall_mem.mp (by
        simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W14 m ρ c (Proc.devRef .tc main_arg13) := W15_of_ne m ρ c main_arg13 (by decide)
    _ = W13 m ρ c (Proc.devRef .tc main_arg13) := W14_of_ne m ρ c main_arg13 (by decide)
    _ = W12 m ρ c (Proc.devRef .tc main_arg13) := StableHlo.after_of_forall_not_mem (b := Proc.devRef .tc main_arg13) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W11 m ρ c (Proc.devRef .tc main_arg13) := W12_of_ne m ρ c main_arg13 (by decide)
    _ = W10 m ρ c (Proc.devRef .tc main_arg13) := W11_of_ne m ρ c main_arg13 (by decide)
    _ = W9 m ρ c (Proc.devRef .tc main_arg13) := StableHlo.after_of_forall_not_mem (b := Proc.devRef .tc main_arg13) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W8 m ρ c (Proc.devRef .tc main_arg13) := W9_of_ne m ρ c main_arg13 (by decide)
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
        simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W3 m ρ c (Proc.devRef .tc main_arg13) := StableHlo.after_of_forall_not_mem (b := Proc.devRef .tc main_arg13) _ _ (List.forall_iff_forall_mem.mp (by
        simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W2 m ρ c (Proc.devRef .tc main_arg13) := StableHlo.after_of_forall_not_mem (b := Proc.devRef .tc main_arg13) _ _ (List.forall_iff_forall_mem.mp (by
        simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W1 m ρ c (Proc.devRef .tc main_arg13) := StableHlo.after_of_forall_not_mem (b := Proc.devRef .tc main_arg13) _ _ (List.forall_iff_forall_mem.mp (by
        simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W0 m ρ c (Proc.devRef .tc main_arg13) := StableHlo.after_of_forall_not_mem (b := Proc.devRef .tc main_arg13) _ _ (List.forall_iff_forall_mem.mp (by
        simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))

theorem tr_v13_1_2 : W2 m ρ c (Proc.devRef .tc main_v13) = W1 m ρ c (Proc.devRef .tc main_v13) :=
  calc W2 m ρ c (Proc.devRef .tc main_v13)
    _ = W1 m ρ c (Proc.devRef .tc main_v13) := StableHlo.after_of_forall_not_mem (b := Proc.devRef .tc main_v13) _ _ (List.forall_iff_forall_mem.mp (by
        simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))

theorem tr_v3_1_6 : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
        simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W3 m ρ c (Proc.devRef .tc main_v3) := StableHlo.after_of_forall_not_mem (b := Proc.devRef .tc main_v3) _ _ (List.forall_iff_forall_mem.mp (by
        simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W2 m ρ c (Proc.devRef .tc main_v3) := StableHlo.after_of_forall_not_mem (b := Proc.devRef .tc main_v3) _ _ (List.forall_iff_forall_mem.mp (by
        simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W1 m ρ c (Proc.devRef .tc main_v3) := StableHlo.after_of_forall_not_mem (b := Proc.devRef .tc main_v3) _ _ (List.forall_iff_forall_mem.mp (by
        simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))

theorem tr_v3_1_9 : W9 m ρ c (Proc.devRef .tc main_v3) = W1 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
        simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W3 m ρ c (Proc.devRef .tc main_v3) := StableHlo.after_of_forall_not_mem (b := Proc.devRef .tc main_v3) _ _ (List.forall_iff_forall_mem.mp (by
        simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W2 m ρ c (Proc.devRef .tc main_v3) := StableHlo.after_of_forall_not_mem (b := Proc.devRef .tc main_v3) _ _ (List.forall_iff_forall_mem.mp (by
        simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W1 m ρ c (Proc.devRef .tc main_v3) := StableHlo.after_of_forall_not_mem (b := Proc.devRef .tc main_v3) _ _ (List.forall_iff_forall_mem.mp (by
        simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))

theorem tr_v6_1_6 : W6 m ρ c (Proc.devRef .tc main_v6) = W1 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
        simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W3 m ρ c (Proc.devRef .tc main_v6) := StableHlo.after_of_forall_not_mem (b := Proc.devRef .tc main_v6) _ _ (List.forall_iff_forall_mem.mp (by
        simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W2 m ρ c (Proc.devRef .tc main_v6) := StableHlo.after_of_forall_not_mem (b := Proc.devRef .tc main_v6) _ _ (List.forall_iff_forall_mem.mp (by
        simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W1 m ρ c (Proc.devRef .tc main_v6) := StableHlo.after_of_forall_not_mem (b := Proc.devRef .tc main_v6) _ _ (List.forall_iff_forall_mem.mp (by
        simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))

theorem tr_v6_1_9 : W9 m ρ c (Proc.devRef .tc main_v6) = W1 m ρ c (Proc.devRef .tc main_v6) :=
  calc W9 m ρ c (Proc.devRef .tc main_v6)
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
        simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W3 m ρ c (Proc.devRef .tc main_v6) := StableHlo.after_of_forall_not_mem (b := Proc.devRef .tc main_v6) _ _ (List.forall_iff_forall_mem.mp (by
        simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W2 m ρ c (Proc.devRef .tc main_v6) := StableHlo.after_of_forall_not_mem (b := Proc.devRef .tc main_v6) _ _ (List.forall_iff_forall_mem.mp (by
        simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W1 m ρ c (Proc.devRef .tc main_v6) := StableHlo.after_of_forall_not_mem (b := Proc.devRef .tc main_v6) _ _ (List.forall_iff_forall_mem.mp (by
        simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))

theorem tr_v10_1_12 : W12 m ρ c (Proc.devRef .tc main_v10) = W1 m ρ c (Proc.devRef .tc main_v10) :=
  calc W12 m ρ c (Proc.devRef .tc main_v10)
    _ = W11 m ρ c (Proc.devRef .tc main_v10) := W12_of_ne m ρ c main_v10 (by decide)
    _ = W10 m ρ c (Proc.devRef .tc main_v10) := W11_of_ne m ρ c main_v10 (by decide)
    _ = W9 m ρ c (Proc.devRef .tc main_v10) := StableHlo.after_of_forall_not_mem (b := Proc.devRef .tc main_v10) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W8 m ρ c (Proc.devRef .tc main_v10) := W9_of_ne m ρ c main_v10 (by decide)
    _ = W7 m ρ c (Proc.devRef .tc main_v10) := W8_of_ne m ρ c main_v10 (by decide)
    _ = W6 m ρ c (Proc.devRef .tc main_v10) := StableHlo.after_of_forall_not_mem (b := Proc.devRef .tc main_v10) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W5 m ρ c (Proc.devRef .tc main_v10) := W6_of_ne m ρ c main_v10 (by decide)
    _ = W4 m ρ c (Proc.devRef .tc main_v10) := StableHlo.after_of_forall_not_mem (b := Proc.devRef .tc main_v10) _ _ (List.forall_iff_forall_mem.mp (by
        simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W3 m ρ c (Proc.devRef .tc main_v10) := StableHlo.after_of_forall_not_mem (b := Proc.devRef .tc main_v10) _ _ (List.forall_iff_forall_mem.mp (by
        simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W2 m ρ c (Proc.devRef .tc main_v10) := StableHlo.after_of_forall_not_mem (b := Proc.devRef .tc main_v10) _ _ (List.forall_iff_forall_mem.mp (by
        simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W1 m ρ c (Proc.devRef .tc main_v10) := StableHlo.after_of_forall_not_mem (b := Proc.devRef .tc main_v10) _ _ (List.forall_iff_forall_mem.mp (by
        simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))

theorem tr_v10_1_15 : W15 m ρ c (Proc.devRef .tc main_v10) = W1 m ρ c (Proc.devRef .tc main_v10) :=
  calc W15 m ρ c (Proc.devRef .tc main_v10)
    _ = W14 m ρ c (Proc.devRef .tc main_v10) := W15_of_ne m ρ c main_v10 (by decide)
    _ = W13 m ρ c (Proc.devRef .tc main_v10) := W14_of_ne m ρ c main_v10 (by decide)
    _ = W12 m ρ c (Proc.devRef .tc main_v10) := StableHlo.after_of_forall_not_mem (b := Proc.devRef .tc main_v10) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W11 m ρ c (Proc.devRef .tc main_v10) := W12_of_ne m ρ c main_v10 (by decide)
    _ = W10 m ρ c (Proc.devRef .tc main_v10) := W11_of_ne m ρ c main_v10 (by decide)
    _ = W9 m ρ c (Proc.devRef .tc main_v10) := StableHlo.after_of_forall_not_mem (b := Proc.devRef .tc main_v10) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W8 m ρ c (Proc.devRef .tc main_v10) := W9_of_ne m ρ c main_v10 (by decide)
    _ = W7 m ρ c (Proc.devRef .tc main_v10) := W8_of_ne m ρ c main_v10 (by decide)
    _ = W6 m ρ c (Proc.devRef .tc main_v10) := StableHlo.after_of_forall_not_mem (b := Proc.devRef .tc main_v10) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W5 m ρ c (Proc.devRef .tc main_v10) := W6_of_ne m ρ c main_v10 (by decide)
    _ = W4 m ρ c (Proc.devRef .tc main_v10) := StableHlo.after_of_forall_not_mem (b := Proc.devRef .tc main_v10) _ _ (List.forall_iff_forall_mem.mp (by
        simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W3 m ρ c (Proc.devRef .tc main_v10) := StableHlo.after_of_forall_not_mem (b := Proc.devRef .tc main_v10) _ _ (List.forall_iff_forall_mem.mp (by
        simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W2 m ρ c (Proc.devRef .tc main_v10) := StableHlo.after_of_forall_not_mem (b := Proc.devRef .tc main_v10) _ _ (List.forall_iff_forall_mem.mp (by
        simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W1 m ρ c (Proc.devRef .tc main_v10) := StableHlo.after_of_forall_not_mem (b := Proc.devRef .tc main_v10) _ _ (List.forall_iff_forall_mem.mp (by
        simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))

theorem tr_v13_1_12 : W12 m ρ c (Proc.devRef .tc main_v13) = W1 m ρ c (Proc.devRef .tc main_v13) :=
  calc W12 m ρ c (Proc.devRef .tc main_v13)
    _ = W11 m ρ c (Proc.devRef .tc main_v13) := W12_of_ne m ρ c main_v13 (by decide)
    _ = W10 m ρ c (Proc.devRef .tc main_v13) := W11_of_ne m ρ c main_v13 (by decide)
    _ = W9 m ρ c (Proc.devRef .tc main_v13) := StableHlo.after_of_forall_not_mem (b := Proc.devRef .tc main_v13) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W8 m ρ c (Proc.devRef .tc main_v13) := W9_of_ne m ρ c main_v13 (by decide)
    _ = W7 m ρ c (Proc.devRef .tc main_v13) := W8_of_ne m ρ c main_v13 (by decide)
    _ = W6 m ρ c (Proc.devRef .tc main_v13) := StableHlo.after_of_forall_not_mem (b := Proc.devRef .tc main_v13) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W5 m ρ c (Proc.devRef .tc main_v13) := W6_of_ne m ρ c main_v13 (by decide)
    _ = W4 m ρ c (Proc.devRef .tc main_v13) := StableHlo.after_of_forall_not_mem (b := Proc.devRef .tc main_v13) _ _ (List.forall_iff_forall_mem.mp (by
        simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W3 m ρ c (Proc.devRef .tc main_v13) := StableHlo.after_of_forall_not_mem (b := Proc.devRef .tc main_v13) _ _ (List.forall_iff_forall_mem.mp (by
        simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W2 m ρ c (Proc.devRef .tc main_v13) := StableHlo.after_of_forall_not_mem (b := Proc.devRef .tc main_v13) _ _ (List.forall_iff_forall_mem.mp (by
        simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W1 m ρ c (Proc.devRef .tc main_v13) := StableHlo.after_of_forall_not_mem (b := Proc.devRef .tc main_v13) _ _ (List.forall_iff_forall_mem.mp (by
        simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))

theorem tr_v13_1_15 : W15 m ρ c (Proc.devRef .tc main_v13) = W1 m ρ c (Proc.devRef .tc main_v13) :=
  calc W15 m ρ c (Proc.devRef .tc main_v13)
    _ = W14 m ρ c (Proc.devRef .tc main_v13) := W15_of_ne m ρ c main_v13 (by decide)
    _ = W13 m ρ c (Proc.devRef .tc main_v13) := W14_of_ne m ρ c main_v13 (by decide)
    _ = W12 m ρ c (Proc.devRef .tc main_v13) := StableHlo.after_of_forall_not_mem (b := Proc.devRef .tc main_v13) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W11 m ρ c (Proc.devRef .tc main_v13) := W12_of_ne m ρ c main_v13 (by decide)
    _ = W10 m ρ c (Proc.devRef .tc main_v13) := W11_of_ne m ρ c main_v13 (by decide)
    _ = W9 m ρ c (Proc.devRef .tc main_v13) := StableHlo.after_of_forall_not_mem (b := Proc.devRef .tc main_v13) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W8 m ρ c (Proc.devRef .tc main_v13) := W9_of_ne m ρ c main_v13 (by decide)
    _ = W7 m ρ c (Proc.devRef .tc main_v13) := W8_of_ne m ρ c main_v13 (by decide)
    _ = W6 m ρ c (Proc.devRef .tc main_v13) := StableHlo.after_of_forall_not_mem (b := Proc.devRef .tc main_v13) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W5 m ρ c (Proc.devRef .tc main_v13) := W6_of_ne m ρ c main_v13 (by decide)
    _ = W4 m ρ c (Proc.devRef .tc main_v13) := StableHlo.after_of_forall_not_mem (b := Proc.devRef .tc main_v13) _ _ (List.forall_iff_forall_mem.mp (by
        simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W3 m ρ c (Proc.devRef .tc main_v13) := StableHlo.after_of_forall_not_mem (b := Proc.devRef .tc main_v13) _ _ (List.forall_iff_forall_mem.mp (by
        simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W2 m ρ c (Proc.devRef .tc main_v13) := StableHlo.after_of_forall_not_mem (b := Proc.devRef .tc main_v13) _ _ (List.forall_iff_forall_mem.mp (by
        simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W1 m ρ c (Proc.devRef .tc main_v13) := StableHlo.after_of_forall_not_mem (b := Proc.devRef .tc main_v13) _ _ (List.forall_iff_forall_mem.mp (by
        simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))

theorem tr_v22_3_5 : W5 m ρ c (Proc.devRef .tc main_v22) = W3 m ρ c (Proc.devRef .tc main_v22) :=
  calc W5 m ρ c (Proc.devRef .tc main_v22)
    _ = W4 m ρ c (Proc.devRef .tc main_v22) := StableHlo.after_of_forall_not_mem (b := Proc.devRef .tc main_v22) _ _ (List.forall_iff_forall_mem.mp (by
        simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W3 m ρ c (Proc.devRef .tc main_v22) := StableHlo.after_of_forall_not_mem (b := Proc.devRef .tc main_v22) _ _ (List.forall_iff_forall_mem.mp (by
        simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))

theorem tr_v22_3_7 : W7 m ρ c (Proc.devRef .tc main_v22) = W3 m ρ c (Proc.devRef .tc main_v22) :=
  calc W7 m ρ c (Proc.devRef .tc main_v22)
    _ = W6 m ρ c (Proc.devRef .tc main_v22) := StableHlo.after_of_forall_not_mem (b := Proc.devRef .tc main_v22) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W5 m ρ c (Proc.devRef .tc main_v22) := (W6_arr m ρ c 2).trans (((dat0 (V5 m ρ) c).arrAt_in 2 rfl _).trans (A_eq0 (V5 m ρ) c 2))
    _ = W4 m ρ c (Proc.devRef .tc main_v22) := StableHlo.after_of_forall_not_mem (b := Proc.devRef .tc main_v22) _ _ (List.forall_iff_forall_mem.mp (by
        simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W3 m ρ c (Proc.devRef .tc main_v22) := StableHlo.after_of_forall_not_mem (b := Proc.devRef .tc main_v22) _ _ (List.forall_iff_forall_mem.mp (by
        simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))

theorem tr_v22_3_8 : W8 m ρ c (Proc.devRef .tc main_v22) = W3 m ρ c (Proc.devRef .tc main_v22) :=
  calc W8 m ρ c (Proc.devRef .tc main_v22)
    _ = W7 m ρ c (Proc.devRef .tc main_v22) := (W8_arr m ρ c 1).trans (((dat1 (V7 m ρ) c).arrAt_in 1 rfl _).trans (A_eq1 (V7 m ρ) c 1))
    _ = W6 m ρ c (Proc.devRef .tc main_v22) := StableHlo.after_of_forall_not_mem (b := Proc.devRef .tc main_v22) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W5 m ρ c (Proc.devRef .tc main_v22) := (W6_arr m ρ c 2).trans (((dat0 (V5 m ρ) c).arrAt_in 2 rfl _).trans (A_eq0 (V5 m ρ) c 2))
    _ = W4 m ρ c (Proc.devRef .tc main_v22) := StableHlo.after_of_forall_not_mem (b := Proc.devRef .tc main_v22) _ _ (List.forall_iff_forall_mem.mp (by
        simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W3 m ρ c (Proc.devRef .tc main_v22) := StableHlo.after_of_forall_not_mem (b := Proc.devRef .tc main_v22) _ _ (List.forall_iff_forall_mem.mp (by
        simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))

theorem tr_v22_3_10 : W10 m ρ c (Proc.devRef .tc main_v22) = W3 m ρ c (Proc.devRef .tc main_v22) :=
  calc W10 m ρ c (Proc.devRef .tc main_v22)
    _ = W9 m ρ c (Proc.devRef .tc main_v22) := StableHlo.after_of_forall_not_mem (b := Proc.devRef .tc main_v22) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W8 m ρ c (Proc.devRef .tc main_v22) := (W9_arr m ρ c 2).trans (((dat2 (V8 m ρ) c).arrAt_in 2 rfl _).trans (A_eq2 (V8 m ρ) c 2))
    _ = W7 m ρ c (Proc.devRef .tc main_v22) := (W8_arr m ρ c 1).trans (((dat1 (V7 m ρ) c).arrAt_in 1 rfl _).trans (A_eq1 (V7 m ρ) c 1))
    _ = W6 m ρ c (Proc.devRef .tc main_v22) := StableHlo.after_of_forall_not_mem (b := Proc.devRef .tc main_v22) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W5 m ρ c (Proc.devRef .tc main_v22) := (W6_arr m ρ c 2).trans (((dat0 (V5 m ρ) c).arrAt_in 2 rfl _).trans (A_eq0 (V5 m ρ) c 2))
    _ = W4 m ρ c (Proc.devRef .tc main_v22) := StableHlo.after_of_forall_not_mem (b := Proc.devRef .tc main_v22) _ _ (List.forall_iff_forall_mem.mp (by
        simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W3 m ρ c (Proc.devRef .tc main_v22) := StableHlo.after_of_forall_not_mem (b := Proc.devRef .tc main_v22) _ _ (List.forall_iff_forall_mem.mp (by
        simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))

theorem tr_v31_5_11 : W11 m ρ c (Proc.devRef .tc main_v31) = W5 m ρ c (Proc.devRef .tc main_v31) :=
  calc W11 m ρ c (Proc.devRef .tc main_v31)
    _ = W10 m ρ c (Proc.devRef .tc main_v31) := W11_of_ne m ρ c main_v31 (by decide)
    _ = W9 m ρ c (Proc.devRef .tc main_v31) := StableHlo.after_of_forall_not_mem (b := Proc.devRef .tc main_v31) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W8 m ρ c (Proc.devRef .tc main_v31) := W9_of_ne m ρ c main_v31 (by decide)
    _ = W7 m ρ c (Proc.devRef .tc main_v31) := W8_of_ne m ρ c main_v31 (by decide)
    _ = W6 m ρ c (Proc.devRef .tc main_v31) := StableHlo.after_of_forall_not_mem (b := Proc.devRef .tc main_v31) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W5 m ρ c (Proc.devRef .tc main_v31) := W6_of_ne m ρ c main_v31 (by decide)

theorem tr_v31_5_13 : W13 m ρ c (Proc.devRef .tc main_v31) = W5 m ρ c (Proc.devRef .tc main_v31) :=
  calc W13 m ρ c (Proc.devRef .tc main_v31)
    _ = W12 m ρ c (Proc.devRef .tc main_v31) := StableHlo.after_of_forall_not_mem (b := Proc.devRef .tc main_v31) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W11 m ρ c (Proc.devRef .tc main_v31) := (W12_arr m ρ c 2).trans (((dat4 (V11 m ρ) c).arrAt_in 2 rfl _).trans (A_eq4 (V11 m ρ) c 2))
    _ = W10 m ρ c (Proc.devRef .tc main_v31) := W11_of_ne m ρ c main_v31 (by decide)
    _ = W9 m ρ c (Proc.devRef .tc main_v31) := StableHlo.after_of_forall_not_mem (b := Proc.devRef .tc main_v31) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W8 m ρ c (Proc.devRef .tc main_v31) := W9_of_ne m ρ c main_v31 (by decide)
    _ = W7 m ρ c (Proc.devRef .tc main_v31) := W8_of_ne m ρ c main_v31 (by decide)
    _ = W6 m ρ c (Proc.devRef .tc main_v31) := StableHlo.after_of_forall_not_mem (b := Proc.devRef .tc main_v31) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W5 m ρ c (Proc.devRef .tc main_v31) := W6_of_ne m ρ c main_v31 (by decide)

theorem tr_v31_5_14 : W14 m ρ c (Proc.devRef .tc main_v31) = W5 m ρ c (Proc.devRef .tc main_v31) :=
  calc W14 m ρ c (Proc.devRef .tc main_v31)
    _ = W13 m ρ c (Proc.devRef .tc main_v31) := (W14_arr m ρ c 1).trans (((dat5 (V13 m ρ) c).arrAt_in 1 rfl _).trans (A_eq5 (V13 m ρ) c 1))
    _ = W12 m ρ c (Proc.devRef .tc main_v31) := StableHlo.after_of_forall_not_mem (b := Proc.devRef .tc main_v31) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W11 m ρ c (Proc.devRef .tc main_v31) := (W12_arr m ρ c 2).trans (((dat4 (V11 m ρ) c).arrAt_in 2 rfl _).trans (A_eq4 (V11 m ρ) c 2))
    _ = W10 m ρ c (Proc.devRef .tc main_v31) := W11_of_ne m ρ c main_v31 (by decide)
    _ = W9 m ρ c (Proc.devRef .tc main_v31) := StableHlo.after_of_forall_not_mem (b := Proc.devRef .tc main_v31) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W8 m ρ c (Proc.devRef .tc main_v31) := W9_of_ne m ρ c main_v31 (by decide)
    _ = W7 m ρ c (Proc.devRef .tc main_v31) := W8_of_ne m ρ c main_v31 (by decide)
    _ = W6 m ρ c (Proc.devRef .tc main_v31) := StableHlo.after_of_forall_not_mem (b := Proc.devRef .tc main_v31) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W5 m ρ c (Proc.devRef .tc main_v31) := W6_of_ne m ρ c main_v31 (by decide)

theorem tr_v31_5_16 : W16 m ρ c (Proc.devRef .tc main_v31) = W5 m ρ c (Proc.devRef .tc main_v31) :=
  calc W16 m ρ c (Proc.devRef .tc main_v31)
    _ = W15 m ρ c (Proc.devRef .tc main_v31) := StableHlo.after_of_forall_not_mem (b := Proc.devRef .tc main_v31) _ _ (List.forall_iff_forall_mem.mp (by
        simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W14 m ρ c (Proc.devRef .tc main_v31) := (W15_arr m ρ c 2).trans (((dat6 (V14 m ρ) c).arrAt_in 2 rfl _).trans (A_eq6 (V14 m ρ) c 2))
    _ = W13 m ρ c (Proc.devRef .tc main_v31) := (W14_arr m ρ c 1).trans (((dat5 (V13 m ρ) c).arrAt_in 1 rfl _).trans (A_eq5 (V13 m ρ) c 1))
    _ = W12 m ρ c (Proc.devRef .tc main_v31) := StableHlo.after_of_forall_not_mem (b := Proc.devRef .tc main_v31) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W11 m ρ c (Proc.devRef .tc main_v31) := (W12_arr m ρ c 2).trans (((dat4 (V11 m ρ) c).arrAt_in 2 rfl _).trans (A_eq4 (V11 m ρ) c 2))
    _ = W10 m ρ c (Proc.devRef .tc main_v31) := W11_of_ne m ρ c main_v31 (by decide)
    _ = W9 m ρ c (Proc.devRef .tc main_v31) := StableHlo.after_of_forall_not_mem (b := Proc.devRef .tc main_v31) _ _ (List.forall_iff_forall_mem.mp (by
        simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W8 m ρ c (Proc.devRef .tc main_v31) := W9_of_ne m ρ c main_v31 (by decide)
    _ = W7 m ρ c (Proc.devRef .tc main_v31) := W8_of_ne m ρ c main_v31 (by decide)
    _ = W6 m ρ c (Proc.devRef .tc main_v31) := StableHlo.after_of_forall_not_mem (b := Proc.devRef .tc main_v31) _ _ (List.forall_iff_forall_mem.mp (by
        simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W5 m ρ c (Proc.devRef .tc main_v31) := W6_of_ne m ρ c main_v31 (by decide)

theorem tr_v57_11_18 : W18 m ρ c (Proc.devRef .tc main_v57) = W11 m ρ c (Proc.devRef .tc main_v57) :=
  calc W18 m ρ c (Proc.devRef .tc main_v57)
    _ = W17 m ρ c (Proc.devRef .tc main_v57) := StableHlo.after_of_forall_not_mem (b := Proc.devRef .tc main_v57) _ _ (List.forall_iff_forall_mem.mp (by
        simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W16 m ρ c (Proc.devRef .tc main_v57) := W17_of_ne m ρ c main_v57 (by decide)
    _ = W15 m ρ c (Proc.devRef .tc main_v57) := StableHlo.after_of_forall_not_mem (b := Proc.devRef .tc main_v57) _ _ (List.forall_iff_forall_mem.mp (by
        simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W14 m ρ c (Proc.devRef .tc main_v57) := W15_of_ne m ρ c main_v57 (by decide)
    _ = W13 m ρ c (Proc.devRef .tc main_v57) := W14_of_ne m ρ c main_v57 (by decide)
    _ = W12 m ρ c (Proc.devRef .tc main_v57) := StableHlo.after_of_forall_not_mem (b := Proc.devRef .tc main_v57) _ _ (List.forall_iff_forall_mem.mp (by
        simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))
    _ = W11 m ρ c (Proc.devRef .tc main_v57) := W12_of_ne m ρ c main_v57 (by decide)

theorem tr_v83_17_18 : W18 m ρ c (Proc.devRef .tc main_v83) = W17 m ρ c (Proc.devRef .tc main_v83) :=
  calc W18 m ρ c (Proc.devRef .tc main_v83)
    _ = W17 m ρ c (Proc.devRef .tc main_v83) := StableHlo.after_of_forall_not_mem (b := Proc.devRef .tc main_v83) _ _ (List.forall_iff_forall_mem.mp (by
        simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))

end Cert.Gnn.Chain

end
-- ==== Proof.LibEdgeRows.lean ====
/-
  Rows taken and rows accumulated along axis 0, read at an index.

  A graph layer reads the rows of a matrix `h : [N, D]` named by a column of `R` row numbers `[R, 1]`
  (`h[src]`, result `[R, D]`), and adds `R` update rows `[R, D]` into the rows of an accumulator `[N, D]` named
  by another such column (a segment sum). Both are read here entry by entry.

  The lookup's entry `(e, k)` is the operand at row `idx(e, 0)` and column `k`, the row number read as a signed
  integer and clamped into `[0, N − 1]`. The accumulation's entry `(p, k)` is the operand's entry plus the sum, over the
  update rows `e` whose row number `idx(e, 0)`, read as a signed integer and NOT clamped, is exactly `p`, of the
  update's entry `(e, k)`; an update row whose number falls outside `[0, N)` lands nowhere and is dropped.
-/
import Idealize.ShloMosaic.Lib.ValueIdx
import Idealize.ShloMosaic.PureOps.Ideal.Laws

noncomputable section

open scoped BigOperators

namespace Cert.Lib

open Idealize.ShloMosaic Idealize.ShloMosaic.ValueIdx

/-! ## Rows taken: `h[idx]` -/

variable {α : Type}

/-- The dimension numbers of the row lookup `h[idx]` for `h : [N, D]`, `idx : [R, 1]`, result `[R, D]`: the row axis
    is collapsed and named by the row number, the column axis is the result's offset axis, a slice is one whole row. -/
abbrev rowsTake (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The row lookup at `(e, k)`: the operand at row `idx(e, 0)`, read signed and clamped into `[0, N − 1]`, and
    column `k`. -/
theorem gather_rowsTake_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (e : Fin R) (k : Fin D) :
    Host.gather (rowsTake N D R wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    show (rowsTake N D R wf).start (ix2 e k) idx 0 + (rowsTake N D R wf).batchCoord (ix2 e k) 0
      + (rowsTake N D R wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsTake N D R wf).startIndexMap from List.mem_singleton.mpr rfl)]
    have hsi : (rowsTake N D R wf).siIdx (ix2 e k) ⟨List.idxOf (0 : Fin 2) (rowsTake N D R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsTake N D R wf).start (ix2 e k) idx 1 + (rowsTake N D R wf).batchCoord (ix2 e k) 1
      + (rowsTake N D R wf).offCoord (ix2 e k) 1 = k.val
    have hst : (rowsTake N D R wf).start (ix2 e k) idx 1 = 0 := by
      unfold GatherDims.start
      rw [dif_neg (show (1 : Fin 2) ∉ (rowsTake N D R wf).startIndexMap from
        (by decide : (1 : Fin 2) ∉ ([0] : List (Fin 2))))]
    have hoff : (rowsTake N D R wf).offCoord (ix2 e k) 1 = k.val := by
      unfold GatherDims.offCoord
      rw [dif_pos (show (1 : Fin 2) ∈ (rowsTake N D R wf).sKept from
        (by decide : (1 : Fin 2) ∈ (List.finRange 2).filter (· ∉ ([0] ++ [] : List (Fin 2)))))]
      rfl
    rw [GatherDims.batchCoord_eq_zero _ _ _ List.not_mem_nil, hst, hoff]
    omega

/-! ## Rows accumulated: `acc[idx] += upd` -/

/-- The dimension numbers of the row accumulation `acc[idx] += upd` for `acc : [N, D]`, `idx : [R, 1]`,
    `upd : [R, D]`: axis 1 of the updates is the window, axis 0 of the operand is the one the row number names. -/
abbrev rowsScatter (N D R : Nat) (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

/-- On the row axis the window of update index `j` starts at the row number `idx(j₀, 0)`, read signed. -/
theorem start_rowsScatter_zero {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) :
    (rowsScatter N D R wf).start j idx 0 = (idx (ix2 (j 0) (0 : Fin 1))).toInt := by
  unfold ScatterDims.start
  rw [dif_pos (show (0 : Fin 2) ∈ (rowsScatter N D R wf).scatterDimsToOperandDims from List.mem_singleton.mpr rfl)]
  have hsi : (rowsScatter N D R wf).siIdx j ⟨List.idxOf (0 : Fin 2) (rowsScatter N D R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which no row number names, the window starts at `0`. -/
theorem start_rowsScatter_one {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) :
    (rowsScatter N D R wf).start j idx 1 = 0 := by
  unfold ScatterDims.start
  rw [dif_neg (show (1 : Fin 2) ∉ (rowsScatter N D R wf).scatterDimsToOperandDims from
    (by decide : (1 : Fin 2) ∉ ([0] : List (Fin 2))))]

/-- The row axis is an inserted one: the window coordinate on it is `0`. -/
theorem window_rowsScatter_zero {N D R : Nat}
    (wf : ScatterDims.WF ⟨2, ![N, D]⟩ ⟨2, ![R, 1]⟩ ⟨2, ![R, D]⟩ [1] [0] [0] 1)
    (j : (⟨2, ![R, D]⟩ : Shape).Idx) :
    (rowsScatter N D R wf).window j 0 = 0 := by
  unfold ScatterDims.window
  rw [dif_neg (show (0 : Fin 2) ∉ (rowsScatter N D R wf).sKept from
    (by decide : (0 : Fin 2) ∉ (List.finRange 2).filter (· ∉ ([0] : List (Fin 2)))))]

/-- On the column axis the window coordinate of update index `j` is its column `j₁`. -/
theorem window_rowsScatter_one {N D R : Nat}
    (wf : ScatterDims.WF ⟨2, ![N, D]⟩ ⟨2, ![R, 1]⟩ ⟨2, ![R, D]⟩ [1] [0] [0] 1)
    (j : (⟨2, ![R, D]⟩ : Shape).Idx) :
    (rowsScatter N D R wf).window j 1 = (j 1).val := by
  unfold ScatterDims.window
  rw [dif_pos (show (1 : Fin 2) ∈ (rowsScatter N D R wf).sKept from
    (by decide : (1 : Fin 2) ∈ (List.finRange 2).filter (· ∉ ([0] : List (Fin 2)))))]
  rfl

/-- Update index `j` lands on the operand's entry `(p, k)` exactly when its row number `idx(j₀, 0)`, read signed, is
    `p` and its column is `k`; a row number outside `[0, N)` lands on no entry. -/
theorem resultIdx_rowsScatter {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) (p : Fin N) (k : Fin D) :
    (rowsScatter N D R wf).resultIdx? j idx = some (ix2 p k)
      ↔ (idx (ix2 (j 0) (0 : Fin 1))).toInt = (p.val : ℤ) ∧ j 1 = k := by
  have hs0 := start_rowsScatter_zero wf j idx
  have hs1 := start_rowsScatter_one wf j idx
  have hw0 := window_rowsScatter_zero wf j
  have hw1 := window_rowsScatter_one wf j
  have hj1 : (j 1).val < D := idx2_lt1 j
  have hpN : p.val < N := p.isLt
  unfold ScatterDims.resultIdx?
  split
  · rename_i h
    rw [Option.some.injEq]
    constructor
    · intro hf
      have h0 : ((rowsScatter N D R wf).start j idx 0 + ((rowsScatter N D R wf).window j 0 : ℤ)).toNat = p.val :=
        congrArg Fin.val (congrFun hf 0)
      have h1 : ((rowsScatter N D R wf).start j idx 1 + ((rowsScatter N D R wf).window j 1 : ℤ)).toNat = k.val :=
        congrArg Fin.val (congrFun hf 1)
      have hh0 := (h 0).1
      rw [hs0, hw0] at h0 hh0
      rw [hs1, hw1] at h1
      refine ⟨by omega, Fin.ext (by omega)⟩
    · rintro ⟨hp, hk⟩
      funext a
      refine Fin.ext ?_
      match a with
      | ⟨0, _⟩ =>
        show ((rowsScatter N D R wf).start j idx 0 + ((rowsScatter N D R wf).window j 0 : ℤ)).toNat = p.val
        rw [hs0, hw0, hp]; omega
      | ⟨1, _⟩ =>
        show ((rowsScatter N D R wf).start j idx 1 + ((rowsScatter N D R wf).window j 1 : ℤ)).toNat = k.val
        rw [hs1, hw1, hk]; omega
  · rename_i h
    constructor
    · intro hf; cases hf
    · rintro ⟨hp, hk⟩
      exfalso; apply h
      intro a
      match a with
      | ⟨0, _⟩ =>
        show 0 ≤ (rowsScatter N D R wf).start j idx 0 + ((rowsScatter N D R wf).window j 0 : ℤ)
          ∧ (rowsScatter N D R wf).start j idx 0 + ((rowsScatter N D R wf).window j 0 : ℤ) < (N : ℤ)
        rw [hs0, hw0, hp]; omega
      | ⟨1, _⟩ =>
        show 0 ≤ (rowsScatter N D R wf).start j idx 1 + ((rowsScatter N D R wf).window j 1 : ℤ)
          ∧ (rowsScatter N D R wf).start j idx 1 + ((rowsScatter N D R wf).window j 1 : ℤ) < (D : ℤ)
        rw [hs1, hw1]; omega

/-- The row accumulation at `(p, k)`: the operand's entry plus the sum of the updates' entries `(e, k)` over the
    update rows `e` whose row number `idx(e, 0)`, read signed and not clamped, is `p`. -/
theorem scatterAdd_rowsScatter_apply {N D R w : Nat}
    (wf : ScatterDims.WF ⟨2, ![N, D]⟩ ⟨2, ![R, 1]⟩ ⟨2, ![R, D]⟩ [1] [0] [0] 1)
    (x : (⟨2, ![N, D]⟩ : Shape).Idx → EReal) (idx : IVec ⟨2, ![R, 1]⟩ w)
    (upd : (⟨2, ![R, D]⟩ : Shape).Idx → EReal) (p : Fin N) (k : Fin D) :
    Host.scatterAdd (F := Ideal) (φ := .f32) (rowsScatter N D R wf) x idx upd (ix2 p k)
      = x (ix2 p k)
        + ∑ e ∈ Finset.univ.filter (fun e : Fin R => (idx (ix2 e (0 : Fin 1))).toInt = (p.val : ℤ)),
            upd (ix2 e k) := by
  show x (ix2 p k) + ∑ j ∈ Finset.univ.filter
      (fun j => (rowsScatter N D R wf).resultIdx? j idx = some (ix2 p k)), upd j = _
  congr 1
  symm
  refine Finset.sum_bij (fun e _ => ix2 e k) ?_ ?_ ?_ ?_
  · intro e he
    rw [Finset.mem_filter] at he ⊢
    exact ⟨Finset.mem_univ _, (resultIdx_rowsScatter wf (ix2 e k) idx p k).mpr ⟨he.2, rfl⟩⟩
  · intro e₁ _ e₂ _ h
    exact congrFun h 0
  · intro j hj
    rw [Finset.mem_filter] at hj
    have hj' := (resultIdx_rowsScatter wf j idx p k).mp hj.2
    refine ⟨j 0, Finset.mem_filter.mpr ⟨Finset.mem_univ _, hj'.1⟩, ?_⟩
    rw [← hj'.2]
    exact (eq_ix2 j).symm
  · intro e _
    rfl

end Cert.Lib

end
-- ==== Proof.LibEdgeAgg.lean ====
/-
  The weighted neighbourhood sum of a graph layer, read at an index.

  For a matrix `h : [N, D]`, two vectors of `R` row numbers `sw` (sources) and `dv` (targets) and a vector of `R`
  weights `nrm`, the layer takes the rows `h[sw]`, scales row `e` by `nrm(e)`, and adds it into row `dv(e)` of an
  all-zero `[N, D]` accumulator. The vectors travel as one-column matrices `[R, 1]`, the weights stretched to `[R, D]`.
  Entry `(p, k)` of the result is the sum, over the edges `e` whose target `dv(e)`, read as a signed integer, is `p`, of
  `h(sw(e), k) · nrm(e)`, the source row read signed and clamped into `[0, N − 1]`.
-/
import proofs.«173324_j25683904430211_2_alg».proof.Proof.LibEdgeRows
import Idealize.ShloMosaic.Lib.ValueIdx
import Idealize.ShloMosaic.Lib.Pipeline.Value
import Idealize.ShloMosaic.PureOps.Ideal.Laws

noncomputable section

open scoped BigOperators

namespace Cert.Lib

open Idealize.ShloMosaic Idealize.ShloMosaic.ValueIdx

variable {α : Type}

/-- A vector carried as a one-column matrix, read at `(e, u)`: the vector at `e`. -/
theorem col_apply {R : ℕ} (hc : (⟨1, ![R]⟩ : Shape).BroadcastsInDim ⟨2, ![R, 1]⟩ (![0] : Fin 1 → Fin 2))
    (v : (⟨1, ![R]⟩ : Shape).Idx → α) (e : Fin R) (u : Fin 1) :
    broadcastInDim ⟨2, ![R, 1]⟩ ![0] hc v (ix2 e u) = v (ix1 e) := by
  refine broadcastInDim_apply _ hc v (ix2 e u) (ix1 e) ?_
  intro a
  match a with
  | ⟨0, _⟩ =>
    show e.val = if R = 1 then 0 else e.val
    have := e.isLt
    split <;> omega

/-- A one-column matrix stretched along its rows to `D` columns, read at `(e, k)`: the column at `(e, 0)`. -/
theorem stretch_apply {R D : ℕ} (hb : (⟨2, ![R, 1]⟩ : Shape).BroadcastsInDim ⟨2, ![R, D]⟩ (![0, 1] : Fin 2 → Fin 2))
    (y : (⟨2, ![R, 1]⟩ : Shape).Idx → α) (e : Fin R) (k : Fin D) :
    broadcastInDim ⟨2, ![R, D]⟩ ![0, 1] hb y (ix2 e k) = y (ix2 e (0 : Fin 1)) := by
  refine broadcastInDim_apply _ hb y (ix2 e k) (ix2 e (0 : Fin 1)) ?_
  intro a
  match a with
  | ⟨0, _⟩ =>
    show e.val = if R = 1 then 0 else e.val
    have := e.isLt
    split <;> omega
  | ⟨1, _⟩ =>
    show (0 : ℕ) = if (1 : ℕ) = 1 then 0 else k.val
    rfl

/-- The all-zero matrix (the zero word at every entry), read at any index: the extended real `0`. -/
theorem zeros_apply {N D : ℕ} (hz : (⟨0, ![]⟩ : Shape).BroadcastsInDim ⟨2, ![N, D]⟩ (![] : Fin 0 → Fin 2))
    (i : (⟨2, ![N, D]⟩ : Shape).Idx) :
    broadcastInDim ⟨2, ![N, D]⟩ ![] hz (constant (F := Ideal) ⟨0, ![]⟩ .f32 0x00000000#32) i = (0 : EReal) := by
  show Ideal.ofBits .f32 0x00000000#32 = 0
  exact Ideal.ofBits_zero_f32

/-- The weighted neighbourhood sum at `(p, k)`: over the edges `e` whose target `dv(e)` is `p`, the sum of the source
    row's entry `h(sw(e), k)` times the edge's weight `nrm(e)`. -/
theorem agg_rows_apply {N D R : ℕ} (hN : 0 < N)
    (wfG : GatherDims.WF ⟨2, ![N, D]⟩ ⟨2, ![R, 1]⟩ ⟨2, ![R, D]⟩ [1] [0] [] [0] [] 1 ![1, D])
    (wfS : ScatterDims.WF ⟨2, ![N, D]⟩ ⟨2, ![R, 1]⟩ ⟨2, ![R, D]⟩ [1] [0] [0] 1)
    (hz : (⟨0, ![]⟩ : Shape).BroadcastsInDim ⟨2, ![N, D]⟩ (![] : Fin 0 → Fin 2))
    (hc : (⟨1, ![R]⟩ : Shape).BroadcastsInDim ⟨2, ![R, 1]⟩ (![0] : Fin 1 → Fin 2))
    (hb : (⟨2, ![R, 1]⟩ : Shape).BroadcastsInDim ⟨2, ![R, D]⟩ (![0, 1] : Fin 2 → Fin 2))
    (h : (⟨2, ![N, D]⟩ : Shape).Idx → EReal) (sw dv : IVec ⟨1, ![R]⟩ 32)
    (nrm : (⟨1, ![R]⟩ : Shape).Idx → EReal) (p : Fin N) (k : Fin D) :
    Host.scatterAdd (F := Ideal) (φ := .f32) (rowsScatter N D R wfS)
        (broadcastInDim ⟨2, ![N, D]⟩ ![] hz (constant (F := Ideal) ⟨0, ![]⟩ .f32 0x00000000#32))
        (broadcastInDim ⟨2, ![R, 1]⟩ ![0] hc dv)
        (mulf (Host.gather (rowsTake N D R wfG) h (broadcastInDim ⟨2, ![R, 1]⟩ ![0] hc sw))
              (broadcastInDim ⟨2, ![R, D]⟩ ![0, 1] hb (broadcastInDim ⟨2, ![R, 1]⟩ ![0] hc nrm))) (ix2 p k)
      = ∑ e ∈ Finset.univ.filter (fun e : Fin R => (dv (ix1 e)).toInt = (p.val : ℤ)),
          h (ix2 (⟨min (sw (ix1 e)).toInt.toNat (N - 1), by omega⟩ : Fin N) k) * nrm (ix1 e) := by
  rw [scatterAdd_rowsScatter_apply, zeros_apply, zero_add]
  have hf : (Finset.univ.filter fun e : Fin R =>
        (broadcastInDim ⟨2, ![R, 1]⟩ ![0] hc dv (ix2 e (0 : Fin 1))).toInt = (p.val : ℤ))
      = Finset.univ.filter fun e : Fin R => (dv (ix1 e)).toInt = (p.val : ℤ) :=
    Finset.filter_congr fun e _ => by rw [col_apply]
  rw [hf]
  refine Finset.sum_congr rfl fun e _ => ?_
  have hrow : (⟨min (broadcastInDim ⟨2, ![R, 1]⟩ ![0] hc sw (ix2 e (0 : Fin 1))).toInt.toNat (N - 1), by omega⟩ : Fin N)
      = ⟨min (sw (ix1 e)).toInt.toNat (N - 1), by omega⟩ :=
    Fin.ext (congrArg (fun z : BitVec 32 => min z.toInt.toNat (N - 1)) (col_apply hc sw e 0))
  rw [mulf_apply, gather_rowsTake_apply hN, stretch_apply, hrow, col_apply hc nrm]

end Cert.Lib

end
-- ==== Proof.LibGatherRows.lean ====
/-
  A lookup of rows along axis 0, read at an index.

  What `v[idx]` lowers to when `idx` is a vector of `R` start indices carried as an `[R, 1]` array (the index vector
  on axis 1): for a flat operand `[N]` the result is `[R]`, its entry `r` the operand at start index `idx(r, 0)`; for
  a one-column operand `[N, 1]` (the column an offset axis of size one) the result is `[R, 1]`, its entry `(r, 0)` the
  operand at `(idx(r, 0), 0)`. In both the start index is read as a signed integer and clamped into `[0, N − 1]`.
-/
import Idealize.ShloMosaic.Lib.ValueIdx

noncomputable section

namespace Cert.Lib

open Idealize.ShloMosaic Idealize.ShloMosaic.ValueIdx

variable {α : Type}

/-- The dimension numbers of `v[idx]` for `v : [N]`, `idx : [R, 1]`, result `[R]`. -/
abbrev flatTake (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The flat lookup at `r`: the operand at start index `idx(r, 0)`, signed and clamped. -/
theorem gather_flatTake_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (flatTake N R wf) x idx (ix1 r)
      = x (ix1 ⟨min (idx (ix2 r (0 : Fin 1))).toInt.toNat (N - 1), by omega⟩) := by
  unfold Host.gather
  congr 1
  funext a
  obtain rfl : a = 0 := Subsingleton.elim _ _
  refine Fin.ext ?_
  show (flatTake N R wf).start (ix1 r) idx 0 + (flatTake N R wf).batchCoord (ix1 r) 0
    + (flatTake N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatTake N R wf).startIndexMap from List.mem_singleton.mpr rfl)]
  have hsi : (flatTake N R wf).siIdx (ix1 r) ⟨List.idxOf (0 : Fin 1) (flatTake N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- The dimension numbers of `v[idx]` for a one-column `v : [N, 1]`, `idx : [R, 1]`, result `[R, 1]`. -/
abbrev colTake (N R : Nat) (wf : GatherDims.WF ⟨2, ![N, 1]⟩ ⟨2, ![R, 1]⟩ ⟨2, ![R, 1]⟩ [1] [0] [] [0] [] 1 ![1, 1]) :
    GatherDims ⟨2, ![N, 1]⟩ ⟨2, ![R, 1]⟩ ⟨2, ![R, 1]⟩ where
  offsetDims := [1]
  collapsedSliceDims := [0]
  operandBatchingDims := []
  startIndicesBatchingDims := []
  startIndexMap := [0]
  indexVectorDim := 1
  sliceSizes := ![1, 1]
  wf := wf

/-- The one-column lookup at `(r, u)`: the operand at `(idx(r, 0), 0)`, the start index signed and clamped. -/
theorem gather_colTake_apply {N R w : Nat} (hN : 0 < N)
    (wf : GatherDims.WF ⟨2, ![N, 1]⟩ ⟨2, ![R, 1]⟩ ⟨2, ![R, 1]⟩ [1] [0] [] [0] [] 1 ![1, 1])
    (x : (⟨2, ![N, 1]⟩ : Shape).Idx → α) (idx : IVec ⟨2, ![R, 1]⟩ w) (r : Fin R) (u : Fin 1) :
    Host.gather (colTake N R wf) x idx (ix2 r u)
      = x (ix2 (⟨min (idx (ix2 r (0 : Fin 1))).toInt.toNat (N - 1), by omega⟩ : Fin N) (0 : Fin 1)) := by
  unfold Host.gather
  congr 1
  funext a
  refine Fin.ext ?_
  match a with
  | ⟨0, _⟩ =>
    show (colTake N R wf).start (ix2 r u) idx 0 + (colTake N R wf).batchCoord (ix2 r u) 0
      + (colTake N R wf).offCoord (ix2 r u) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (colTake N R wf).startIndexMap from List.mem_singleton.mpr rfl)]
    have hsi : (colTake N R wf).siIdx (ix2 r u) ⟨List.idxOf (0 : Fin 2) (colTake N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    have h : (colTake N R wf).start (ix2 r u) idx 1 + (colTake N R wf).batchCoord (ix2 r u) 1
        + (colTake N R wf).offCoord (ix2 r u) 1 < 1 := (colTake N R wf).lt (ix2 r u) idx 1
    show (colTake N R wf).start (ix2 r u) idx 1 + (colTake N R wf).batchCoord (ix2 r u) 1
      + (colTake N R wf).offCoord (ix2 r u) 1 = 0
    omega

end Cert.Lib

end
-- ==== Proof.LibAggLinear.lean ====
/-
  A weighted neighbourhood sum commutes with a matrix product, on the extended reals, for REAL data.

  Over a set `A` of edges, each edge `e` taking the row `row e` of a matrix `X` with weight `n e`:
      ∑ k, (∑ e ∈ A, X (row e) k · n e) · W k  =  ∑ e ∈ A, (∑ k, X (row e) k · W k) · n e .
  Aggregating rows and then multiplying by a column of weights `W` is multiplying first and aggregating afterwards: both
  are the double sum of `X (row e) k · n e · W k`. The law needs every entry to be a real number: with infinite entries
  a product does not distribute over a sum on the extended reals.
-/
import Mathlib.Data.EReal.Basic
import Mathlib.Algebra.BigOperators.Ring.Finset
import Mathlib.Algebra.BigOperators.Group.Finset.Sigma
import Mathlib.Tactic.Ring

noncomputable section

namespace Cert.Lib

open scoped BigOperators

/-- The coercion of the reals into the extended reals carries a finite sum to the sum of the coercions. -/
theorem ereal_coe_sum {α : Type*} (s : Finset α) (f : α → ℝ) : ((∑ a ∈ s, f a : ℝ) : EReal) = ∑ a ∈ s, (f a : EReal) := by
  induction s using Finset.cons_induction with
  | empty => simp
  | cons a s ha ih => rw [Finset.sum_cons, Finset.sum_cons, EReal.coe_add, ih]

/-- A finite sum of real entries is a real. -/
theorem real_sum {α : Type*} (s : Finset α) (f : α → EReal) (hf : ∀ a, ∃ r : ℝ, f a = (r : EReal)) :
    ∃ r : ℝ, ∑ a ∈ s, f a = (r : EReal) := by
  choose g hg using hf
  exact ⟨∑ a ∈ s, g a, by rw [ereal_coe_sum]; exact Finset.sum_congr rfl fun a _ => hg a⟩

/-- Aggregate-then-multiply is multiply-then-aggregate, for real entries. -/
theorem sum_agg_mul {ν ε κ : Type*} [Fintype κ] (A : Finset ε) (row : ε → ν) (X : ν → κ → EReal) (W : κ → EReal)
    (n : ε → EReal) (hX : ∀ v k, ∃ r : ℝ, X v k = (r : EReal)) (hW : ∀ k, ∃ r : ℝ, W k = (r : EReal))
    (hn : ∀ e, ∃ r : ℝ, n e = (r : EReal)) :
    ∑ k, (∑ e ∈ A, X (row e) k * n e) * W k = ∑ e ∈ A, (∑ k, X (row e) k * W k) * n e := by
  choose x hx using hX
  choose w hw using hW
  choose nn hnn using hn
  have hl : ∀ k, (∑ e ∈ A, X (row e) k * n e) * W k = ((∑ e ∈ A, x (row e) k * nn e) * w k : ℝ) := fun k => by
    rw [EReal.coe_mul, ereal_coe_sum, hw]
    refine congrArg (· * (w k : EReal)) (Finset.sum_congr rfl fun e _ => ?_)
    rw [hx, hnn, EReal.coe_mul]
  have hr : ∀ e, (∑ k, X (row e) k * W k) * n e = ((∑ k, x (row e) k * w k) * nn e : ℝ) := fun e => by
    rw [EReal.coe_mul, ereal_coe_sum, hnn]
    refine congrArg (· * (nn e : EReal)) (Finset.sum_congr rfl fun k _ => ?_)
    rw [hx, hw, EReal.coe_mul]
  rw [Finset.sum_congr rfl fun k _ => hl k, Finset.sum_congr rfl fun e _ => hr e, ← ereal_coe_sum, ← ereal_coe_sum]
  refine congrArg _ ?_
  simp only [Finset.sum_mul]
  rw [Finset.sum_comm]
  refine Finset.sum_congr rfl fun e _ => Finset.sum_congr rfl fun k _ => ?_
  ring

end Cert.Lib

end
-- ==== Proof.LibNormSplit.lean ====
/-
  The symmetric normalisation of a graph convolution split between the two ends of an edge, on the extended reals.

  A normalised convolution weighs the message along an edge `e` from `s e` to `t e` by `d (s e) · d (t e)`, `d` a per-node
  scale. For the edges `A` that end at one node `p` the factor `d (t e) = d p` is common to the whole sum:
      d p · ∑ e ∈ A, P (s e) · d (s e)  =  ∑ e ∈ A, P (s e) · (d (s e) · d (t e)) .
  So scaling every source row by its own `d` before the edges are summed, and the sum by `d p` afterwards, is the same as
  weighing each edge. The law takes a common factor out of a sum, which on the extended reals needs every term to be a
  real number (a product does not distribute over a sum of infinities of both signs); the companions below say that the
  quantities of such a layer stay real: a finite sum of products of reals, a sum plus a real bias, and the larger of a
  real and the zero word.
-/
import Mathlib.Data.EReal.Basic
import Mathlib.Data.EReal.Operations
import Mathlib.Algebra.BigOperators.Ring.Finset
import Mathlib.Tactic.Ring
import proofs.«173324_j25683904430211_2_alg».proof.Proof.LibAggLinear

noncomputable section

namespace Cert.Lib

open scoped BigOperators

/-- A product of two reals is a real. -/
theorem real_mul {x y : EReal} (hx : ∃ r : ℝ, x = (r : EReal)) (hy : ∃ r : ℝ, y = (r : EReal)) : ∃ r : ℝ, x * y = (r : EReal) := by
  obtain ⟨a, rfl⟩ := hx; obtain ⟨b, rfl⟩ := hy; exact ⟨a * b, (EReal.coe_mul a b).symm⟩

/-- A sum of two reals is a real. -/
theorem real_add {x y : EReal} (hx : ∃ r : ℝ, x = (r : EReal)) (hy : ∃ r : ℝ, y = (r : EReal)) : ∃ r : ℝ, x + y = (r : EReal) := by
  obtain ⟨a, rfl⟩ := hx; obtain ⟨b, rfl⟩ := hy; exact ⟨a + b, (EReal.coe_add a b).symm⟩

/-- The larger of two reals is a real. -/
theorem real_max {x y : EReal} (hx : ∃ r : ℝ, x = (r : EReal)) (hy : ∃ r : ℝ, y = (r : EReal)) : ∃ r : ℝ, max x y = (r : EReal) := by
  obtain ⟨a, rfl⟩ := hx; obtain ⟨b, rfl⟩ := hy
  rcases le_total a b with h | h
  · exact ⟨b, max_eq_right (EReal.coe_le_coe_iff.mpr h)⟩
  · exact ⟨a, max_eq_left (EReal.coe_le_coe_iff.mpr h)⟩

/-- A finite sum, over a subset, of products of real entries is a real. -/
theorem real_sum_mul {α : Type*} (s : Finset α) (f g : α → EReal) (hf : ∀ a, ∃ r : ℝ, f a = (r : EReal))
    (hg : ∀ a, ∃ r : ℝ, g a = (r : EReal)) : ∃ r : ℝ, ∑ a ∈ s, f a * g a = (r : EReal) :=
  real_sum s _ fun a => real_mul (hf a) (hg a)

/-- The common factor `d p` of the edges ending at `p`, taken out of their sum (real data). -/
theorem norm_split {ε ν : Type*} (A : Finset ε) (s t : ε → ν) (p : ν) (hA : ∀ e ∈ A, t e = p) (P d : ν → EReal)
    (hP : ∀ v, ∃ r : ℝ, P v = (r : EReal)) (hd : ∀ v, ∃ r : ℝ, d v = (r : EReal)) :
    d p * ∑ e ∈ A, P (s e) * d (s e) = ∑ e ∈ A, P (s e) * (d (s e) * d (t e)) := by
  choose x hx using hP
  choose y hy using hd
  have hl : d p * ∑ e ∈ A, P (s e) * d (s e) = ((y p * ∑ e ∈ A, x (s e) * y (s e) : ℝ) : EReal) := by
    rw [EReal.coe_mul, ereal_coe_sum, hy]
    refine congrArg ((y p : EReal) * ·) (Finset.sum_congr rfl fun e _ => ?_)
    rw [hx, hy, EReal.coe_mul]
  have hr : ∑ e ∈ A, P (s e) * (d (s e) * d (t e)) = ((∑ e ∈ A, x (s e) * (y (s e) * y p) : ℝ) : EReal) := by
    rw [ereal_coe_sum]
    refine Finset.sum_congr rfl fun e he => ?_
    rw [hA e he, hx, hy, hy, EReal.coe_mul, EReal.coe_mul]
  rw [hl, hr, Finset.mul_sum]
  refine congrArg _ (Finset.sum_congr rfl fun e _ => ?_)
  ring

end Cert.Lib

end
-- ==== Proof.LibNormAgg.lean ====
/-
  The normalised neighbourhood sum of a graph convolution, computed two ways, read at an index (real data).

  For node features `P : [N, D]`, a per-node scale `d : [N]`, and `R` edges given by three vectors of node numbers — the
  sources `sw`, the targets `dv` as they address the accumulator (a number outside `[0, N)` lands nowhere), and the targets
  `tn` as they address a lookup (clamped into `[0, N − 1]`):
  * one way weighs every edge: row `sw(e)` of `P` times `d[sw(e)] · d[tn(e)]`, added into row `dv(e)`;
  * the other scales row `q` of `P` by `d q` beforehand (`Hs`), adds row `sw(e)` of that into row `dv(e)` unweighted, and
    multiplies row `p` of the sums by `d p` afterwards.
  They agree wherever an edge that lands on `p` also looks up `d` at `p` — the two readings of a target that IS a node
  number coincide —, by taking the common factor `d p` out of the sum (`norm_split`, which needs real entries).
  Also here: the wrap of a negative index leaves a nonnegative word alone.
-/
import proofs.«173324_j25683904430211_2_alg».proof.Proof.LibEdgeAgg
import proofs.«173324_j25683904430211_2_alg».proof.Proof.LibGatherRows
import proofs.«173324_j25683904430211_2_alg».proof.Proof.LibNormSplit

noncomputable section

open scoped BigOperators

namespace Cert.Lib

open Idealize.ShloMosaic Idealize.ShloMosaic.ValueIdx

/-- The wrap `x < 0 ? x + n : x` of a signed word that is not negative is the word itself. -/
theorem wrap_of_nonneg (x a : BitVec 32) (h : 0 ≤ x.toInt) : Scalar.select (IntOp.cmpi .slt x 0#32) a x = x := by
  have hs : x.slt 0#32 = false := by
    simp only [BitVec.slt, BitVec.toInt_zero, decide_eq_false_iff_not, not_lt]
    exact h
  unfold Scalar.select IntOp.cmpi
  simp [hs]

variable {N D R : ℕ}

/-- The two computations of the normalised neighbourhood sum agree at `(p, k)`. -/
theorem norm_agg_split (hN : 0 < N)
    (wfG : GatherDims.WF ⟨2, ![N, D]⟩ ⟨2, ![R, 1]⟩ ⟨2, ![R, D]⟩ [1] [0] [] [0] [] 1 ![1, D])
    (wfS : ScatterDims.WF ⟨2, ![N, D]⟩ ⟨2, ![R, 1]⟩ ⟨2, ![R, D]⟩ [1] [0] [0] 1)
    (wfV : GatherDims.WF ⟨1, ![N]⟩ ⟨2, ![R, 1]⟩ ⟨1, ![R]⟩ [] [0] [] [0] [] 1 ![1])
    (hz : (⟨0, ![]⟩ : Shape).BroadcastsInDim ⟨2, ![N, D]⟩ (![] : Fin 0 → Fin 2))
    (hc : (⟨1, ![R]⟩ : Shape).BroadcastsInDim ⟨2, ![R, 1]⟩ (![0] : Fin 1 → Fin 2))
    (hb : (⟨2, ![R, 1]⟩ : Shape).BroadcastsInDim ⟨2, ![R, D]⟩ (![0, 1] : Fin 2 → Fin 2))
    (P Hs : (⟨2, ![N, D]⟩ : Shape).Idx → EReal) (d : (⟨1, ![N]⟩ : Shape).Idx → EReal)
    (hP : ∀ i, ∃ r : ℝ, P i = (r : EReal)) (hd : ∀ i, ∃ r : ℝ, d i = (r : EReal))
    (hHs : ∀ (q : Fin N) (k : Fin D), Hs (ix2 q k) = P (ix2 q k) * d (ix1 q))
    (sw dv tn : IVec ⟨1, ![R]⟩ 32)
    (htn : ∀ (e : Fin R) (p : Fin N), (dv (ix1 e)).toInt = (p.val : ℤ) → min (tn (ix1 e)).toInt.toNat (N - 1) = p.val)
    (p : Fin N) (k : Fin D) :
    d (ix1 p) * Host.scatterAdd (F := Ideal) (φ := .f32) (rowsScatter N D R wfS)
          (broadcastInDim ⟨2, ![N, D]⟩ ![] hz (constant (F := Ideal) ⟨0, ![]⟩ .f32 0x00000000#32))
          (broadcastInDim ⟨2, ![R, 1]⟩ ![0] hc dv)
          (Host.gather (rowsTake N D R wfG) Hs (broadcastInDim ⟨2, ![R, 1]⟩ ![0] hc sw)) (ix2 p k)
      = Host.scatterAdd (F := Ideal) (φ := .f32) (rowsScatter N D R wfS)
          (broadcastInDim ⟨2, ![N, D]⟩ ![] hz (constant (F := Ideal) ⟨0, ![]⟩ .f32 0x00000000#32))
          (broadcastInDim ⟨2, ![R, 1]⟩ ![0] hc dv)
          (mulf (Host.gather (rowsTake N D R wfG) P (broadcastInDim ⟨2, ![R, 1]⟩ ![0] hc sw))
            (broadcastInDim ⟨2, ![R, D]⟩ ![0, 1] hb (broadcastInDim ⟨2, ![R, 1]⟩ ![0] hc
              (mulf (F := Ideal) (φ := .f32) (Host.gather (flatTake N R wfV) d (broadcastInDim ⟨2, ![R, 1]⟩ ![0] hc sw))
                (Host.gather (flatTake N R wfV) d (broadcastInDim ⟨2, ![R, 1]⟩ ![0] hc tn)))))) (ix2 p k) := by
  -- the clamped readings of the source and of the looked-up target, as node numbers
  let sN : Fin R → Fin N := fun e => ⟨min (sw (ix1 e)).toInt.toNat (N - 1), by omega⟩
  let tN : Fin R → Fin N := fun e => ⟨min (tn (ix1 e)).toInt.toNat (N - 1), by omega⟩
  have hcol : ∀ (w : IVec ⟨1, ![R]⟩ 32) (e : Fin R),
      (⟨min (broadcastInDim ⟨2, ![R, 1]⟩ ![0] hc w (ix2 e (0 : Fin 1))).toInt.toNat (N - 1), by omega⟩ : Fin N)
        = ⟨min (w (ix1 e)).toInt.toNat (N - 1), by omega⟩ := fun w e =>
    Fin.ext (congrArg (fun z : BitVec 32 => min z.toInt.toNat (N - 1)) (col_apply hc w e 0))
  have hgd : ∀ (w : IVec ⟨1, ![R]⟩ 32) (e : Fin R),
      Host.gather (flatTake N R wfV) d (broadcastInDim ⟨2, ![R, 1]⟩ ![0] hc w) (ix1 e)
        = d (ix1 ⟨min (w (ix1 e)).toInt.toNat (N - 1), by omega⟩) := fun w e => by
    rw [gather_flatTake_apply hN, hcol]
  -- the weighted side
  rw [agg_rows_apply hN wfG wfS hz hc hb P sw dv _ p k]
  -- the pre-scaled side
  rw [scatterAdd_rowsScatter_apply, zeros_apply, zero_add]
  have hf : (Finset.univ.filter fun e : Fin R =>
        (broadcastInDim ⟨2, ![R, 1]⟩ ![0] hc dv (ix2 e (0 : Fin 1))).toInt = (p.val : ℤ))
      = Finset.univ.filter fun e : Fin R => (dv (ix1 e)).toInt = (p.val : ℤ) :=
    Finset.filter_congr fun e _ => by rw [col_apply]
  rw [hf]
  have hl : ∀ e : Fin R, Host.gather (rowsTake N D R wfG) Hs (broadcastInDim ⟨2, ![R, 1]⟩ ![0] hc sw) (ix2 e k)
      = P (ix2 (sN e) k) * d (ix1 (sN e)) := fun e => by
    rw [gather_rowsTake_apply hN, hcol, hHs]
  have hr : ∀ e : Fin R,
      P (ix2 (⟨min (sw (ix1 e)).toInt.toNat (N - 1), by omega⟩ : Fin N) k)
          * mulf (F := Ideal) (φ := .f32) (Host.gather (flatTake N R wfV) d (broadcastInDim ⟨2, ![R, 1]⟩ ![0] hc sw))
              (Host.gather (flatTake N R wfV) d (broadcastInDim ⟨2, ![R, 1]⟩ ![0] hc tn)) (ix1 e)
        = P (ix2 (sN e) k) * (d (ix1 (sN e)) * d (ix1 (tN e))) := fun e => by
    rw [mulf_apply, hgd, hgd]
  rw [Finset.sum_congr rfl fun e _ => hl e, Finset.sum_congr rfl fun e _ => hr e]
  exact norm_split (Finset.univ.filter fun e : Fin R => (dv (ix1 e)).toInt = (p.val : ℤ)) sN tN p
    (fun e he => Fin.ext (htn e p (Finset.mem_filter.mp he).2))
    (fun v => P (ix2 v k)) (fun v => d (ix1 v)) (fun v => hP _) (fun v => hd _)

end Cert.Lib

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibScaledLayers.lean ====
/-
  The two fused dense steps of a normalised graph convolution, entry by entry, on the extended reals (any extents).

  With node features `X` (one row per node), weights `W`, and a per-node scale laid as a column `s : [n, 1]`:
  * `scaledProduct X W s` is the feature product with row `p` scaled by `s p`: entry `(p, q)` is
    `(∑ k, X (p, k) · W (k, q)) · s p`;
  * `finishProduct A s b W` first finishes the previous layer — row `p` of the aggregated features `A` scaled by `s p`,
    plus the bias row `b`, the larger of that and zero — and then is the scaled product of the result: entry `(p, q)` is
    `(∑ j, max (s p · A (p, j) + b j) 0 · W (j, q)) · s p`.
  Both are functions of an index alone, so a block of rows of the result is the same function of that block of rows of
  `X` (or `A`) and `s`: all a row-tiled launch needs. Below each is read at an entry off a block kernel's arithmetic: the
  operands converted to a narrower float format on the way into the matrix unit (the identity on the extended reals), a
  zero accumulator, the scale column and the bias row stretched over the block.
-/
import Idealize.ShloMosaic.PureOps.Ideal.Laws
import Idealize.ShloMosaic.Lib.ValueIdx
import Idealize.ShloMosaic.Lib.ValueLayout
import Idealize.ShloMosaic.Lib.Pipeline.Value
import proofs.«173324_j25683904430211_2_alg».proof.Proof.LibMatDot
import proofs.«173324_j25683904430211_2_alg».proof.Proof.LibColumn

noncomputable section

namespace Cert.Lib

open Idealize.ShloMosaic Idealize.ShloMosaic.ValueIdx
open scoped BigOperators

variable {n K M : ℕ}

/-- The feature product with row `p` scaled by the column's entry `p`. -/
def scaledProduct {ψ : FTy} (X : FVec Ideal ⟨2, ![n, K]⟩ .f32) (W : FVec Ideal ⟨2, ![K, M]⟩ ψ) (s : FVec Ideal ⟨2, ![n, 1]⟩ .f32) :
    (⟨2, ![n, M]⟩ : Shape).Idx → EReal :=
  fun i => (∑ k : Fin K, X (ix2 (i 0) k) * W (ix2 k (i 1))) * s (ix2 (i 0) (0 : Fin 1))

theorem scaledProduct_apply {ψ : FTy} (X : FVec Ideal ⟨2, ![n, K]⟩ .f32) (W : FVec Ideal ⟨2, ![K, M]⟩ ψ)
    (s : FVec Ideal ⟨2, ![n, 1]⟩ .f32) (p : Fin n) (q : Fin M) :
    scaledProduct X W s (ix2 p q) = (∑ k : Fin K, X (ix2 p k) * W (ix2 k q)) * s (ix2 p (0 : Fin 1)) := rfl

/-- Finish the previous layer (scale, bias, the larger of that and zero), then the scaled feature product. -/
def finishProduct {ψ : FTy} (A : FVec Ideal ⟨2, ![n, K]⟩ .f32) (s : FVec Ideal ⟨2, ![n, 1]⟩ .f32) (b : FVec Ideal ⟨2, ![1, K]⟩ .f32)
    (W : FVec Ideal ⟨2, ![K, M]⟩ ψ) : (⟨2, ![n, M]⟩ : Shape).Idx → EReal :=
  fun i => (∑ j : Fin K, max (s (ix2 (i 0) (0 : Fin 1)) * A (ix2 (i 0) j) + b (ix2 (0 : Fin 1) j)) (Ideal.ofBits .f32 0x00000000#32)
      * W (ix2 j (i 1))) * s (ix2 (i 0) (0 : Fin 1))

theorem finishProduct_apply {ψ : FTy} (A : FVec Ideal ⟨2, ![n, K]⟩ .f32) (s : FVec Ideal ⟨2, ![n, 1]⟩ .f32)
    (b : FVec Ideal ⟨2, ![1, K]⟩ .f32) (W : FVec Ideal ⟨2, ![K, M]⟩ ψ) (p : Fin n) (q : Fin M) :
    finishProduct A s b W (ix2 p q)
      = (∑ j : Fin K, max (s (ix2 p (0 : Fin 1)) * A (ix2 p j) + b (ix2 (0 : Fin 1) j)) (Ideal.ofBits .f32 0x00000000#32)
          * W (ix2 j q)) * s (ix2 p (0 : Fin 1)) := rfl

/-! ## A block kernel's arithmetic at an entry -/

/-- The matrix unit's product of the block (converted on the way in) with the weights into a zero accumulator, times the
    scale column stretched over the block, converted on the way out: the scaled product's entry. -/
theorem kernelScaledProduct_apply (wf : DotDims.WF ⟨2, ![n, K]⟩ ⟨2, ![K, M]⟩ ⟨2, ![n, M]⟩ [1] [0] [0] [1] [] []) {ψ : FTy}
    (h : ψ.bits < FTy.f32.bits) (v0 : FVec Ideal ⟨2, ![n, K]⟩ .f32) (v2 : FVec Ideal ⟨2, ![K, M]⟩ ψ) (v5 : FVec Ideal ⟨2, ![n, 1]⟩ .f32)
    (hs2 : (⟨2, ![K, M]⟩ : Shape).ShapeCasts ⟨2, ![K, M]⟩) (hs5 : (⟨2, ![n, 1]⟩ : Shape).ShapeCasts ⟨2, ![n, 1]⟩)
    (hb : (⟨2, ![n, 1]⟩ : Shape).Broadcasts ⟨2, ![n, M]⟩) (p : Fin n) (q : Fin M) :
    (truncf ψ (mulf (matmul (matDot wf) none (truncf ψ v0 h) (shapeCast ⟨2, ![K, M]⟩ v2 hs2)
          (constant ⟨2, ![n, M]⟩ .f32 0x00000000#32))
        (broadcastTo ⟨2, ![n, M]⟩ (shapeCast ⟨2, ![n, 1]⟩ v5 hs5) hb)) h : FVec Ideal ⟨2, ![n, M]⟩ ψ) (ix2 p q)
      = scaledProduct v0 v2 v5 (ix2 p q) := by
  rw [shapeCast_self, shapeCast_self]
  show FloatOps.matmul (matDot wf) none (truncf ψ v0 h) v2 (constant ⟨2, ![n, M]⟩ .f32 0x00000000#32) (ix2 p q)
      * broadcastTo ⟨2, ![n, M]⟩ v5 hb (ix2 p q) = _
  rw [matmul_plain_zero_apply, broadcastTo_a1_ab_apply]
  rfl

/-- The same after finishing the previous layer on the way in: the aggregated block scaled by the column, plus the bias
    row stretched over the block, the larger of that and a zero repeated over the block. The scale column is loaded
    twice (once for each use), hence the two variables. -/
theorem kernelFinishProduct_apply (wf : DotDims.WF ⟨2, ![n, K]⟩ ⟨2, ![K, M]⟩ ⟨2, ![n, M]⟩ [1] [0] [0] [1] [] []) {ψ : FTy}
    (h : ψ.bits < FTy.f32.bits) (v0 : FVec Ideal ⟨2, ![n, 1]⟩ .f32) (v2 : FVec Ideal ⟨2, ![n, K]⟩ .f32)
    (v6 : FVec Ideal ⟨2, ![1, K]⟩ .f32) (v13 : FVec Ideal ⟨2, ![K, M]⟩ ψ) (v16 : FVec Ideal ⟨2, ![n, 1]⟩ .f32)
    (hs0 : (⟨2, ![n, 1]⟩ : Shape).ShapeCasts ⟨2, ![n, 1]⟩) (hs2 : (⟨2, ![n, K]⟩ : Shape).ShapeCasts ⟨2, ![n, K]⟩)
    (hs6 : (⟨2, ![1, K]⟩ : Shape).ShapeCasts ⟨2, ![1, K]⟩) (hs13 : (⟨2, ![K, M]⟩ : Shape).ShapeCasts ⟨2, ![K, M]⟩)
    (hb1 : (⟨2, ![n, 1]⟩ : Shape).Broadcasts ⟨2, ![n, K]⟩) (hb6 : (⟨2, ![1, K]⟩ : Shape).Broadcasts ⟨2, ![n, K]⟩)
    (hb3 : (⟨2, ![n, 1]⟩ : Shape).Broadcasts ⟨2, ![n, M]⟩) (p : Fin n) (q : Fin M) :
    (truncf ψ (mulf (matmul (matDot wf) none
          (truncf ψ (maximumf (addf (mulf (broadcastTo ⟨2, ![n, K]⟩ (shapeCast ⟨2, ![n, 1]⟩ v0 hs0) hb1) (shapeCast ⟨2, ![n, K]⟩ v2 hs2))
                (broadcastTo ⟨2, ![n, K]⟩ (shapeCast ⟨2, ![1, K]⟩ v6 hs6) hb6))
              (broadcast ⟨2, ![n, K]⟩ (Scalar.ofBits (F := Ideal) .f32 0x00000000#32))) h)
          (shapeCast ⟨2, ![K, M]⟩ v13 hs13) (constant ⟨2, ![n, M]⟩ .f32 0x00000000#32))
        (broadcastTo ⟨2, ![n, M]⟩ (shapeCast ⟨2, ![n, 1]⟩ v16 hs0) hb3)) h : FVec Ideal ⟨2, ![n, M]⟩ ψ) (ix2 p q)
      = (∑ j : Fin K, max (v0 (ix2 p (0 : Fin 1)) * v2 (ix2 p j) + v6 (ix2 (0 : Fin 1) j)) (Ideal.ofBits .f32 0x00000000#32)
          * v13 (ix2 j q)) * v16 (ix2 p (0 : Fin 1)) := by
  rw [shapeCast_self, shapeCast_self, shapeCast_self, shapeCast_self, shapeCast_self]
  show FloatOps.matmul (matDot wf) none
        (truncf ψ (maximumf (addf (mulf (broadcastTo ⟨2, ![n, K]⟩ v0 hb1) v2) (broadcastTo ⟨2, ![n, K]⟩ v6 hb6))
          (broadcast ⟨2, ![n, K]⟩ (Scalar.ofBits (F := Ideal) .f32 0x00000000#32))) h)
        v13 (constant ⟨2, ![n, M]⟩ .f32 0x00000000#32) (ix2 p q)
      * broadcastTo ⟨2, ![n, M]⟩ v16 hb3 (ix2 p q) = _
  rw [matmul_plain_zero_apply, broadcastTo_a1_ab_apply]
  refine congrArg (· * v16 (ix2 p (0 : Fin 1))) (Finset.sum_congr rfl fun j _ => ?_)
  show max (broadcastTo ⟨2, ![n, K]⟩ v0 hb1 (ix2 p j) * v2 (ix2 p j) + broadcastTo ⟨2, ![n, K]⟩ v6 hb6 (ix2 p j))
      (Ideal.ofBits .f32 0x00000000#32) * v13 (ix2 j q) = _
  rw [broadcastTo_a1_ab_apply, broadcastTo_1b_ab_apply]

end Cert.Lib

end
-- ==== Proof.LibGcnBlocks.lean ====
/-
  The three block computations of a graph-convolution network whose normalisation is factored out of the edge sum, each
  read at one entry of the block (program-free, any extents):

  * the scaled feature product — the matrix unit's product of the block of features with the weights (both converted on
    the way in) into a zero accumulator, every row `p` then multiplied by the entry `p` of a one-column scale:
    `(∑ k, X p k · W k q) · s p` (`Cert.Lib.scaledProduct`);
  * the finish of a layer — the aggregated block, row `p` times the scale's entry `p`, plus a bias row, and the larger of
    that and zero: `max (A p q · s p + b q) 0` (`Cert.Lib.finishRows`);
  * two products added, plus a bias row: `∑ k, H p k · W k q + ∑ k, H' p k · W' k q + b q` (`Cert.Lib.twoProducts`) — a product
    with a matrix of twice the inner extent, computed as its upper and lower halves.
-/
import Idealize.ShloMosaic.PureOps.Ideal.Laws
import Idealize.ShloMosaic.Lib.ValueIdx
import Idealize.ShloMosaic.Lib.ValueLayout
import Idealize.ShloMosaic.Lib.Pipeline.Value
import proofs.«173324_j25683904430211_2_alg».proof.Proof.LibMatDot
import proofs.«173324_j25683904430211_2_alg».proof.Proof.LibColumn
import proofs.«173324_j25683904430211_2_alg».proof.Proof.LibScaledLayers

noncomputable section

namespace Cert.Lib

open Idealize.ShloMosaic Idealize.ShloMosaic.ValueIdx
open scoped BigOperators

variable {n K M : ℕ}

/-- Row `p` of the aggregate times the scale's entry `p`, plus the bias row, and the larger of that and zero. -/
def finishRows (A : (⟨2, ![n, M]⟩ : Shape).Idx → EReal) (s : (⟨2, ![n, 1]⟩ : Shape).Idx → EReal)
    (b : (⟨2, ![1, M]⟩ : Shape).Idx → EReal) : (⟨2, ![n, M]⟩ : Shape).Idx → EReal :=
  fun i => max (A i * s (ix2 (i 0) (0 : Fin 1)) + b (ix2 (0 : Fin 1) (i 1))) (Ideal.ofBits .f32 0x00000000#32)

theorem finishRows_apply (A : (⟨2, ![n, M]⟩ : Shape).Idx → EReal) (s : (⟨2, ![n, 1]⟩ : Shape).Idx → EReal)
    (b : (⟨2, ![1, M]⟩ : Shape).Idx → EReal) (p : Fin n) (q : Fin M) :
    finishRows A s b (ix2 p q)
      = max (A (ix2 p q) * s (ix2 p (0 : Fin 1)) + b (ix2 (0 : Fin 1) q)) (Ideal.ofBits .f32 0x00000000#32) := rfl

/-- Two row-by-column products added, plus a bias row. -/
def twoProducts (H H' : (⟨2, ![n, K]⟩ : Shape).Idx → EReal) (W W' : (⟨2, ![K, M]⟩ : Shape).Idx → EReal)
    (b : (⟨2, ![1, M]⟩ : Shape).Idx → EReal) : (⟨2, ![n, M]⟩ : Shape).Idx → EReal :=
  fun i => (∑ k : Fin K, H (ix2 (i 0) k) * W (ix2 k (i 1))) + (∑ k : Fin K, H' (ix2 (i 0) k) * W' (ix2 k (i 1)))
    + b (ix2 (0 : Fin 1) (i 1))

theorem twoProducts_apply (H H' : (⟨2, ![n, K]⟩ : Shape).Idx → EReal) (W W' : (⟨2, ![K, M]⟩ : Shape).Idx → EReal)
    (b : (⟨2, ![1, M]⟩ : Shape).Idx → EReal) (p : Fin n) (q : Fin M) :
    twoProducts H H' W W' b (ix2 p q)
      = (∑ k : Fin K, H (ix2 p k) * W (ix2 k q)) + (∑ k : Fin K, H' (ix2 p k) * W' (ix2 k q)) + b (ix2 (0 : Fin 1) q) := rfl

/-! ## A block kernel's arithmetic at an entry -/

/-- The product of the converted block with the converted weights into a zero accumulator, times the scale column
    stretched over the block: the scaled product's entry. -/
theorem blockScaled_apply (wf : DotDims.WF ⟨2, ![n, K]⟩ ⟨2, ![K, M]⟩ ⟨2, ![n, M]⟩ [1] [0] [0] [1] [] []) {ψ : FTy}
    (h : ψ.bits < FTy.f32.bits) (v0 : FVec Ideal ⟨2, ![n, K]⟩ .f32) (v2 : FVec Ideal ⟨2, ![K, M]⟩ .f32)
    (v5 : FVec Ideal ⟨2, ![n, 1]⟩ .f32) (hs5 : (⟨2, ![n, 1]⟩ : Shape).ShapeCasts ⟨2, ![n, 1]⟩)
    (hb : (⟨2, ![n, 1]⟩ : Shape).Broadcasts ⟨2, ![n, M]⟩) (p : Fin n) (q : Fin M) :
    mulf (matmul (matDot wf) none (truncf ψ v0 h) (truncf ψ v2 h) (constant ⟨2, ![n, M]⟩ .f32 0x00000000#32))
        (broadcastTo ⟨2, ![n, M]⟩ (shapeCast ⟨2, ![n, 1]⟩ v5 hs5) hb) (ix2 p q)
      = scaledProduct v0 v2 v5 (ix2 p q) := by
  rw [shapeCast_self]
  show FloatOps.matmul (matDot wf) none (truncf ψ v0 h) (truncf ψ v2 h) (constant ⟨2, ![n, M]⟩ .f32 0x00000000#32) (ix2 p q)
      * broadcastTo ⟨2, ![n, M]⟩ v5 hb (ix2 p q) = _
  rw [matmul_plain_zero_apply, broadcastTo_a1_ab_apply]
  rfl

/-- The aggregated block times the stretched scale column, plus the stretched bias row, the larger of that and a zero
    repeated over the block: the finish's entry. -/
theorem blockFinish_apply (v0 : FVec Ideal ⟨2, ![n, M]⟩ .f32) (v2 : FVec Ideal ⟨2, ![n, 1]⟩ .f32)
    (v6 : FVec Ideal ⟨2, ![1, M]⟩ .f32) (hs0 : (⟨2, ![n, M]⟩ : Shape).ShapeCasts ⟨2, ![n, M]⟩)
    (hs2 : (⟨2, ![n, 1]⟩ : Shape).ShapeCasts ⟨2, ![n, 1]⟩) (hs6 : (⟨2, ![1, M]⟩ : Shape).ShapeCasts ⟨2, ![1, M]⟩)
    (hb2 : (⟨2, ![n, 1]⟩ : Shape).Broadcasts ⟨2, ![n, M]⟩) (hb6 : (⟨2, ![1, M]⟩ : Shape).Broadcasts ⟨2, ![n, M]⟩)
    (p : Fin n) (q : Fin M) :
    maximumf (addf (mulf (shapeCast ⟨2, ![n, M]⟩ v0 hs0) (broadcastTo ⟨2, ![n, M]⟩ (shapeCast ⟨2, ![n, 1]⟩ v2 hs2) hb2))
          (broadcastTo ⟨2, ![n, M]⟩ (shapeCast ⟨2, ![1, M]⟩ v6 hs6) hb6))
        (broadcast ⟨2, ![n, M]⟩ (Scalar.ofBits (F := Ideal) .f32 0x00000000#32)) (ix2 p q)
      = finishRows v0 v2 v6 (ix2 p q) := by
  rw [shapeCast_self, shapeCast_self, shapeCast_self]
  show max (v0 (ix2 p q) * broadcastTo ⟨2, ![n, M]⟩ v2 hb2 (ix2 p q) + broadcastTo ⟨2, ![n, M]⟩ v6 hb6 (ix2 p q)) _ = _
  rw [broadcastTo_a1_ab_apply, broadcastTo_1b_ab_apply]
  rfl

/-- Two products of converted blocks with converted weights, each into a zero accumulator, added, plus the stretched
    bias row: the entry of the two products added. -/
theorem blockTwoProducts_apply (wf : DotDims.WF ⟨2, ![n, K]⟩ ⟨2, ![K, M]⟩ ⟨2, ![n, M]⟩ [1] [0] [0] [1] [] []) {ψ : FTy}
    (h : ψ.bits < FTy.f32.bits) (v0 v3 : FVec Ideal ⟨2, ![n, K]⟩ .f32) (v6 v9 : FVec Ideal ⟨2, ![K, M]⟩ .f32)
    (v15 : FVec Ideal ⟨2, ![1, M]⟩ .f32) (hsa : (⟨2, ![n, K]⟩ : Shape).ShapeCasts ⟨2, ![n, K]⟩)
    (hsw : (⟨2, ![K, M]⟩ : Shape).ShapeCasts ⟨2, ![K, M]⟩) (hsb : (⟨2, ![1, M]⟩ : Shape).ShapeCasts ⟨2, ![1, M]⟩)
    (hb : (⟨2, ![1, M]⟩ : Shape).Broadcasts ⟨2, ![n, M]⟩) (p : Fin n) (q : Fin M) :
    addf (addf (matmul (matDot wf) none (truncf ψ (shapeCast ⟨2, ![n, K]⟩ v0 hsa) h) (truncf ψ (shapeCast ⟨2, ![K, M]⟩ v6 hsw) h)
            (constant ⟨2, ![n, M]⟩ .f32 0x00000000#32))
          (matmul (matDot wf) none (truncf ψ (shapeCast ⟨2, ![n, K]⟩ v3 hsa) h) (truncf ψ (shapeCast ⟨2, ![K, M]⟩ v9 hsw) h)
            (constant ⟨2, ![n, M]⟩ .f32 0x00000000#32)))
        (broadcastTo ⟨2, ![n, M]⟩ (shapeCast ⟨2, ![1, M]⟩ v15 hsb) hb) (ix2 p q)
      = twoProducts v0 v3 v6 v9 v15 (ix2 p q) := by
  rw [shapeCast_self, shapeCast_self, shapeCast_self, shapeCast_self, shapeCast_self]
  show FloatOps.matmul (matDot wf) none (truncf ψ v0 h) (truncf ψ v6 h) (constant ⟨2, ![n, M]⟩ .f32 0x00000000#32) (ix2 p q)
      + FloatOps.matmul (matDot wf) none (truncf ψ v3 h) (truncf ψ v9 h) (constant ⟨2, ![n, M]⟩ .f32 0x00000000#32) (ix2 p q)
      + broadcastTo ⟨2, ![n, M]⟩ v15 hb (ix2 p q) = _
  rw [matmul_plain_zero_apply, matmul_plain_zero_apply, broadcastTo_1b_ab_apply]
  rfl

end Cert.Lib

end
-- ==== Proof.LibGcnLayer.lean ====
/-
  One layer of a symmetric-normalised graph convolution, arranged two ways, as whole arrays (real data; any extents).

  With features `X : [N, K]`, weights `W : [K, D]`, a bias `b : [D]`, a per-node scale `d : [N]`, and `R` edges given by the
  sources `sw`, the targets `dv` as they address the accumulator and the targets `tn` as they address a lookup:
  * WEIGHTED (each edge carries `d[src] · d[dst]`): `max (∑ over the edges landing on p of (X·W)[src e, k] · (d[src e] · d[dst e]) + b k) 0`;
  * FACTORED (the scale applied to the rows before and after the unweighted edge sum):
    `max ((∑ over the edges landing on p of ((X·W)[src e, k] · d[src e])) · d p + b k) 0`.
  They are one array (`layer_factored_eq`): `d p` is a common factor of the edges landing on `p`, and it comes out of their
  sum because every entry is a real (`norm_agg_split`). The common value is again an array of reals (`layer_weighted_real`),
  which is what the next layer needs of its features.
-/
import proofs.«173324_j25683904430211_2_alg».proof.Proof.LibNormAgg
import proofs.«173324_j25683904430211_2_alg».proof.Proof.LibGcnBlocks

noncomputable section

open scoped BigOperators

namespace Cert.Lib

open Idealize.ShloMosaic Idealize.ShloMosaic.ValueIdx

variable {N K D R : ℕ}

/-- The host's product of rows with columns at `(p, q)`. -/
theorem hostDot_apply (wfD : DotDims.WF ⟨2, ![N, K]⟩ ⟨2, ![K, D]⟩ ⟨2, ![N, D]⟩ [1] [0] [0] [1] [] [])
    (X : FVec Ideal ⟨2, ![N, K]⟩ .f32) (W : FVec Ideal ⟨2, ![K, D]⟩ .f32) (p : Fin N) (q : Fin D) :
    Host.dotGeneral (matDot wfD) none X W (ix2 p q) = ∑ k : Fin K, X (ix2 p k) * W (ix2 k q) := by
  simp only [Host.dotGeneral]
  rw [dotGeneral_plain_apply]

/-- A product of real matrices has real entries. -/
theorem hostDot_real (wfD : DotDims.WF ⟨2, ![N, K]⟩ ⟨2, ![K, D]⟩ ⟨2, ![N, D]⟩ [1] [0] [0] [1] [] [])
    (X : FVec Ideal ⟨2, ![N, K]⟩ .f32) (W : FVec Ideal ⟨2, ![K, D]⟩ .f32)
    (hX : ∀ i, ∃ r : ℝ, X i = (r : EReal)) (hW : ∀ i, ∃ r : ℝ, W i = (r : EReal)) (i : (⟨2, ![N, D]⟩ : Shape).Idx) :
    ∃ r : ℝ, Host.dotGeneral (matDot wfD) none X W i = (r : EReal) := by
  obtain ⟨p, q, rfl⟩ : ∃ (p : Fin N) (q : Fin D), i = ix2 p q := ⟨i 0, i 1, eq_ix2 i⟩
  rw [hostDot_apply]
  have h := real_sum_mul (Finset.univ : Finset (Fin K)) (fun k => X (ix2 p k)) (fun k => W (ix2 k q))
    (fun k => hX _) (fun k => hW _)
  exact h

section Layer

variable (hN : 0 < N)
  (wfD : DotDims.WF ⟨2, ![N, K]⟩ ⟨2, ![K, D]⟩ ⟨2, ![N, D]⟩ [1] [0] [0] [1] [] [])
  (wfG : GatherDims.WF ⟨2, ![N, D]⟩ ⟨2, ![R, 1]⟩ ⟨2, ![R, D]⟩ [1] [0] [] [0] [] 1 ![1, D])
  (wfS : ScatterDims.WF ⟨2, ![N, D]⟩ ⟨2, ![R, 1]⟩ ⟨2, ![R, D]⟩ [1] [0] [0] 1)
  (wfV : GatherDims.WF ⟨1, ![N]⟩ ⟨2, ![R, 1]⟩ ⟨1, ![R]⟩ [] [0] [] [0] [] 1 ![1])
  (hz : (⟨0, ![]⟩ : Shape).BroadcastsInDim ⟨2, ![N, D]⟩ (![] : Fin 0 → Fin 2))
  (hc : (⟨1, ![R]⟩ : Shape).BroadcastsInDim ⟨2, ![R, 1]⟩ (![0] : Fin 1 → Fin 2))
  (hb : (⟨2, ![R, 1]⟩ : Shape).BroadcastsInDim ⟨2, ![R, D]⟩ (![0, 1] : Fin 2 → Fin 2))

/-- The weighted arrangement of a layer: the edge sum of the gathered rows of `X·W` times the stretched per-edge weights
    `d[src] · d[dst]`, plus the bias laid over the rows (`B`), and the larger of that and the zero array `Z`. -/
def layerWeighted (X : FVec Ideal ⟨2, ![N, K]⟩ .f32) (W : FVec Ideal ⟨2, ![K, D]⟩ .f32)
    (d : (⟨1, ![N]⟩ : Shape).Idx → EReal) (B Z : FVec Ideal ⟨2, ![N, D]⟩ .f32) (sw dv tn : IVec ⟨1, ![R]⟩ 32) :
    FVec Ideal ⟨2, ![N, D]⟩ .f32 :=
  maximumf (addf (Host.scatterAdd (F := Ideal) (φ := .f32) (rowsScatter N D R wfS)
      (broadcastInDim ⟨2, ![N, D]⟩ ![] hz (constant (F := Ideal) ⟨0, ![]⟩ .f32 0x00000000#32))
      (broadcastInDim ⟨2, ![R, 1]⟩ ![0] hc dv)
      (mulf (Host.gather (rowsTake N D R wfG) (Host.dotGeneral (matDot wfD) none X W) (broadcastInDim ⟨2, ![R, 1]⟩ ![0] hc sw))
        (broadcastInDim ⟨2, ![R, D]⟩ ![0, 1] hb (broadcastInDim ⟨2, ![R, 1]⟩ ![0] hc
          (mulf (F := Ideal) (φ := .f32) (Host.gather (flatTake N R wfV) d (broadcastInDim ⟨2, ![R, 1]⟩ ![0] hc sw))
            (Host.gather (flatTake N R wfV) d (broadcastInDim ⟨2, ![R, 1]⟩ ![0] hc tn))))))) B) Z

/-- The factored arrangement: rows of `X·W` scaled by the column `dcol`, gathered and summed over the edges unweighted,
    then row `p` times `dcol p`, plus the bias row, and the larger of that and zero. -/
def layerFactored (X : FVec Ideal ⟨2, ![N, K]⟩ .f32) (W : FVec Ideal ⟨2, ![K, D]⟩ .f32)
    (dcol : FVec Ideal ⟨2, ![N, 1]⟩ .f32) (brow : FVec Ideal ⟨2, ![1, D]⟩ .f32) (sw dv : IVec ⟨1, ![R]⟩ 32) :
    (⟨2, ![N, D]⟩ : Shape).Idx → EReal :=
  finishRows (Host.scatterAdd (F := Ideal) (φ := .f32) (rowsScatter N D R wfS)
      (broadcastInDim ⟨2, ![N, D]⟩ ![] hz (constant (F := Ideal) ⟨0, ![]⟩ .f32 0x00000000#32))
      (broadcastInDim ⟨2, ![R, 1]⟩ ![0] hc dv)
      (Host.gather (rowsTake N D R wfG) (scaledProduct X W dcol) (broadcastInDim ⟨2, ![R, 1]⟩ ![0] hc sw))) dcol brow

variable (X : FVec Ideal ⟨2, ![N, K]⟩ .f32) (W : FVec Ideal ⟨2, ![K, D]⟩ .f32)
  (hX : ∀ i, ∃ r : ℝ, X i = (r : EReal)) (hW : ∀ i, ∃ r : ℝ, W i = (r : EReal))
  (b : (⟨1, ![D]⟩ : Shape).Idx → EReal) (hbr : ∀ i, ∃ r : ℝ, b i = (r : EReal))
  (d : (⟨1, ![N]⟩ : Shape).Idx → EReal) (hd : ∀ i, ∃ r : ℝ, d i = (r : EReal))
  (dcol : FVec Ideal ⟨2, ![N, 1]⟩ .f32) (hdcol : ∀ p : Fin N, dcol (ix2 p (0 : Fin 1)) = d (ix1 p))
  (brow : FVec Ideal ⟨2, ![1, D]⟩ .f32) (hbrow : ∀ k : Fin D, brow (ix2 (0 : Fin 1) k) = b (ix1 k))
  (B Z : FVec Ideal ⟨2, ![N, D]⟩ .f32) (hB : ∀ (p : Fin N) (k : Fin D), B (ix2 p k) = b (ix1 k))
  (hZ : ∀ i, Z i = Ideal.ofBits .f32 0x00000000#32)
  (sw dv tn : IVec ⟨1, ![R]⟩ 32)

include hN hX hW hd hdcol hbrow hB hZ in
/-- The two arrangements of a layer are one array, when an edge landing on `p` looks its target up at `p`. -/
theorem layer_factored_eq
    (htn : ∀ (e : Fin R) (p : Fin N), (dv (ix1 e)).toInt = (p.val : ℤ) → min (tn (ix1 e)).toInt.toNat (N - 1) = p.val) :
    layerFactored wfG wfS hz hc X W dcol brow sw dv = layerWeighted wfD wfG wfS wfV hz hc hb X W d B Z sw dv tn := by
  funext i
  obtain ⟨p, k, rfl⟩ : ∃ (p : Fin N) (k : Fin D), i = ix2 p k := ⟨i 0, i 1, eq_ix2 i⟩
  unfold layerFactored layerWeighted
  rw [finishRows_apply, maximumf_apply, addf_apply, hdcol, hbrow, hB, hZ, mul_comm]
  rw [norm_agg_split hN wfG wfS wfV hz hc hb (Host.dotGeneral (matDot wfD) none X W) (scaledProduct X W dcol) d
    (hostDot_real wfD X W hX hW) hd
    (fun q k => by rw [scaledProduct_apply, hostDot_apply, hdcol]) sw dv tn htn p k]

include hN hX hW hbr hd hB hZ in
/-- The weighted arrangement of real data is an array of reals. -/
theorem layer_weighted_real (i : (⟨2, ![N, D]⟩ : Shape).Idx) :
    ∃ r : ℝ, layerWeighted wfD wfG wfS wfV hz hc hb X W d B Z sw dv tn i = (r : EReal) := by
  obtain ⟨p, k, rfl⟩ : ∃ (p : Fin N) (k : Fin D), i = ix2 p k := ⟨i 0, i 1, eq_ix2 i⟩
  unfold layerWeighted
  rw [maximumf_apply, addf_apply, hB, hZ, agg_rows_apply hN wfG wfS hz hc hb]
  refine real_max (real_add ?_ (hbr _)) ⟨0, by simp [Ideal.ofBits_zero_f32]⟩
  refine real_sum_mul _ _ _ (fun e => hostDot_real wfD X W hX hW _) (fun e => ?_)
  rw [mulf_apply, gather_flatTake_apply hN, gather_flatTake_apply hN]
  exact real_mul (hd _) (hd _)

end Layer

end Cert.Lib

end
-- ==== Proof.LibScatterVec.lean ====
/-
  Entries accumulated into a vector along its one axis, read at an index.

  A segment sum of scalars adds `R` update values `upd : [R]` into the entries of an accumulator `acc : [N]`, the
  entry each value goes to named by a column of `R` entry numbers `idx : [R, 1]` (a weighted in-degree: the
  weights of the edges, accumulated at the node each edge arrives at).

  The accumulation's entry `p` is the operand's entry plus the sum, over the update positions `e` whose entry
  number `idx(e, 0)`, read as a signed integer and NOT clamped, is exactly `p`, of the update's value at `e`; an
  update whose number falls outside `[0, N)` lands nowhere and is dropped.
-/
import Idealize.ShloMosaic.Lib.ValueIdx
import Idealize.ShloMosaic.PureOps.Ideal.Laws

noncomputable section

open scoped BigOperators

namespace Cert.Lib

open Idealize.ShloMosaic Idealize.ShloMosaic.ValueIdx

/-- The dimension numbers of the scalar accumulation `acc[idx] += upd` for `acc : [N]`, `idx : [R, 1]`,
    `upd : [R]`: the updates have no window axis, the operand's one axis is inserted and is the one the entry
    number names. -/
abbrev vecScatter (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- On the operand's axis the window of update position `j` starts at the entry number `idx(j₀, 0)`, read signed. -/
theorem start_vecScatter_zero {N R w : Nat}
    (wf : ScatterDims.WF ⟨1, ![N]⟩ ⟨2, ![R, 1]⟩ ⟨1, ![R]⟩ [] [0] [0] 1)
    (j : (⟨1, ![R]⟩ : Shape).Idx) (idx : IVec ⟨2, ![R, 1]⟩ w) :
    (vecScatter N R wf).start j idx 0 = (idx (ix2 (j 0) (0 : Fin 1))).toInt := by
  unfold ScatterDims.start
  rw [dif_pos (show (0 : Fin 1) ∈ (vecScatter N R wf).scatterDimsToOperandDims from List.mem_singleton.mpr rfl)]
  have hsi : (vecScatter N R wf).siIdx j ⟨List.idxOf (0 : Fin 1) (vecScatter N R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The operand's axis is an inserted one: the window coordinate on it is `0`. -/
theorem window_vecScatter_zero {N R : Nat}
    (wf : ScatterDims.WF ⟨1, ![N]⟩ ⟨2, ![R, 1]⟩ ⟨1, ![R]⟩ [] [0] [0] 1)
    (j : (⟨1, ![R]⟩ : Shape).Idx) :
    (vecScatter N R wf).window j 0 = 0 := by
  unfold ScatterDims.window
  rw [dif_neg (show (0 : Fin 1) ∉ (vecScatter N R wf).sKept from
    (by decide : (0 : Fin 1) ∉ (List.finRange 1).filter (· ∉ ([0] : List (Fin 1)))))]

/-- Update position `j` lands on the operand's entry `p` exactly when its entry number `idx(j₀, 0)`, read signed,
    is `p`; an entry number outside `[0, N)` lands on no entry. -/
theorem resultIdx_vecScatter {N R w : Nat}
    (wf : ScatterDims.WF ⟨1, ![N]⟩ ⟨2, ![R, 1]⟩ ⟨1, ![R]⟩ [] [0] [0] 1)
    (j : (⟨1, ![R]⟩ : Shape).Idx) (idx : IVec ⟨2, ![R, 1]⟩ w) (p : Fin N) :
    (vecScatter N R wf).resultIdx? j idx = some (ix1 p)
      ↔ (idx (ix2 (j 0) (0 : Fin 1))).toInt = (p.val : ℤ) := by
  have hs0 := start_vecScatter_zero wf j idx
  have hw0 := window_vecScatter_zero wf j
  have hpN : p.val < N := p.isLt
  unfold ScatterDims.resultIdx?
  split
  · rename_i h
    rw [Option.some.injEq]
    constructor
    · intro hf
      have h0 : ((vecScatter N R wf).start j idx 0 + ((vecScatter N R wf).window j 0 : ℤ)).toNat = p.val :=
        congrArg Fin.val (congrFun hf 0)
      have hh0 := (h 0).1
      rw [hs0, hw0] at h0 hh0
      omega
    · intro hp
      funext a
      refine Fin.ext ?_
      match a with
      | ⟨0, _⟩ =>
        show ((vecScatter N R wf).start j idx 0 + ((vecScatter N R wf).window j 0 : ℤ)).toNat = p.val
        rw [hs0, hw0, hp]; omega
  · rename_i h
    constructor
    · intro hf; cases hf
    · intro hp
      exfalso; apply h
      intro a
      match a with
      | ⟨0, _⟩ =>
        show 0 ≤ (vecScatter N R wf).start j idx 0 + ((vecScatter N R wf).window j 0 : ℤ)
          ∧ (vecScatter N R wf).start j idx 0 + ((vecScatter N R wf).window j 0 : ℤ) < (N : ℤ)
        rw [hs0, hw0, hp]; omega

/-- The scalar accumulation at `p`: the operand's entry plus the sum of the updates' values over the update
    positions `e` whose entry number `idx(e, 0)`, read signed and not clamped, is `p`. -/
theorem scatterAdd_vecScatter_apply {N R w : Nat}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (p : Fin N) :
    Host.scatterAdd (F := Ideal) (φ := .f32) (vecScatter N R wf) x idx upd (ix1 p)
      = x (ix1 p)
        + ∑ e ∈ Finset.univ.filter (fun e : Fin R => (idx (ix2 e (0 : Fin 1))).toInt = (p.val : ℤ)),
            upd (ix1 e) := by
  show x (ix1 p) + ∑ j ∈ Finset.univ.filter
      (fun j => (vecScatter N R wf).resultIdx? j idx = some (ix1 p)), upd j = _
  congr 1
  symm
  refine Finset.sum_bij (fun e _ => ix1 e) ?_ ?_ ?_ ?_
  · intro e he
    rw [Finset.mem_filter] at he ⊢
    exact ⟨Finset.mem_univ _, (resultIdx_vecScatter wf (ix1 e) idx p).mpr he.2⟩
  · intro e₁ _ e₂ _ h
    exact congrFun h 0
  · intro j hj
    rw [Finset.mem_filter] at hj
    have hj' := (resultIdx_vecScatter wf j idx p).mp hj.2
    exact ⟨j 0, Finset.mem_filter.mpr ⟨Finset.mem_univ _, hj'⟩, (eq_ix1 j).symm⟩
  · intro e _
    rfl

end Cert.Lib

end
-- ==== Proof.LibNodeMean.lean ====
/-
  The neighbour mean as whole arrays: a sum per node and feature, scaled by the node's clamped count.

  A per-node vector `v` laid along the feature axis — first as a column `[N, 1]`, then repeated `K` times — reads `v p`
  at every entry `(p, k)`. With `c` the per-node counts, the array of sums multiplied by the broadcast of
  `1 / max c 1` is, entry by entry, the array of sums divided by the broadcast of `max c 1`: the divisor is at least one,
  so never zero, and off zero the quotient of extended reals is the product with the inverse whatever the dividend.
-/
import Idealize.ShloMosaic.PureOps.Ideal.Laws
import Idealize.ShloMosaic.Lib.ValueIdx
import Idealize.ShloMosaic.Lib.Pipeline.Value

noncomputable section

namespace Cert.Lib

open Idealize.ShloMosaic Idealize.ShloMosaic.ValueIdx

/-- The word `0x3F800000` is the number one. -/
theorem one_word_f32 : Ideal.ofBits .f32 0x3F800000#32 = 1 := by
  simp [Ideal.ofBits, Ideal.ieee, -EReal.coe_mul]; norm_num

variable {α : Type} {N K : ℕ}

/-- A per-node vector as a column `[N, 1]`, then repeated along a second axis of extent `K`: at `(p, k)` it is `v p`. -/
theorem nodeBroadcast_apply (v : (⟨1, ![N]⟩ : Shape).Idx → α)
    (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2)) (p : Fin N) (k : Fin K) :
    broadcastInDim ⟨2, ![N, K]⟩ ![0, 1] h2 (broadcastInDim ⟨2, ![N, 1]⟩ ![0] h1 v) (ix2 p k) = v (ix1 p) := by
  refine (broadcastInDim_apply _ h2 _ (ix2 p k) (ix2 p (0 : Fin 1)) fun a => ?_).trans
    (broadcastInDim_apply _ h1 v (ix2 p (0 : Fin 1)) (ix1 p) fun a => ?_)
  · match a with
    | ⟨0, _⟩ =>
      show p.val = if N = 1 then 0 else p.val
      have hp : p.val < N := p.isLt
      split
      · omega
      · rfl
    | ⟨1, _⟩ => show 0 = if (1 : ℕ) = 1 then 0 else k.val; rw [if_pos rfl]
  · match a with
    | ⟨0, _⟩ =>
      show p.val = if N = 1 then 0 else p.val
      have hp : p.val < N := p.isLt
      split
      · omega
      · rfl

/-- A scalar repeated over a vector reads the scalar everywhere. -/
theorem scalarBroadcast_apply (x : (⟨0, ![]⟩ : Shape).Idx → α)
    (h0 : (⟨0, ![]⟩ : Shape).BroadcastsInDim ⟨1, ![N]⟩ (![] : Fin 0 → Fin 1)) (i : (⟨1, ![N]⟩ : Shape).Idx) :
    broadcastInDim ⟨1, ![N]⟩ ![] h0 x i = x ix0 :=
  broadcastInDim_apply _ h0 x i ix0 fun a => a.elim0

/-- THE MEAN, either way: the sums times the broadcast reciprocal of the clamped counts are the sums divided by the
    broadcast clamped counts, as whole arrays on the extended reals. -/
theorem mean_by_reciprocal (S : FVec Ideal ⟨2, ![N, K]⟩ .f32) (cnt : FVec Ideal ⟨1, ![N]⟩ .f32)
    (h0 : (⟨0, ![]⟩ : Shape).BroadcastsInDim ⟨1, ![N]⟩ (![] : Fin 0 → Fin 1))
    (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2)) :
    mulf S (broadcastInDim ⟨2, ![N, K]⟩ ![0, 1] h2 (broadcastInDim ⟨2, ![N, 1]⟩ ![0] h1
        (Host.divf (broadcastInDim ⟨1, ![N]⟩ ![] h0 (constant (F := Ideal) ⟨0, ![]⟩ .f32 0x3F800000#32))
          (maximumf cnt (broadcastInDim ⟨1, ![N]⟩ ![] h0 (constant (F := Ideal) ⟨0, ![]⟩ .f32 0x3F800000#32))))))
      = Host.divf S (broadcastInDim ⟨2, ![N, K]⟩ ![0, 1] h2 (broadcastInDim ⟨2, ![N, 1]⟩ ![0] h1
          (maximumf cnt (broadcastInDim ⟨1, ![N]⟩ ![] h0 (constant (F := Ideal) ⟨0, ![]⟩ .f32 0x3F800000#32))))) := by
  funext i
  obtain ⟨p, k, rfl⟩ : ∃ (p : Fin N) (k : Fin K), i = ix2 p k := ⟨i 0, i 1, eq_ix2 i⟩
  have e1 := nodeBroadcast_apply
    (Host.divf (broadcastInDim ⟨1, ![N]⟩ ![] h0 (constant (F := Ideal) ⟨0, ![]⟩ .f32 0x3F800000#32))
      (maximumf cnt (broadcastInDim ⟨1, ![N]⟩ ![] h0 (constant (F := Ideal) ⟨0, ![]⟩ .f32 0x3F800000#32)))) h1 h2 p k
  have e2 := nodeBroadcast_apply
    (maximumf cnt (broadcastInDim ⟨1, ![N]⟩ ![] h0 (constant (F := Ideal) ⟨0, ![]⟩ .f32 0x3F800000#32))) h1 h2 p k
  have e0 : broadcastInDim ⟨1, ![N]⟩ ![] h0 (constant (F := Ideal) ⟨0, ![]⟩ .f32 0x3F800000#32) (ix1 p) = (1 : EReal) :=
    (scalarBroadcast_apply _ h0 (ix1 p)).trans one_word_f32
  show S (ix2 p k) * _ = Ideal.div (S (ix2 p k)) _
  rw [e1, e2]
  show S (ix2 p k) * Ideal.div (broadcastInDim ⟨1, ![N]⟩ ![] h0 (constant (F := Ideal) ⟨0, ![]⟩ .f32 0x3F800000#32) (ix1 p))
      (max (cnt (ix1 p)) (broadcastInDim ⟨1, ![N]⟩ ![] h0 (constant (F := Ideal) ⟨0, ![]⟩ .f32 0x3F800000#32) (ix1 p)))
    = Ideal.div (S (ix2 p k))
      (max (cnt (ix1 p)) (broadcastInDim ⟨1, ![N]⟩ ![] h0 (constant (F := Ideal) ⟨0, ![]⟩ .f32 0x3F800000#32) (ix1 p)))
  rw [e0]
  have hy : max (cnt (ix1 p)) (1 : EReal) ≠ 0 := ne_of_gt (lt_of_lt_of_le zero_lt_one (le_max_right _ _))
  unfold Ideal.div
  rw [if_neg hy, if_neg hy, one_mul]

end Cert.Lib

end
-- ==== Proof.LibAsRow.lean ====
/-
  A vector as one row.

  A vector of `n` entries laid out as a `[1, n]` array reads, at `(u, k)`, the vector's entry `k`. Two layout operations
  produce that array: a reshape `[n] → [1, n]`, and a broadcast of `[n]` into `[1, n]` that sends the vector's axis to
  the array's second axis. Both are the same function of the vector.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type} {n : ℕ}

/-- The `[1, n]` array whose one row is the vector `v`. -/
def asRow (v : (⟨1, ![n]⟩ : Shape).Idx → α) : (⟨2, ![1, n]⟩ : Shape).Idx → α := fun i => v (ix1 (i 1))

theorem asRow_apply (v : (⟨1, ![n]⟩ : Shape).Idx → α) (u : Fin 1) (k : Fin n) : asRow v (ix2 u k) = v (ix1 k) := rfl

/-- A vector reshaped to `[1, n]` is the vector as one row. -/
theorem shapeCast_eq_asRow (v : (⟨1, ![n]⟩ : Shape).Idx → α) (h : (⟨1, ![n]⟩ : Shape).ShapeCasts ⟨2, ![1, n]⟩) :
    shapeCast ⟨2, ![1, n]⟩ v h = asRow v :=
  funext fun i => (congrArg (shapeCast ⟨2, ![1, n]⟩ v h) (eq_ix2 i)).trans (shapeCast_a_1a_apply v h (i 0) (i 1))

/-- A vector broadcast into `[1, n]` along the second axis is the vector as one row. -/
theorem broadcastInDim_eq_asRow (v : (⟨1, ![n]⟩ : Shape).Idx → α)
    (h : (⟨1, ![n]⟩ : Shape).BroadcastsInDim ⟨2, ![1, n]⟩ (![1] : Fin 1 → Fin 2)) :
    broadcastInDim ⟨2, ![1, n]⟩ ![1] h v = asRow v :=
  funext fun i => broadcastInDim_apply _ h v i (ix1 (i 1)) (fun a => match a with
    | ⟨0, _⟩ => by
      show (i 1).val = if n = 1 then 0 else (i 1).val
      have h1 : (i 1).val < n := (i 1).isLt
      split
      · omega
      · rfl)

end Cert.Lib

end
-- ==== Proof.LibSlabs.lean ====
/-
  Slabs, unit axes and row broadcasts, read at an index.

  Layout operations that stacked arrays meet on both sides of a kernel and its reference. On the host: a one-row array
  broadcast down `R` rows; an array given a new leading unit axis by a broadcast; slab `l` of an array stacked along its first
  axis, cut out by a slice and its unit axis dropped (rank 3 to a matrix, rank 2 to a vector); a matrix given a unit axis
  between its two axes by a reshape. In a kernel: the unit-stride rectangle that is slab `l` of a rank-3 buffer, its own
  index `(0, p, k)` placed at `(l, p, k)`, and a load through it. Each is stated over any element type and over literal
  coordinates, so that it fires on indices built by `ix1`, `ix2`, `ix3`.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type}

/-! ## Host broadcasts -/

/-- A one-row array broadcast to `R` rows (axes kept in place) reads, at `(r, n)`, the row's entry `n`. -/
theorem rows_of_oneRow {R N : ℕ} (hb2 : (⟨2, ![1, N]⟩ : Shape).BroadcastsInDim ⟨2, ![R, N]⟩ (![0, 1] : Fin 2 → Fin 2))
    (v : (⟨2, ![1, N]⟩ : Shape).Idx → α) (r : Fin R) (n : Fin N) :
    broadcastInDim ⟨2, ![R, N]⟩ ![0, 1] hb2 v (ix2 r n) = v (ix2 (0 : Fin 1) n) :=
  broadcastInDim_apply _ hb2 v (ix2 r n) (ix2 (0 : Fin 1) n) (fun a => match a with
    | ⟨0, _⟩ => by
      show (0 : ℕ) = if (1 : ℕ) = 1 then 0 else r.val
      rw [if_pos rfl]
    | ⟨1, _⟩ => by
      show n.val = if N = 1 then 0 else n.val
      have h1 : n.val < N := n.isLt
      split
      · omega
      · rfl)

/-- A matrix broadcast under a new leading unit axis reads, at `(0, p, k)`, the matrix's `(p, k)`. -/
theorem addUnit_bcast_at {a b : ℕ} (hb : (⟨2, ![a, b]⟩ : Shape).BroadcastsInDim ⟨3, ![1, a, b]⟩ (![1, 2] : Fin 2 → Fin 3))
    (v : (⟨2, ![a, b]⟩ : Shape).Idx → α) (u : Fin 1) (p : Fin a) (k : Fin b) :
    broadcastInDim ⟨3, ![1, a, b]⟩ ![1, 2] hb v (ix3 u p k) = v (ix2 p k) :=
  broadcastInDim_apply _ hb v (ix3 u p k) (ix2 p k) (fun ax => match ax with
    | ⟨0, _⟩ => by
      show p.val = if a = 1 then 0 else p.val
      have h1 : p.val < a := p.isLt
      split
      · omega
      · rfl
    | ⟨1, _⟩ => by
      show k.val = if b = 1 then 0 else k.val
      have h1 : k.val < b := k.isLt
      split
      · omega
      · rfl)

/-! ## A layer's slab of a stacked host array -/

/-- Slab `l` of an array stacked along its first axis, its unit axis dropped: entry `(p, k)` is the array's `(l, p, k)`. -/
theorem hostSlab3 {n0 a b l : ℕ} (hl : l < n0) (X : (⟨3, ![n0, a, b]⟩ : Shape).Idx → α)
    (hs : (⟨3, ![n0, a, b]⟩ : Shape).Slices ![l, 0, 0] ⟨3, ![1, a, b]⟩)
    (hc : (⟨3, ![1, a, b]⟩ : Shape).ShapeCasts ⟨2, ![a, b]⟩) (p : Fin a) (k : Fin b) :
    shapeCast ⟨2, ![a, b]⟩ (extractStridedSlice ⟨3, ![1, a, b]⟩ ![l, 0, 0] X hs) hc (ix2 p k) = X (ix3 (⟨l, hl⟩ : Fin n0) p k) := by
  rw [shapeCast_1ab_ab_apply]
  exact extractStridedSlice_apply _ X hs _ _ (fun ax => match ax with
    | ⟨0, _⟩ => (Nat.add_zero l).symm
    | ⟨1, _⟩ => (Nat.zero_add _).symm
    | ⟨2, _⟩ => (Nat.zero_add _).symm)

/-- Row `l` of a matrix as a vector: entry `n` is the matrix's `(l, n)`. -/
theorem hostSlab2 {n0 a l : ℕ} (hl : l < n0) (X : (⟨2, ![n0, a]⟩ : Shape).Idx → α)
    (hs : (⟨2, ![n0, a]⟩ : Shape).Slices ![l, 0] ⟨2, ![1, a]⟩)
    (hc : (⟨2, ![1, a]⟩ : Shape).ShapeCasts ⟨1, ![a]⟩) (n : Fin a) :
    shapeCast ⟨1, ![a]⟩ (extractStridedSlice ⟨2, ![1, a]⟩ ![l, 0] X hs) hc (ix1 n) = X (ix2 (⟨l, hl⟩ : Fin n0) n) := by
  rw [shapeCast_1a_a_apply]
  exact slice2_axis0_apply l X hs (0 : Fin 1) n ⟨l, hl⟩ (Nat.add_zero l).symm

/-- A matrix with a unit axis put between its two axes: entry `(l, 0, n)` is the matrix's `(l, n)`. -/
theorem midUnit_at {a b : ℕ} (X : (⟨2, ![a, b]⟩ : Shape).Idx → α)
    (h : (⟨2, ![a, b]⟩ : Shape).ShapeCasts ⟨3, ![a, 1, b]⟩) (l : Fin a) (u : Fin 1) (n : Fin b) :
    shapeCast ⟨3, ![a, 1, b]⟩ X h (ix3 l u n) = X (ix2 l n) :=
  shapeCast_apply X h _ _ (by
    have hu : u.val = 0 := by omega
    rw [Shape.rowMajor_val_three, Shape.rowMajor_val_two]
    show l.val * b + n.val = (l.val * 1 + u.val) * b + n.val
    rw [hu, Nat.mul_one, Nat.add_zero])

/-! ## A layer's slab of a stacked buffer in a kernel -/

/-- Slab `l` of a buffer stacked along its first axis: its own index `(0, p, k)` sits at `(l, p, k)`. -/
theorem slab_emb {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (x : (⟨3, ![1, a, b]⟩ : Shape).Idx) :
    (Rect.unit (s := ⟨3, ![n0, a, b]⟩) off ![1, a, b] inb).emb x = ix3 (⟨l, hl⟩ : Fin n0) (x 1) (x 2) := by
  subst ho
  funext ax
  match ax with
  | ⟨0, _⟩ =>
    have h0 : (x 0).val < 1 := (x 0).isLt
    exact Fin.ext (show l + 1 * (x 0).val = l by omega)
  | ⟨1, _⟩ => exact Fin.ext (show 0 + 1 * (x 1).val = (x 1).val by omega)
  | ⟨2, _⟩ => exact Fin.ext (show 0 + 1 * (x 2).val = (x 2).val by omega)

/-- What a load of slab `l` reads at `(0, p, k)` — the buffer's contents at the slab's embedded index — is the contents
    at `(l, p, k)`. -/
theorem ld_slab {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (X : (⟨3, ![n0, a, b]⟩ : Shape).Idx → α) (u : Fin 1) (p : Fin a) (k : Fin b) :
    X ((Rect.unit (s := ⟨3, ![n0, a, b]⟩) off ![1, a, b] inb).emb (ix3 u p k)) = X (ix3 (⟨l, hl⟩ : Fin n0) p k) :=
  congrArg X (slab_emb ho inb hl (ix3 u p k))

end Cert.Lib

end
-- ==== Proof.LibPair.lean ====
/-
  Two arrays joined, read at an index; a scalar repeated, read at an index.

  Joining two arrays along an axis gives an array whose coordinate on that axis runs first through the first piece and
  then through the second: a coordinate below the first piece's extent reads the first piece at the same index, a
  coordinate `n₁ + j` reads the second piece with `j` on that axis. Stated for two matrices side by side (columns), two
  matrices one above the other (rows), and two vectors end to end. A scalar repeated over any shape reads the scalar
  everywhere.
-/
import Idealize.ShloMosaic.Lib.Pipeline.Value
import Idealize.ShloMosaic.Lib.ValueIdx

noncomputable section

namespace Cert.Lib

open Idealize.ShloMosaic Idealize.ShloMosaic.ValueIdx

variable {α : Type}

/-- A scalar repeated over a shape reads the scalar at every index. -/
theorem splat_apply {t : Shape} (x : (⟨0, ![]⟩ : Shape).Idx → α)
    (h : (⟨0, ![]⟩ : Shape).BroadcastsInDim t (![] : Fin 0 → Fin t.rank)) (i : t.Idx) :
    broadcastInDim t ![] h x i = x ix0 :=
  broadcastInDim_apply _ h x i ix0 fun a => a.elim0

/-- Two matrices side by side: a column of the first. -/
theorem pair_cols_left {R n₁ n₂ C : ℕ} (x₁ : (⟨2, ![R, n₁]⟩ : Shape).Idx → α) (x₂ : (⟨2, ![R, n₂]⟩ : Shape).Idx → α)
    (h : Shape.Concatenates [⟨2, ![R, n₁]⟩, ⟨2, ![R, n₂]⟩] ⟨2, ![R, C]⟩ 1) (r : Fin R) (j : Fin n₁) (hj : j.val < C) :
    concatenate ⟨2, ![R, C]⟩ 1 [⟨⟨2, ![R, n₁]⟩, x₁⟩, ⟨⟨2, ![R, n₂]⟩, x₂⟩] h (ix2 r ⟨j.val, hj⟩) = x₁ (ix2 r j) :=
  concatenate_pair_apply_left 1 x₁ x₂ h _ rfl (ix2 r j) (fun b => match b with | ⟨0, _⟩ => rfl | ⟨1, _⟩ => rfl)

/-- Two matrices side by side: a column of the second. -/
theorem pair_cols_right {R n₁ n₂ C : ℕ} (x₁ : (⟨2, ![R, n₁]⟩ : Shape).Idx → α) (x₂ : (⟨2, ![R, n₂]⟩ : Shape).Idx → α)
    (h : Shape.Concatenates [⟨2, ![R, n₁]⟩, ⟨2, ![R, n₂]⟩] ⟨2, ![R, C]⟩ 1) (r : Fin R) (j : Fin n₂) (hj : n₁ + j.val < C) :
    concatenate ⟨2, ![R, C]⟩ 1 [⟨⟨2, ![R, n₁]⟩, x₁⟩, ⟨⟨2, ![R, n₂]⟩, x₂⟩] h (ix2 r ⟨n₁ + j.val, hj⟩) = x₂ (ix2 r j) :=
  concatenate_pair_apply_right 1 x₁ x₂ h _ rfl rfl (ix2 r j)
    (fun b hb => match b with | ⟨0, _⟩ => rfl | ⟨1, _⟩ => absurd rfl hb)
    (by show j.val + n₁ = n₁ + j.val; omega)

/-- Two matrices one above the other: a row of the first. -/
theorem pair_rows_top {a₁ a₂ A C : ℕ} (x₁ : (⟨2, ![a₁, C]⟩ : Shape).Idx → α) (x₂ : (⟨2, ![a₂, C]⟩ : Shape).Idx → α)
    (h : Shape.Concatenates [⟨2, ![a₁, C]⟩, ⟨2, ![a₂, C]⟩] ⟨2, ![A, C]⟩ 0) (i : Fin a₁) (c : Fin C) (hi : i.val < A) :
    concatenate ⟨2, ![A, C]⟩ 0 [⟨⟨2, ![a₁, C]⟩, x₁⟩, ⟨⟨2, ![a₂, C]⟩, x₂⟩] h (ix2 ⟨i.val, hi⟩ c) = x₁ (ix2 i c) :=
  concatenate_pair_apply_left 0 x₁ x₂ h _ rfl (ix2 i c) (fun b => match b with | ⟨0, _⟩ => rfl | ⟨1, _⟩ => rfl)

/-- Two matrices one above the other: a row of the second. -/
theorem pair_rows_bottom {a₁ a₂ A C : ℕ} (x₁ : (⟨2, ![a₁, C]⟩ : Shape).Idx → α) (x₂ : (⟨2, ![a₂, C]⟩ : Shape).Idx → α)
    (h : Shape.Concatenates [⟨2, ![a₁, C]⟩, ⟨2, ![a₂, C]⟩] ⟨2, ![A, C]⟩ 0) (i : Fin a₂) (c : Fin C) (hi : a₁ + i.val < A) :
    concatenate ⟨2, ![A, C]⟩ 0 [⟨⟨2, ![a₁, C]⟩, x₁⟩, ⟨⟨2, ![a₂, C]⟩, x₂⟩] h (ix2 ⟨a₁ + i.val, hi⟩ c) = x₂ (ix2 i c) :=
  concatenate_pair_apply_right 0 x₁ x₂ h _ rfl rfl (ix2 i c)
    (fun b hb => match b with | ⟨0, _⟩ => absurd rfl hb | ⟨1, _⟩ => rfl)
    (by show i.val + a₁ = a₁ + i.val; omega)

/-- Two vectors end to end: an entry of the first. -/
theorem pair_vec_left {n₁ n₂ N : ℕ} (x₁ : (⟨1, ![n₁]⟩ : Shape).Idx → α) (x₂ : (⟨1, ![n₂]⟩ : Shape).Idx → α)
    (h : Shape.Concatenates [⟨1, ![n₁]⟩, ⟨1, ![n₂]⟩] ⟨1, ![N]⟩ 0) (j : Fin n₁) (hj : j.val < N) :
    concatenate ⟨1, ![N]⟩ 0 [⟨⟨1, ![n₁]⟩, x₁⟩, ⟨⟨1, ![n₂]⟩, x₂⟩] h (ix1 ⟨j.val, hj⟩) = x₁ (ix1 j) :=
  concatenate_pair_apply_left 0 x₁ x₂ h _ rfl (ix1 j) (fun b => match b with | ⟨0, _⟩ => rfl)

/-- Two vectors end to end: an entry of the second. -/
theorem pair_vec_right {n₁ n₂ N : ℕ} (x₁ : (⟨1, ![n₁]⟩ : Shape).Idx → α) (x₂ : (⟨1, ![n₂]⟩ : Shape).Idx → α)
    (h : Shape.Concatenates [⟨1, ![n₁]⟩, ⟨1, ![n₂]⟩] ⟨1, ![N]⟩ 0) (j : Fin n₂) (hj : n₁ + j.val < N) :
    concatenate ⟨1, ![N]⟩ 0 [⟨⟨1, ![n₁]⟩, x₁⟩, ⟨⟨1, ![n₂]⟩, x₂⟩] h (ix1 ⟨n₁ + j.val, hj⟩) = x₂ (ix1 j) :=
  concatenate_pair_apply_right 0 x₁ x₂ h _ rfl rfl (ix1 j)
    (fun b hb => match b with | ⟨0, _⟩ => absurd rfl hb)
    (by show j.val + n₁ = n₁ + j.val; omega)

end Cert.Lib

end
-- ==== Proof.LibConcatCols.lean ====
/-
  Arrays joined side by side, read and summed.

  Several rank-2 arrays with the same number of rows, joined along the column axis, form one wider array: column
  `pre + j` of the join, where `pre` is the total width of the pieces before piece `k`, is column `j` of piece `k`.
  A sum over all the columns of the join is therefore the sum over the columns of the first pieces plus the sum over
  the columns of the last ones: a sum over `Fin n` with `n = a + b` splits at `a`. Both facts hold in any additive
  commutative monoid; no cancellation is used.
-/
import Idealize.ShloMosaic.Lib.Pipeline.Value
import Idealize.ShloMosaic.Lib.ValueIdx

noncomputable section

namespace Cert.Lib

open Idealize.ShloMosaic Idealize.ShloMosaic.ValueIdx
open scoped BigOperators

/-- A sum over `n = a + b` positions is the sum over the first `a` of them plus the sum over the last `b`. -/
theorem sum_fin_add {M : Type*} [AddCommMonoid M] {a b n : ℕ} (h : a + b = n) (f : Fin n → M) :
    ∑ k, f k = ∑ k : Fin a, f ⟨k.val, by have := k.isLt; omega⟩ + ∑ k : Fin b, f ⟨a + k.val, by have := k.isLt; omega⟩ := by
  subst h
  rw [Fin.sum_univ_add]
  rfl

/-- A join of rank-2 arrays along the column axis, read at row `r` and column `pre + j`: piece `k`, whose columns
    start at `pre` (the widths of the pieces before it add up to `pre`), at `(r, j)`. -/
theorem concat_cols_apply {α : Type} {R C : ℕ} (xs : List ((s : Shape) × (s.Idx → α)))
    (h : Shape.Concatenates (xs.map (·.1)) ⟨2, ![R, C]⟩ 1)
    (k : ℕ) (hk : k < xs.length) {n : ℕ} (x : (⟨2, ![R, n]⟩ : Shape).Idx → α) (hxk : xs[k] = ⟨⟨2, ![R, n]⟩, x⟩)
    (pre : ℕ)
    (hpre : (((xs.take k).map (·.1)).map fun s : Shape =>
      if h : s.rank = (⟨2, ![R, C]⟩ : Shape).rank then s.size ((1 : Fin (⟨2, ![R, C]⟩ : Shape).rank).cast h.symm) else 0).sum = pre)
    (r : Fin R) (j : Fin n) (hj : pre + j.val < C) :
    concatenate ⟨2, ![R, C]⟩ 1 xs h (ix2 r ⟨pre + j.val, hj⟩) = x (ix2 r j) := by
  refine concatenate_apply_piece 1 xs h _ k hk _ x hxk rfl pre hpre (ix2 r j) (fun b hb => ?_) rfl
  match b with
  | ⟨0, _⟩ => rfl
  | ⟨1, _⟩ => exact absurd rfl hb

end Cert.Lib

end
-- ==== Proof.Net.lean ====
/-
  The two-branch graph network, in the kernel's arrangement and in the reference's, and their equality for real inputs.

  Each branch is two graph-convolution layers over its own edge list (given as a [2, 600000] array of node numbers, to
  which the 50000 self-loops are appended). With `d = deg^(-1/2)` (zero where the degree is zero), a layer is
  `max (∑ over the edges landing on p of (X·W)[src e] · d[src e] · d[dst e] + b) 0`. The reference weighs every edge
  (`refLayer`); the kernel scales the rows of `X·W` by `d` before the unweighted edge sum and row `p` of the sum by `d p`
  after it (`kerLayer`). They are equal for real features, weights and bias (`layer_eq`, by `Cert.Lib.layer_factored_eq`):
  the degree is a count, so `d` is a real (`dinv_real`), and an edge that lands on `p` has a nonnegative target word, which
  the wrap of negative indices leaves alone (`wrap_target`). A layer's value is again real (`refLayer_real`), which feeds
  the second layer. The last step multiplies the two branches' outputs, side by side as one [50000, 256] array, by a
  [256, 64] matrix and adds a bias (`refFinal`); the kernel multiplies each branch by its half of the matrix and adds
  (`kerFinal`): the sum over 256 columns splits at 128 (`final_eq`, no finiteness needed).
-/
import proofs.«173324_j25683904430211_2_alg».proof.Proof.ReadPatched
import proofs.«173324_j25683904430211_2_alg».proof.Proof.LibGcnLayer
import proofs.«173324_j25683904430211_2_alg».proof.Proof.LibGcnBlocks
import proofs.«173324_j25683904430211_2_alg».proof.Proof.LibColumn
import proofs.«173324_j25683904430211_2_alg».proof.Proof.LibScatterVec
import proofs.«173324_j25683904430211_2_alg».proof.Proof.LibNodeMean
import proofs.«173324_j25683904430211_2_alg».proof.Proof.LibAsRow
import proofs.«173324_j25683904430211_2_alg».proof.Proof.LibSlabs
import proofs.«173324_j25683904430211_2_alg».proof.Proof.LibPair
import proofs.«173324_j25683904430211_2_alg».proof.Proof.LibConcatCols

noncomputable section

namespace Cert.Gnn

open Idealize.ShloMosaic Idealize.ShloMosaic.ValueIdx Cert.ReferenceIdeal Cert.ReferenceIdeal.Read Cert.Lib
open Cert.ReferenceIdeal.Facts₀
open scoped BigOperators

/-- An edge list as given: the two rows of node numbers. -/
abbrev Edges := (⟨S2x600000, .i32⟩ : BufTy).Contents (Elt Ideal)

/-! ## The degree is a count, its inverse square root a real -/

theorem zero_vec_apply (i : S50000.Idx) :
    broadcastInDim S50000 ![] bcast_S_S50000 (constant (F := Ideal) S_ .f32 0x00000000#32) i = 0 :=
  (scalarBroadcast_apply (N := 50000) (constant (F := Ideal) S_ .f32 0x00000000#32) bcast_S_S50000 i).trans Ideal.ofBits_zero_f32

theorem one_vec_apply (i : S650000.Idx) :
    broadcastInDim S650000 ![] bcast_S_S650000 (constant (F := Ideal) S_ .f32 0x3F800000#32) i = 1 :=
  (scalarBroadcast_apply (N := 650000) (constant (F := Ideal) S_ .f32 0x3F800000#32) bcast_S_S650000 i).trans one_word_f32

/-- A sum of ones over a finite set is a natural number. -/
theorem sum_ones_nat {α : Type} (S : Finset α) : ∃ k : ℕ, ∑ _e ∈ S, (1 : EReal) = ((k : ℝ) : EReal) := by
  classical
  refine Finset.induction_on S ⟨0, by simp⟩ ?_
  rintro a s ha ⟨k, hk⟩
  refine ⟨k + 1, ?_⟩
  rw [Finset.sum_insert ha, hk, Nat.cast_add, Nat.cast_one, EReal.coe_add, EReal.coe_one, add_comm]

/-- The degree of node `p`: the number of edges (self-loops included) whose target word is `p`. -/
theorem deg_apply (x1 : Edges) (p : Fin 50000) :
    ∃ k : ℕ, val_main_v18 (F := Ideal) x1 (ix1 p) = ((k : ℝ) : EReal) := by
  have h := scatterAdd_vecScatter_apply (N := 50000) (R := 650000) scatter_S50000_S650000x1_S650000_n_0_0_1.wf
    (val_main_v16 (F := Ideal)) (val_main_v17 (F := Ideal) x1) (val_main_v15 (F := Ideal)) p
  obtain ⟨k, hk⟩ := sum_ones_nat (Finset.univ.filter fun e : Fin 650000 => (val_main_v17 (F := Ideal) x1 (ix2 e (0 : Fin 1))).toInt = (p.val : ℤ))
  refine ⟨k, ?_⟩
  refine (show val_main_v18 (F := Ideal) x1 (ix1 p) = _ from h).trans ?_
  have h16 : val_main_v16 (F := Ideal) (ix1 p) = 0 := zero_vec_apply _
  have h15 : ∀ e : Fin 650000, val_main_v15 (F := Ideal) (ix1 e) = 1 := fun e => one_vec_apply _
  rw [h16, zero_add, Finset.sum_congr rfl fun e _ => h15 e]
  exact hk

/-- `where (deg > 0, deg^(-1/2), 0)` of a count is a real. -/
theorem select_rsqrt_real (k : ℕ) (z : EReal) (hz : ∃ r : ℝ, z = (r : EReal)) :
    ∃ r : ℝ, Scalar.select (Ideal.cmp .ogt (((k : ℝ) : EReal)) 0) (Ideal.rsqrt ((k : ℝ) : EReal)) z = (r : EReal) := by
  rcases Nat.eq_zero_or_pos k with hk | hk
  · subst hk
    have hc : Ideal.cmp .ogt (((0 : ℕ) : ℝ) : EReal) 0 = 0#1 := by simp [Ideal.cmp]
    rw [hc]
    simpa [Scalar.select] using hz
  · have hpos : (0 : ℝ) < (k : ℝ) := by exact_mod_cast hk
    have hc : Ideal.cmp .ogt (((k : ℝ)) : EReal) 0 = 1#1 := by
      simp [Ideal.cmp, hk]
    have hr : Ideal.rsqrt (((k : ℝ)) : EReal) = (((Real.sqrt k)⁻¹ : ℝ) : EReal) := by
      show (if (k : ℝ) < 0 then (⊥ : EReal) else if (k : ℝ) = 0 then ⊤ else (((Real.sqrt k)⁻¹ : ℝ) : EReal)) = _
      rw [if_neg (not_lt.mpr hpos.le), if_neg hpos.ne']
    rw [hc, hr]
    exact ⟨(Real.sqrt k)⁻¹, by simp [Scalar.select]⟩

/-- The per-node scale `deg^(-1/2)` (zero at degree zero) is a real at every node. -/
theorem dinv_real (x1 : Edges) (i : S50000.Idx) : ∃ r : ℝ, val_main_v22 (F := Ideal) x1 i = (r : EReal) := by
  obtain ⟨p, rfl⟩ : ∃ p : Fin 50000, i = ix1 p := ⟨i 0, eq_ix1 i⟩
  obtain ⟨k, hk⟩ := deg_apply x1 p
  have h19 : val_main_v19 (F := Ideal) (ix1 p) = 0 := zero_vec_apply _
  have hz : val_main_call0_v1 (F := Ideal) (ix1 p) = 0 := zero_vec_apply _
  rw [val_main_v22_apply, val_main_v20_apply, val_main_v21_apply, hk, h19, hz, Ideal.cmpf_def, Ideal.hostUnary_rsqrt_def]
  exact select_rsqrt_real k 0 ⟨0, by simp⟩

/-- An edge that lands on node `p` looks its target up at `p`: its target word is `p ≥ 0`, which the wrap of negative
    indices leaves alone and the clamp into `[0, 49999]` too. -/
theorem wrap_target (x1 : Edges) (e : Fin 650000) (p : Fin 50000)
    (h : (val_main_v6 (F := Ideal) x1 (ix1 e)).toInt = (p.val : ℤ)) :
    min (val_main_v34 (F := Ideal) x1 (ix1 e)).toInt.toNat (50000 - 1) = p.val := by
  have h30 : val_main_v30 (F := Ideal) (ix1 e) = 0#32 := by rw [val_main_v30_apply]; rfl
  have hnn : 0 ≤ (val_main_v6 (F := Ideal) x1 (ix1 e)).toInt := by rw [h]; exact Int.natCast_nonneg _
  rw [val_main_v34_apply, val_main_v31_apply, h30, wrap_of_nonneg _ _ hnn, h]
  have := p.isLt
  omega

/-! ## One layer, both ways -/

section Layers

variable (hcol : S50000.ShapeCasts ⟨2, ![50000, 1]⟩) (hrow : S128.ShapeCasts ⟨2, ![1, 128]⟩)

/-- The per-node scale as a one-column matrix. -/
def dcol (x1 : Edges) : FVec Ideal ⟨2, ![50000, 1]⟩ .f32 := shapeCast ⟨2, ![50000, 1]⟩ (val_main_v22 (F := Ideal) x1) hcol

/-- A layer in the kernel's arrangement. -/
def kerLayer (X : FVec Ideal S50000x128 .f32) (W : FVec Ideal S128x128 .f32) (b : FVec Ideal S128 .f32) (x1 : Edges) :
    FVec Ideal S50000x128 .f32 :=
  finishRows (n := 50000) (M := 128)
    (Host.scatterAdd (F := Ideal) (φ := .f32) scatter_S50000x128_S650000x1_S650000x128_1_0_0_1 (val_main_v48 (F := Ideal)) (val_main_v49 (F := Ideal) x1)
      (Host.gather (α := EReal) gather_S50000x128_S650000x1_S650000x128_1_0_n_n_0_1_1128 (scaledProduct (n := 50000) (K := 128) (M := 128) (ψ := .f32) X W (dcol hcol x1)) (val_main_v43 (F := Ideal) x1)))
    (dcol hcol x1) (shapeCast ⟨2, ![1, 128]⟩ b hrow)

/-- A layer in the reference's arrangement. -/
def refLayer (X : FVec Ideal S50000x128 .f32) (W : FVec Ideal S128x128 .f32) (b : FVec Ideal S128 .f32) (x1 : Edges) :
    FVec Ideal S50000x128 .f32 :=
  maximumf (addf (Host.scatterAdd (F := Ideal) (φ := .f32) scatter_S50000x128_S650000x1_S650000x128_1_0_0_1 (val_main_v48 (F := Ideal)) (val_main_v49 (F := Ideal) x1)
      (mulf (Host.gather gather_S50000x128_S650000x1_S650000x128_1_0_n_n_0_1_1128 (Host.dotGeneral dot_S50000x128_S128x128_S50000x128_1_0_0_1_n_n none X W) (val_main_v43 (F := Ideal) x1)) (val_main_v46 (F := Ideal) x1)))
    (val_main_v52 (F := Ideal) b)) (val_main_call1_v0 (F := Ideal))

theorem bias_rows (b : FVec Ideal S128 .f32) (p : Fin 50000) (k : Fin 128) : val_main_v52 (F := Ideal) b (ix2 p k) = b (ix1 k) :=
  (rows_of_oneRow (R := 50000) (N := 128) bcast_S1x128_S50000x128_0_1 (val_main_v51 (F := Ideal) b) p k).trans (by
    show broadcastInDim S1x128 ![1] bcast_S128_S1x128_1 b (ix2 (0 : Fin 1) k) = _
    rw [broadcastInDim_eq_asRow]; rfl)

theorem relu_zero (i : S50000x128.Idx) : val_main_call1_v0 (F := Ideal) i = Ideal.ofBits .f32 0x00000000#32 :=
  (zeros_apply (N := 50000) (D := 128) bcast_S_S50000x128 i).trans Ideal.ofBits_zero_f32.symm

variable (X : FVec Ideal S50000x128 .f32) (W : FVec Ideal S128x128 .f32) (b : FVec Ideal S128 .f32) (x1 : Edges)
  (hX : ∀ i, ∃ r : ℝ, X i = (r : EReal)) (hW : ∀ i, ∃ r : ℝ, W i = (r : EReal))

include hX hW in
/-- The two arrangements of a layer agree on real features and weights. -/
theorem layer_eq : kerLayer hcol hrow X W b x1 = refLayer X W b x1 :=
  layer_factored_eq (N := 50000) (K := 128) (D := 128) (R := 650000) (by norm_num)
    dot_S50000x128_S128x128_S50000x128_1_0_0_1_n_n.wf gather_S50000x128_S650000x1_S650000x128_1_0_n_n_0_1_1128.wf scatter_S50000x128_S650000x1_S650000x128_1_0_0_1.wf gather_S50000_S650000x1_S650000_n_0_n_n_0_1_1.wf
    bcast_S_S50000x128 bcast_S650000_S650000x1_0 bcast_S650000x1_S650000x128_0_1
    X W hX hW b (val_main_v22 (F := Ideal) x1) (dinv_real x1) (dcol hcol x1) (fun p => shapeCast_a_a1_apply _ hcol p 0)
    (shapeCast ⟨2, ![1, 128]⟩ b hrow) (fun k => by rw [shapeCast_eq_asRow]; rfl)
    (val_main_v52 (F := Ideal) b) (val_main_call1_v0 (F := Ideal)) (bias_rows b) relu_zero
    (val_main_v42 (F := Ideal) x1) (val_main_v6 (F := Ideal) x1) (val_main_v34 (F := Ideal) x1) (wrap_target x1)

include hX hW in
/-- A layer of real features, weights and bias is real. -/
theorem refLayer_real (hb : ∀ i, ∃ r : ℝ, b i = (r : EReal)) (i : S50000x128.Idx) : ∃ r : ℝ, refLayer X W b x1 i = (r : EReal) :=
  layer_weighted_real (N := 50000) (K := 128) (D := 128) (R := 650000) (by norm_num)
    dot_S50000x128_S128x128_S50000x128_1_0_0_1_n_n.wf gather_S50000x128_S650000x1_S650000x128_1_0_n_n_0_1_1128.wf scatter_S50000x128_S650000x1_S650000x128_1_0_0_1.wf gather_S50000_S650000x1_S650000_n_0_n_n_0_1_1.wf
    bcast_S_S50000x128 bcast_S650000_S650000x1_0 bcast_S650000x1_S650000x128_0_1
    X W hX hW b hb (val_main_v22 (F := Ideal) x1) (dinv_real x1)
    (val_main_v52 (F := Ideal) b) (val_main_call1_v0 (F := Ideal)) (bias_rows b) relu_zero
    (val_main_v42 (F := Ideal) x1) (val_main_v6 (F := Ideal) x1) (val_main_v34 (F := Ideal) x1) i

end Layers

/-! ## The last step: one product with the joined outputs, or two with the halves of the matrix -/

section Final

variable (hs0 : S256x64.Slices ![0, 0] ⟨2, ![128, 64]⟩) (hs1 : S256x64.Slices ![128, 0] ⟨2, ![128, 64]⟩)
  (hr : S64.ShapeCasts ⟨2, ![1, 64]⟩)

def kerFinal (Hi Hs : FVec Ideal S50000x128 .f32) (x12 : FVec Ideal S256x64 .f32) (x13 : FVec Ideal S64 .f32) :
    FVec Ideal S50000x64 .f32 :=
  twoProducts (n := 50000) (K := 128) (M := 64) Hi Hs (extractStridedSlice ⟨2, ![128, 64]⟩ ![0, 0] x12 hs0)
    (extractStridedSlice ⟨2, ![128, 64]⟩ ![128, 0] x12 hs1) (shapeCast ⟨2, ![1, 64]⟩ x13 hr)

def refFinal (Hi Hs : FVec Ideal S50000x128 .f32) (x12 : FVec Ideal S256x64 .f32) (x13 : FVec Ideal S64 .f32) :
    FVec Ideal S50000x64 .f32 :=
  addf (Host.dotGeneral dot_S50000x256_S256x64_S50000x64_1_0_0_1_n_n none
      (concatenate S50000x256 1 [⟨S50000x128, Hi⟩, ⟨S50000x128, Hs⟩] concatenates_S50000x128_S50000x128_S50000x256_d1) x12)
    (val_main_v181 (F := Ideal) x13)

theorem final_eq (Hi Hs : FVec Ideal S50000x128 .f32) (x12 : FVec Ideal S256x64 .f32) (x13 : FVec Ideal S64 .f32) :
    kerFinal hs0 hs1 hr Hi Hs x12 x13 = refFinal Hi Hs x12 x13 := by
  funext i
  obtain ⟨p, q, rfl⟩ : ∃ (p : Fin 50000) (q : Fin 64), i = ix2 p q := ⟨i 0, i 1, eq_ix2 i⟩
  have hdot := hostDot_apply (N := 50000) (K := 256) (D := 64) dot_S50000x256_S256x64_S50000x64_1_0_0_1_n_n.wf
    (concatenate S50000x256 1 [⟨S50000x128, Hi⟩, ⟨S50000x128, Hs⟩] concatenates_S50000x128_S50000x128_S50000x256_d1) x12 p q
  have hbias : val_main_v181 (F := Ideal) x13 (ix2 p q) = x13 (ix1 q) :=
    (rows_of_oneRow (R := 50000) (N := 64) bcast_S1x64_S50000x64_0_1 (val_main_v180 (F := Ideal) x13) p q).trans (by
      show broadcastInDim S1x64 ![1] bcast_S64_S1x64_1 x13 (ix2 (0 : Fin 1) q) = _
      rw [broadcastInDim_eq_asRow]; rfl)
  refine Eq.trans ?_ (show _ + _ = refFinal Hi Hs x12 x13 (ix2 p q) from
    congrArg₂ (· + ·) hdot.symm hbias.symm)
  unfold kerFinal
  rw [twoProducts_apply, sum_fin_add (a := 128) (b := 128) (n := 256) rfl, shapeCast_eq_asRow]
  refine congrArg₂ (· + ·) (congrArg₂ (· + ·) (Finset.sum_congr rfl fun k _ => ?_) (Finset.sum_congr rfl fun k _ => ?_)) rfl
  · refine congrArg₂ (· * ·) (pair_cols_left (R := 50000) (n₁ := 128) (n₂ := 128) (C := 256) Hi Hs concatenates_S50000x128_S50000x128_S50000x256_d1 p k _).symm ?_
    exact extractStridedSlice_apply ![0, 0] x12 hs0 (ix2 k q) (ix2 ⟨k.val, by have := k.isLt; omega⟩ q) (fun a => by
      match a with
      | ⟨0, _⟩ => show k.val = 0 + k.val; omega
      | ⟨1, _⟩ => show q.val = 0 + q.val; omega)
  · refine congrArg₂ (· * ·) (pair_cols_right (R := 50000) (n₁ := 128) (n₂ := 128) (C := 256) Hi Hs concatenates_S50000x128_S50000x128_S50000x256_d1 p k _).symm ?_
    exact extractStridedSlice_apply ![128, 0] x12 hs1 (ix2 k q) (ix2 ⟨128 + k.val, by have := k.isLt; omega⟩ q) (fun a => by
      match a with
      | ⟨0, _⟩ => show 128 + k.val = 128 + k.val; rfl
      | ⟨1, _⟩ => show q.val = 0 + q.val; omega)

end Final

end Cert.Gnn

end
-- ==== Proof.ChainEntry.lean ====
/-
  The idealized kernel program's first host values and its arguments where they are read: the edge lists with their
  self-loops, the comparison `deg > 0` and `deg^(-1/2)` for the first branch — the same operations of the same arguments as in
  the reference, named by the reference's stages — and each argument array, wherever a region or a host operation reads
  it, at its launch contents.
-/
import proofs.«173324_j25683904430211_2_alg».proof.Proof.ChainKept
import proofs.«173324_j25683904430211_2_alg».proof.Proof.Net

set_option maxRecDepth 16384
set_option maxHeartbeats 3200000

noncomputable section

namespace Cert.Gnn.Chain

open Idealize.ShloMosaic Idealize.ShloMosaic.TcCoe Idealize.ShloMosaic.StableHlo
open Idealize.SL Idealize.SL.Sem
open Cert.KernelIdeal Cert.KernelIdeal.Gen
open Idealize.ShloMosaic.ValueIdx Cert.Lib Cert.Gnn
open Cert.ReferenceIdeal.Read (val_main_v3 val_main_v6 val_main_v20 val_main_v21 val_main_v22 val_main_cst_2 val_main_v43 val_main_v48 val_main_v49)

variable (m : (ℓ : Loc nD τ sig) → Buf (Elt Ideal) ℓ) (ρ : Dev nD → PrngReg) (c : Dev nD)

theorem at5_arg0 : W5 m ρ c (Proc.devRef .tc main_arg0) = (m ((c : Thread nD τ).loc main_arg0)) :=
  (tr_arg0_0_5 m ρ c)

theorem at5_arg4 : W5 m ρ c (Proc.devRef .tc main_arg4) = (m ((c : Thread nD τ).loc main_arg4)) :=
  (tr_arg4_0_5 m ρ c)

theorem at6_arg5 : W6 m ρ c (Proc.devRef .tc main_arg5) = (m ((c : Thread nD τ).loc main_arg5)) :=
  (tr_arg5_0_6 m ρ c)

theorem at8_arg6 : W8 m ρ c (Proc.devRef .tc main_arg6) = (m ((c : Thread nD τ).loc main_arg6)) :=
  (tr_arg6_0_8 m ρ c)

theorem at9_arg7 : W9 m ρ c (Proc.devRef .tc main_arg7) = (m ((c : Thread nD τ).loc main_arg7)) :=
  (tr_arg7_0_9 m ρ c)

theorem at11_arg2 : W11 m ρ c (Proc.devRef .tc main_arg2) = (m ((c : Thread nD τ).loc main_arg2)) :=
  (tr_arg2_0_11 m ρ c)

theorem at11_arg8 : W11 m ρ c (Proc.devRef .tc main_arg8) = (m ((c : Thread nD τ).loc main_arg8)) :=
  (tr_arg8_0_11 m ρ c)

theorem at12_arg9 : W12 m ρ c (Proc.devRef .tc main_arg9) = (m ((c : Thread nD τ).loc main_arg9)) :=
  (tr_arg9_0_12 m ρ c)

theorem at14_arg10 : W14 m ρ c (Proc.devRef .tc main_arg10) = (m ((c : Thread nD τ).loc main_arg10)) :=
  (tr_arg10_0_14 m ρ c)

theorem at15_arg11 : W15 m ρ c (Proc.devRef .tc main_arg11) = (m ((c : Thread nD τ).loc main_arg11)) :=
  (tr_arg11_0_15 m ρ c)

theorem at17_arg12 : W17 m ρ c (Proc.devRef .tc main_arg12) = (m ((c : Thread nD τ).loc main_arg12)) :=
  (tr_arg12_0_17 m ρ c)

theorem at17_arg13 : W17 m ρ c (Proc.devRef .tc main_arg13) = (m ((c : Thread nD τ).loc main_arg13)) :=
  (tr_arg13_0_17 m ρ c)

theorem at1_v3 : W1 m ρ c (Proc.devRef .tc main_v3) = val_main_v3 (F := Ideal) (m ((c : Thread nD τ).loc main_arg1)) :=
  by
  show StableHlo.after hostOps0 (W0 m ρ c) (Proc.devRef .tc main_v3) = _
  after_results
  rfl

theorem at1_v6 : W1 m ρ c (Proc.devRef .tc main_v6) = val_main_v6 (F := Ideal) (m ((c : Thread nD τ).loc main_arg1)) :=
  by
  show StableHlo.after hostOps0 (W0 m ρ c) (Proc.devRef .tc main_v6) = _
  after_results
  rfl

theorem at1_v10 : W1 m ρ c (Proc.devRef .tc main_v10) = val_main_v3 (F := Ideal) (m ((c : Thread nD τ).loc main_arg3)) :=
  by
  show StableHlo.after hostOps0 (W0 m ρ c) (Proc.devRef .tc main_v10) = _
  after_results
  rfl

theorem at1_v13 : W1 m ρ c (Proc.devRef .tc main_v13) = val_main_v6 (F := Ideal) (m ((c : Thread nD τ).loc main_arg3)) :=
  by
  show StableHlo.after hostOps0 (W0 m ρ c) (Proc.devRef .tc main_v13) = _
  after_results
  rfl

theorem at1_v19 : W1 m ρ c (Proc.devRef .tc main_v19) = val_main_v20 (F := Ideal) (m ((c : Thread nD τ).loc main_arg1)) :=
  by
  show StableHlo.after hostOps0 (W0 m ρ c) (Proc.devRef .tc main_v19) = _
  after_results
  rfl

theorem at1_v20 : W1 m ρ c (Proc.devRef .tc main_v20) = val_main_v21 (F := Ideal) (m ((c : Thread nD τ).loc main_arg1)) :=
  by
  show StableHlo.after hostOps0 (W0 m ρ c) (Proc.devRef .tc main_v20) = _
  after_results
  rfl

theorem at1_cst_2 : W1 m ρ c (Proc.devRef .tc main_cst_2) = val_main_cst_2 (F := Ideal) :=
  by
  show StableHlo.after hostOps0 (W0 m ρ c) (Proc.devRef .tc main_cst_2) = _
  after_results
  rfl

theorem at2_v13 : W2 m ρ c (Proc.devRef .tc main_v13) = val_main_v6 (F := Ideal) (m ((c : Thread nD τ).loc main_arg3)) :=
  (tr_v13_1_2 m ρ c).trans (at1_v13 m ρ c)

theorem at6_v3 : W6 m ρ c (Proc.devRef .tc main_v3) = val_main_v3 (F := Ideal) (m ((c : Thread nD τ).loc main_arg1)) :=
  (tr_v3_1_6 m ρ c).trans (at1_v3 m ρ c)

theorem at6_v6 : W6 m ρ c (Proc.devRef .tc main_v6) = val_main_v6 (F := Ideal) (m ((c : Thread nD τ).loc main_arg1)) :=
  (tr_v6_1_6 m ρ c).trans (at1_v6 m ρ c)

theorem at9_v3 : W9 m ρ c (Proc.devRef .tc main_v3) = val_main_v3 (F := Ideal) (m ((c : Thread nD τ).loc main_arg1)) :=
  (tr_v3_1_9 m ρ c).trans (at1_v3 m ρ c)

theorem at9_v6 : W9 m ρ c (Proc.devRef .tc main_v6) = val_main_v6 (F := Ideal) (m ((c : Thread nD τ).loc main_arg1)) :=
  (tr_v6_1_9 m ρ c).trans (at1_v6 m ρ c)

theorem at12_v10 : W12 m ρ c (Proc.devRef .tc main_v10) = val_main_v3 (F := Ideal) (m ((c : Thread nD τ).loc main_arg3)) :=
  (tr_v10_1_12 m ρ c).trans (at1_v10 m ρ c)

theorem at12_v13 : W12 m ρ c (Proc.devRef .tc main_v13) = val_main_v6 (F := Ideal) (m ((c : Thread nD τ).loc main_arg3)) :=
  (tr_v13_1_12 m ρ c).trans (at1_v13 m ρ c)

theorem at15_v10 : W15 m ρ c (Proc.devRef .tc main_v10) = val_main_v3 (F := Ideal) (m ((c : Thread nD τ).loc main_arg3)) :=
  (tr_v10_1_15 m ρ c).trans (at1_v10 m ρ c)

theorem at15_v13 : W15 m ρ c (Proc.devRef .tc main_v13) = val_main_v6 (F := Ideal) (m ((c : Thread nD τ).loc main_arg3)) :=
  (tr_v13_1_15 m ρ c).trans (at1_v13 m ρ c)

end Cert.Gnn.Chain

end
-- ==== Proof.ChainScale.lean ====
/-
  The per-node scales `deg^(-1/2)` (zero where the degree is zero) of the two branches, as the one-column matrices the
  regions read: the selection between `deg^(-1/2)` and zero is made in a called function whose operations stand in the
  program in the call's place; the result is the reference's stage of the same name, reshaped to a column, and it is
  carried unchanged to every region that reads it.
-/
import proofs.«173324_j25683904430211_2_alg».proof.Proof.ChainEntry

set_option maxRecDepth 16384
set_option maxHeartbeats 3200000

noncomputable section

namespace Cert.Gnn.Chain

open Idealize.ShloMosaic Idealize.ShloMosaic.TcCoe Idealize.ShloMosaic.StableHlo
open Idealize.SL Idealize.SL.Sem
open Cert.KernelIdeal Cert.KernelIdeal.Gen
open Idealize.ShloMosaic.ValueIdx Cert.Lib Cert.Gnn
open Cert.ReferenceIdeal.Read (val_main_v3 val_main_v6 val_main_v20 val_main_v21 val_main_v22 val_main_cst_2 val_main_v43 val_main_v48 val_main_v49)

variable (m : (ℓ : Loc nD τ sig) → Buf (Elt Ideal) ℓ) (ρ : Dev nD → PrngReg) (c : Dev nD)

theorem key_v21 (W : Valuation τ sig (Elt Ideal))
    (h19 : W (Proc.devRef .tc main_v19) = val_main_v20 (F := Ideal) (m ((c : Thread nD τ).loc main_arg1)))
    (h20 : W (Proc.devRef .tc main_v20) = val_main_v21 (F := Ideal) (m ((c : Thread nD τ).loc main_arg1)))
    (hc : W (Proc.devRef .tc main_cst_2) = val_main_cst_2 (F := Ideal)) :
    StableHlo.after hostOps0_1 W (Proc.devRef .tc main_v21) = val_main_v22 (F := Ideal) (m ((c : Thread nD τ).loc main_arg1)) := by
  after_results
  rw [h19, h20, hc]
  simp only [cast_eq]
  rfl

theorem at2_v21 : W2 m ρ c (Proc.devRef .tc main_v21) = val_main_v22 (F := Ideal) (m ((c : Thread nD τ).loc main_arg1)) :=
  key_v21 m c (W1 m ρ c) (at1_v19 m ρ c) (at1_v20 m ρ c) (at1_cst_2 m ρ c)

theorem key_v22 (W : Valuation τ sig (Elt Ideal))
    (h21 : W (Proc.devRef .tc main_v21) = val_main_v22 (F := Ideal) (m ((c : Thread nD τ).loc main_arg1))) :
    StableHlo.after hostOps0_2 W (Proc.devRef .tc main_v22) = (dcol shapeCasts_S50000_S50000x1 (m ((c : Thread nD τ).loc main_arg1))) := by
  after_results
  rw [h21]
  rfl

theorem at3_v22 : W3 m ρ c (Proc.devRef .tc main_v22) = (dcol shapeCasts_S50000_S50000x1 (m ((c : Thread nD τ).loc main_arg1))) :=
  key_v22 m c (W2 m ρ c) (at2_v21 m ρ c)

theorem key_v28 (W : Valuation τ sig (Elt Ideal))
    (h13 : W (Proc.devRef .tc main_v13) = val_main_v6 (F := Ideal) (m ((c : Thread nD τ).loc main_arg3))) :
    StableHlo.after hostOps0_2 W (Proc.devRef .tc main_v28) = val_main_v20 (F := Ideal) (m ((c : Thread nD τ).loc main_arg3)) := by
  after_results
  rw [h13]
  rfl

theorem at3_v28 : W3 m ρ c (Proc.devRef .tc main_v28) = val_main_v20 (F := Ideal) (m ((c : Thread nD τ).loc main_arg3)) :=
  key_v28 m c (W2 m ρ c) (at2_v13 m ρ c)

theorem key_v29 (W : Valuation τ sig (Elt Ideal))
    (h13 : W (Proc.devRef .tc main_v13) = val_main_v6 (F := Ideal) (m ((c : Thread nD τ).loc main_arg3))) :
    StableHlo.after hostOps0_2 W (Proc.devRef .tc main_v29) = val_main_v21 (F := Ideal) (m ((c : Thread nD τ).loc main_arg3)) := by
  after_results
  rw [h13]
  rfl

theorem at3_v29 : W3 m ρ c (Proc.devRef .tc main_v29) = val_main_v21 (F := Ideal) (m ((c : Thread nD τ).loc main_arg3)) :=
  key_v29 m c (W2 m ρ c) (at2_v13 m ρ c)

theorem key_cst_6 (W : Valuation τ sig (Elt Ideal)) :
    StableHlo.after hostOps0_2 W (Proc.devRef .tc main_cst_6) = val_main_cst_2 (F := Ideal) := by
  after_results
  rfl

theorem at3_cst_6 : W3 m ρ c (Proc.devRef .tc main_cst_6) = val_main_cst_2 (F := Ideal) :=
  key_cst_6 (W2 m ρ c)

theorem key_v30 (W : Valuation τ sig (Elt Ideal))
    (h28 : W (Proc.devRef .tc main_v28) = val_main_v20 (F := Ideal) (m ((c : Thread nD τ).loc main_arg3)))
    (h29 : W (Proc.devRef .tc main_v29) = val_main_v21 (F := Ideal) (m ((c : Thread nD τ).loc main_arg3)))
    (hc : W (Proc.devRef .tc main_cst_6) = val_main_cst_2 (F := Ideal)) :
    StableHlo.after hostOps0_3 W (Proc.devRef .tc main_v30) = val_main_v22 (F := Ideal) (m ((c : Thread nD τ).loc main_arg3)) := by
  after_results
  rw [h28, h29, hc]
  simp only [cast_eq]
  rfl

theorem at4_v30 : W4 m ρ c (Proc.devRef .tc main_v30) = val_main_v22 (F := Ideal) (m ((c : Thread nD τ).loc main_arg3)) :=
  key_v30 m c (W3 m ρ c) (at3_v28 m ρ c) (at3_v29 m ρ c) (at3_cst_6 m ρ c)

theorem key_v31 (W : Valuation τ sig (Elt Ideal))
    (h30 : W (Proc.devRef .tc main_v30) = val_main_v22 (F := Ideal) (m ((c : Thread nD τ).loc main_arg3))) :
    StableHlo.after hostOps0_4 W (Proc.devRef .tc main_v31) = (dcol shapeCasts_S50000_S50000x1 (m ((c : Thread nD τ).loc main_arg3))) := by
  after_results
  rw [h30]
  rfl

theorem at5_v31 : W5 m ρ c (Proc.devRef .tc main_v31) = (dcol shapeCasts_S50000_S50000x1 (m ((c : Thread nD τ).loc main_arg3))) :=
  key_v31 m c (W4 m ρ c) (at4_v30 m ρ c)

theorem at5_v22 : W5 m ρ c (Proc.devRef .tc main_v22) = (dcol shapeCasts_S50000_S50000x1 (m ((c : Thread nD τ).loc main_arg1))) :=
  (tr_v22_3_5 m ρ c).trans (at3_v22 m ρ c)

theorem at7_v22 : W7 m ρ c (Proc.devRef .tc main_v22) = (dcol shapeCasts_S50000_S50000x1 (m ((c : Thread nD τ).loc main_arg1))) :=
  (tr_v22_3_7 m ρ c).trans (at3_v22 m ρ c)

theorem at8_v22 : W8 m ρ c (Proc.devRef .tc main_v22) = (dcol shapeCasts_S50000_S50000x1 (m ((c : Thread nD τ).loc main_arg1))) :=
  (tr_v22_3_8 m ρ c).trans (at3_v22 m ρ c)

theorem at10_v22 : W10 m ρ c (Proc.devRef .tc main_v22) = (dcol shapeCasts_S50000_S50000x1 (m ((c : Thread nD τ).loc main_arg1))) :=
  (tr_v22_3_10 m ρ c).trans (at3_v22 m ρ c)

theorem at11_v31 : W11 m ρ c (Proc.devRef .tc main_v31) = (dcol shapeCasts_S50000_S50000x1 (m ((c : Thread nD τ).loc main_arg3))) :=
  (tr_v31_5_11 m ρ c).trans (at5_v31 m ρ c)

theorem at13_v31 : W13 m ρ c (Proc.devRef .tc main_v31) = (dcol shapeCasts_S50000_S50000x1 (m ((c : Thread nD τ).loc main_arg3))) :=
  (tr_v31_5_13 m ρ c).trans (at5_v31 m ρ c)

theorem at14_v31 : W14 m ρ c (Proc.devRef .tc main_v31) = (dcol shapeCasts_S50000_S50000x1 (m ((c : Thread nD τ).loc main_arg3))) :=
  (tr_v31_5_14 m ρ c).trans (at5_v31 m ρ c)

theorem at16_v31 : W16 m ρ c (Proc.devRef .tc main_v31) = (dcol shapeCasts_S50000_S50000x1 (m ((c : Thread nD τ).loc main_arg3))) :=
  (tr_v31_5_16 m ρ c).trans (at5_v31 m ρ c)

end Cert.Gnn.Chain

end
-- ==== Proof.Region0.lean ====
/-
  Region 0 (a scaled feature product): block `t` of the output holds rows `5000·t … 5000·t + 4999` of
  `(X·W)` with row `p` scaled by the column's entry `p`, where `X`, `W` and the column are the three input arrays as the
  region finds them; the ten blocks tile the 50000 rows, so the output array is that function whole.
-/
import proofs.«173324_j25683904430211_2_alg».proof.Proof.Gen.KernelIdeal.Frame
import proofs.«173324_j25683904430211_2_alg».proof.Proof.LibGcnBlocks

set_option maxRecDepth 16384

noncomputable section

namespace Cert.Gnn.Region0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Lib
open scoped BigOperators

theorem hz : (![0, 0] : Fin 2 → Nat) = fun _ => 0 := funext fun a => by fin_cases a <;> rfl

/-- The body's arithmetic at an entry of the block. -/
theorem pay_apply (x0 : Vec Ideal S5000x128 .f32) (x1 : Vec Ideal S128x128 .f32) (x2 : Vec Ideal S5000x1 .f32) (p : Fin 5000) (q : Fin 128) :
    k0_pay1 (F := Ideal) x0 x1 x2 (ix2 p q) = scaledProduct (n := 5000) (K := 128) (M := 128) (ψ := .f32) x0 x1 x2 (ix2 p q) := by
  unfold k0_pay1
  exact blockScaled_apply dot_S5000x128_S128x128_S5000x128_1_0_0_1_n_n.wf bitsLt_bf16_f32 x0 x1 x2 shapeCasts_S5000x1_S5000x1 broadcasts_S5000x1_S5000x128 p q

/-- The body's result on blocks that are pieces of whole arrays: if every entry a block contributes is the whole array's
    entry at the place `e` puts the output entry (row `e j`'s row, column `e j`'s column), the result is the whole-array
    function read through `e`. -/
theorem block_eq (A0 : S50000x128.Idx → EReal) (A1 : S128x128.Idx → EReal) (A2 : S50000x1.Idx → EReal)
    (x0 : Vec Ideal S5000x128 .f32) (x1 : Vec Ideal S128x128 .f32) (x2 : Vec Ideal S5000x1 .f32) (e : S5000x128.Idx → S50000x128.Idx)
    (h0 : ∀ (j : S5000x128.Idx) (k : Fin 128), x0 (ix2 (j 0) k) = A0 (ix2 ((e j) 0) k))
    (h1 : ∀ (j : S5000x128.Idx) (k : Fin 128), x1 (ix2 k (j 1)) = A1 (ix2 k ((e j) 1)))
    (h2 : ∀ (j : S5000x128.Idx), x2 (ix2 (j 0) (0 : Fin 1)) = A2 (ix2 ((e j) 0) (0 : Fin 1))) :
    k0_pay1 (F := Ideal) x0 x1 x2 = fun j => scaledProduct (n := 50000) (K := 128) (M := 128) (ψ := .f32) A0 A1 A2 (e j) := by
  funext j
  refine ((congrArg (k0_pay1 (F := Ideal) x0 x1 x2) (eq_ix2 j)).trans (pay_apply x0 x1 x2 (j 0) (j 1))).trans ?_
  show (∑ k : Fin 128, x0 (ix2 (j 0) k) * x1 (ix2 k (j 1))) * x2 (ix2 (j 0) (0 : Fin 1))
    = (∑ k : Fin 128, A0 (ix2 ((e j) 0) k) * A1 (ix2 k ((e j) 1))) * A2 (ix2 ((e j) 0) (0 : Fin 1))
  rw [h2 j]
  exact congrArg (· * _) (Finset.sum_congr rfl fun k _ => by rw [h0 j k, h1 j k])

/-- The printed index maps over the ten grid points: the row blocks move with the point, the whole-array operands and the
    column axis stay at block 0. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (1 : Fin 2) = 0
    ∧ win0_3.index t (0 : Fin 2) ≤ 9 :=
  (by decide +kernel : ∀ t : Fin grid0.N, _)

/-- Every row block is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

variable (V : (c : Dev nD) → (b : Ref sig .tc) → Buf (Elt Ideal) ((c : Thread nD τ).loc b))

set_option maxHeartbeats 3200000 in
/-- What point `t` writes back is block `t` of the whole-array function of the region's input arrays. -/
theorem flushed_eq (c : Dev nD) (t : Fin cfg0.N) :
    (dat0 V c).flushed 3 t = ((cfg0.win 3).blk t).view.read (Elt Ideal) (scaledProduct (n := 50000) (K := 128) (M := 128) (ψ := .f32) (V c main_arg0) (V c main_arg4) (V c main_v22)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨f0, f1, f2, f3, f4, f5, f6, f7⟩ := idx_facts t
  refine block_eq (V c main_arg0) (V c main_arg4) (V c main_v22) (iblk0 V c 0 t) (iblk0 V c 1 t) (iblk0 V c 2 t) (((cfg0.win 3).blk t).view.emb) ?_ ?_ ?_
  · intro j k
    have hj0 : (j 0).val < 5000 := (j 0).isLt
    have hj1 : (j 1).val < 128 := (j 1).isLt
    show V c main_arg0 (((cfg0.win 0).blk t).view.emb (ix2 (j 0) k)) = V c main_arg0 (ix2 ((((cfg0.win 3).blk t).view.emb j) 0) k)
    refine congrArg (V c main_arg0) ?_
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · intro j k
    have hj0 : (j 0).val < 5000 := (j 0).isLt
    have hj1 : (j 1).val < 128 := (j 1).isLt
    show V c main_arg4 (((cfg0.win 1).blk t).view.emb (ix2 k (j 1))) = V c main_arg4 (ix2 k ((((cfg0.win 3).blk t).view.emb j) 1))
    refine congrArg (V c main_arg4) ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  · intro j
    have hj0 : (j 0).val < 5000 := (j 0).isLt
    have hj1 : (j 1).val < 128 := (j 1).isLt
    show V c main_v22 (((cfg0.win 2).blk t).view.emb (ix2 (j 0) (0 : Fin 1))) = V c main_v22 (ix2 ((((cfg0.win 3).blk t).view.emb j) 0) (0 : Fin 1))
    refine congrArg (V c main_v22) ?_
    funext a; apply Fin.ext
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega

/-- An index of the array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v32).slice (win0_3.rect t)).set ↔ _
  rw [View.set_slice_whole, Rect.mem_set_unit]
  exact Iff.rfl

/-- Every index of the output array lies in some point's block: the point is the row number divided by 5000. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the region, whole. -/
theorem value (c : Dev nD) :
    (dat0 V c).arrAt 3 cfg0.N = scaledProduct (n := 50000) (K := 128) (M := 128) (ψ := .f32) (V c main_arg0) (V c main_arg4) (V c main_v22) :=
  (dat0 V c).arrAt_eq_of_cover 3 _ (fun t _ => flushed_eq V c t) cover

end Cert.Gnn.Region0

end
-- ==== Proof.Region1.lean ====
/-
  Region 1 (the finish of a layer): block `t` of the output holds rows `5000·t … 5000·t + 4999` of
  `max (A p q · s p + b q) 0`, where the aggregate `A`, the scale column `s` and the bias row `b` are the three input arrays as
  the region finds them; the ten blocks tile the 50000 rows, so the output array is that function whole.
-/
import proofs.«173324_j25683904430211_2_alg».proof.Proof.Gen.KernelIdeal.Frame
import proofs.«173324_j25683904430211_2_alg».proof.Proof.LibGcnBlocks

set_option maxRecDepth 16384

noncomputable section

namespace Cert.Gnn.Region1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Lib
open scoped BigOperators

theorem hz : (![0, 0] : Fin 2 → Nat) = fun _ => 0 := funext fun a => by fin_cases a <;> rfl

/-- The body's arithmetic at an entry of the block. -/
theorem pay_apply (x0 : Vec Ideal S5000x128 .f32) (x1 : Vec Ideal S5000x1 .f32) (x2 : Vec Ideal S1x128 .f32) (p : Fin 5000) (q : Fin 128) :
    k1_pay1 (F := Ideal) x0 x1 x2 (ix2 p q) = finishRows (n := 5000) (M := 128) x0 x1 x2 (ix2 p q) := by
  unfold k1_pay1
  exact blockFinish_apply x0 x1 x2 shapeCasts_S5000x128_S5000x128 shapeCasts_S5000x1_S5000x1 shapeCasts_S1x128_S1x128 broadcasts_S5000x1_S5000x128 broadcasts_S1x128_S5000x128 p q

/-- The body's result on blocks that are pieces of whole arrays: if every entry a block contributes is the whole array's
    entry at the place `e` puts the output entry (row `e j`'s row, column `e j`'s column), the result is the whole-array
    function read through `e`. -/
theorem block_eq (A0 : S50000x128.Idx → EReal) (A1 : S50000x1.Idx → EReal) (A2 : S1x128.Idx → EReal)
    (x0 : Vec Ideal S5000x128 .f32) (x1 : Vec Ideal S5000x1 .f32) (x2 : Vec Ideal S1x128 .f32) (e : S5000x128.Idx → S50000x128.Idx)
    (h0 : ∀ (j : S5000x128.Idx), x0 (j) = A0 (e j))
    (h1 : ∀ (j : S5000x128.Idx), x1 (ix2 (j 0) (0 : Fin 1)) = A1 (ix2 ((e j) 0) (0 : Fin 1)))
    (h2 : ∀ (j : S5000x128.Idx), x2 (ix2 (0 : Fin 1) (j 1)) = A2 (ix2 (0 : Fin 1) ((e j) 1))) :
    k1_pay1 (F := Ideal) x0 x1 x2 = fun j => finishRows (n := 50000) (M := 128) A0 A1 A2 (e j) := by
  funext j
  refine ((congrArg (k1_pay1 (F := Ideal) x0 x1 x2) (eq_ix2 j)).trans (pay_apply x0 x1 x2 (j 0) (j 1))).trans ?_
  show max (x0 (ix2 (j 0) (j 1)) * x1 (ix2 (j 0) (0 : Fin 1)) + x2 (ix2 (0 : Fin 1) (j 1))) (Ideal.ofBits .f32 0x00000000#32)
    = max (A0 (e j) * A1 (ix2 ((e j) 0) (0 : Fin 1)) + A2 (ix2 (0 : Fin 1) ((e j) 1))) (Ideal.ofBits .f32 0x00000000#32)
  exact congrArg (max · _) (congrArg₂ (· + ·) (congrArg₂ (· * ·) ((congrArg x0 (eq_ix2 j).symm).trans (h0 j)) (h1 j)) (h2 j))

/-- The printed index maps over the ten grid points: the row blocks move with the point, the whole-array operands and the
    column axis stay at block 0. -/
theorem idx_facts : ∀ t : Fin cfg1.N, win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 9 :=
  (by decide +kernel : ∀ t : Fin grid1.N, _)

/-- Every row block is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

variable (V : (c : Dev nD) → (b : Ref sig .tc) → Buf (Elt Ideal) ((c : Thread nD τ).loc b))

set_option maxHeartbeats 3200000 in
/-- What point `t` writes back is block `t` of the whole-array function of the region's input arrays. -/
theorem flushed_eq (c : Dev nD) (t : Fin cfg1.N) :
    (dat1 V c).flushed 3 t = ((cfg1.win 3).blk t).view.read (Elt Ideal) (finishRows (n := 50000) (M := 128) (V c main_v42) (V c main_v22) (V c main_v43)) := by
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz, View.ld_unit_zero (S := S1x128) hz]
  obtain ⟨f0, f1, f2, f3, f4, f5, f6, f7⟩ := idx_facts t
  refine block_eq (V c main_v42) (V c main_v22) (V c main_v43) (iblk1 V c 0 t) (iblk1 V c 1 t) (iblk1 V c 2 t) (((cfg1.win 3).blk t).view.emb) ?_ ?_ ?_
  · intro j
    have hj0 : (j 0).val < 5000 := (j 0).isLt
    have hj1 : (j 1).val < 128 := (j 1).isLt
    show V c main_v42 (((cfg1.win 0).blk t).view.emb (j)) = V c main_v42 (((cfg1.win 3).blk t).view.emb j)
    refine congrArg (V c main_v42) ?_
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  · intro j
    have hj0 : (j 0).val < 5000 := (j 0).isLt
    have hj1 : (j 1).val < 128 := (j 1).isLt
    show V c main_v22 (((cfg1.win 1).blk t).view.emb (ix2 (j 0) (0 : Fin 1))) = V c main_v22 (ix2 ((((cfg1.win 3).blk t).view.emb j) 0) (0 : Fin 1))
    refine congrArg (V c main_v22) ?_
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 1 + 1 * 0 = 0; omega
  · intro j
    have hj0 : (j 0).val < 5000 := (j 0).isLt
    have hj1 : (j 1).val < 128 := (j 1).isLt
    show V c main_v43 (((cfg1.win 2).blk t).view.emb (ix2 (0 : Fin 1) (j 1))) = V c main_v43 (ix2 (0 : Fin 1) ((((cfg1.win 3).blk t).view.emb j) 1))
    refine congrArg (V c main_v43) ?_
    funext a; apply Fin.ext
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega

/-- An index of the array is in point `t`'s block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v44).slice (win1_3.rect t)).set ↔ _
  rw [View.set_slice_whole, Rect.mem_set_unit]
  exact Iff.rfl

/-- Every index of the output array lies in some point's block: the point is the row number divided by 5000. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The output array after the region, whole. -/
theorem value (c : Dev nD) :
    (dat1 V c).arrAt 3 cfg1.N = finishRows (n := 50000) (M := 128) (V c main_v42) (V c main_v22) (V c main_v43) :=
  (dat1 V c).arrAt_eq_of_cover 3 _ (fun t _ => flushed_eq V c t) cover

end Cert.Gnn.Region1

end
-- ==== Proof.Region2.lean ====
/-
  Region 2 (a scaled feature product): block `t` of the output holds rows `5000·t … 5000·t + 4999` of
  `(X·W)` with row `p` scaled by the column's entry `p`, where `X`, `W` and the column are the three input arrays as the
  region finds them; the ten blocks tile the 50000 rows, so the output array is that function whole.
-/
import proofs.«173324_j25683904430211_2_alg».proof.Proof.Gen.KernelIdeal.Frame
import proofs.«173324_j25683904430211_2_alg».proof.Proof.LibGcnBlocks

set_option maxRecDepth 16384

noncomputable section

namespace Cert.Gnn.Region2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Lib
open scoped BigOperators

theorem hz : (![0, 0] : Fin 2 → Nat) = fun _ => 0 := funext fun a => by fin_cases a <;> rfl

/-- The body's arithmetic at an entry of the block. -/
theorem pay_apply (x0 : Vec Ideal S5000x128 .f32) (x1 : Vec Ideal S128x128 .f32) (x2 : Vec Ideal S5000x1 .f32) (p : Fin 5000) (q : Fin 128) :
    k2_pay1 (F := Ideal) x0 x1 x2 (ix2 p q) = scaledProduct (n := 5000) (K := 128) (M := 128) (ψ := .f32) x0 x1 x2 (ix2 p q) := by
  unfold k2_pay1
  rw [shapeCast_self x0 shapeCasts_S5000x128_S5000x128]
  exact blockScaled_apply dot_S5000x128_S128x128_S5000x128_1_0_0_1_n_n.wf bitsLt_bf16_f32 x0 x1 x2 shapeCasts_S5000x1_S5000x1 broadcasts_S5000x1_S5000x128 p q

/-- The body's result on blocks that are pieces of whole arrays: if every entry a block contributes is the whole array's
    entry at the place `e` puts the output entry (row `e j`'s row, column `e j`'s column), the result is the whole-array
    function read through `e`. -/
theorem block_eq (A0 : S50000x128.Idx → EReal) (A1 : S128x128.Idx → EReal) (A2 : S50000x1.Idx → EReal)
    (x0 : Vec Ideal S5000x128 .f32) (x1 : Vec Ideal S128x128 .f32) (x2 : Vec Ideal S5000x1 .f32) (e : S5000x128.Idx → S50000x128.Idx)
    (h0 : ∀ (j : S5000x128.Idx) (k : Fin 128), x0 (ix2 (j 0) k) = A0 (ix2 ((e j) 0) k))
    (h1 : ∀ (j : S5000x128.Idx) (k : Fin 128), x1 (ix2 k (j 1)) = A1 (ix2 k ((e j) 1)))
    (h2 : ∀ (j : S5000x128.Idx), x2 (ix2 (j 0) (0 : Fin 1)) = A2 (ix2 ((e j) 0) (0 : Fin 1))) :
    k2_pay1 (F := Ideal) x0 x1 x2 = fun j => scaledProduct (n := 50000) (K := 128) (M := 128) (ψ := .f32) A0 A1 A2 (e j) := by
  funext j
  refine ((congrArg (k2_pay1 (F := Ideal) x0 x1 x2) (eq_ix2 j)).trans (pay_apply x0 x1 x2 (j 0) (j 1))).trans ?_
  show (∑ k : Fin 128, x0 (ix2 (j 0) k) * x1 (ix2 k (j 1))) * x2 (ix2 (j 0) (0 : Fin 1))
    = (∑ k : Fin 128, A0 (ix2 ((e j) 0) k) * A1 (ix2 k ((e j) 1))) * A2 (ix2 ((e j) 0) (0 : Fin 1))
  rw [h2 j]
  exact congrArg (· * _) (Finset.sum_congr rfl fun k _ => by rw [h0 j k, h1 j k])

/-- The printed index maps over the ten grid points: the row blocks move with the point, the whole-array operands and the
    column axis stay at block 0. -/
theorem idx_facts : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = win2_3.index t (0 : Fin 2)
    ∧ win2_2.index t (1 : Fin 2) = 0
    ∧ win2_3.index t (1 : Fin 2) = 0
    ∧ win2_3.index t (0 : Fin 2) ≤ 9 :=
  (by decide +kernel : ∀ t : Fin grid2.N, _)

/-- Every row block is some point's. -/
theorem idx_onto : ∀ q0 : Fin 10, ∃ t : Fin cfg2.N, win2_3.index t = ![q0.val, 0] :=
  (by decide +kernel : ∀ q0 : Fin 10, ∃ t : Fin grid2.N, win2_3.index t = ![q0.val, 0])

variable (V : (c : Dev nD) → (b : Ref sig .tc) → Buf (Elt Ideal) ((c : Thread nD τ).loc b))

set_option maxHeartbeats 3200000 in
/-- What point `t` writes back is block `t` of the whole-array function of the region's input arrays. -/
theorem flushed_eq (c : Dev nD) (t : Fin cfg2.N) :
    (dat2 V c).flushed 3 t = ((cfg2.win 3).blk t).view.read (Elt Ideal) (scaledProduct (n := 50000) (K := 128) (M := 128) (ψ := .f32) (V c main_v44) (V c main_arg6) (V c main_v22)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S5000x1) hz]
  obtain ⟨f0, f1, f2, f3, f4, f5, f6, f7⟩ := idx_facts t
  refine block_eq (V c main_v44) (V c main_arg6) (V c main_v22) (iblk2 V c 0 t) (iblk2 V c 1 t) (iblk2 V c 2 t) (((cfg2.win 3).blk t).view.emb) ?_ ?_ ?_
  · intro j k
    have hj0 : (j 0).val < 5000 := (j 0).isLt
    have hj1 : (j 1).val < 128 := (j 1).isLt
    show V c main_v44 (((cfg2.win 0).blk t).view.emb (ix2 (j 0) k)) = V c main_v44 (ix2 ((((cfg2.win 3).blk t).view.emb j) 0) k)
    refine congrArg (V c main_v44) ?_
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  · intro j k
    have hj0 : (j 0).val < 5000 := (j 0).isLt
    have hj1 : (j 1).val < 128 := (j 1).isLt
    show V c main_arg6 (((cfg2.win 1).blk t).view.emb (ix2 k (j 1))) = V c main_arg6 (ix2 k ((((cfg2.win 3).blk t).view.emb j) 1))
    refine congrArg (V c main_arg6) ?_
    funext a; apply Fin.ext
    match a with
    | ⟨0, _⟩ => show win2_1.index t (0 : Fin 2) * 128 + 1 * k.val = k.val; omega
    | ⟨1, _⟩ => show win2_1.index t (1 : Fin 2) * 128 + 1 * (j 1).val = win2_3.index t (1 : Fin 2) * 128 + 1 * (j 1).val; omega
  · intro j
    have hj0 : (j 0).val < 5000 := (j 0).isLt
    have hj1 : (j 1).val < 128 := (j 1).isLt
    show V c main_v22 (((cfg2.win 2).blk t).view.emb (ix2 (j 0) (0 : Fin 1))) = V c main_v22 (ix2 ((((cfg2.win 3).blk t).view.emb j) 0) (0 : Fin 1))
    refine congrArg (V c main_v22) ?_
    funext a; apply Fin.ext
    match a with
    | ⟨0, _⟩ => show win2_2.index t (0 : Fin 2) * 5000 + 1 * (j 0).val = win2_3.index t (0 : Fin 2) * 5000 + 1 * (j 0).val; omega
    | ⟨1, _⟩ => show win2_2.index t (1 : Fin 2) * 1 + 1 * 0 = 0; omega

/-- An index of the array is in point `t`'s block iff each coordinate is in the block's range on its axis. -/
theorem mem_blk (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v45).slice (win2_3.rect t)).set ↔ _
  rw [View.set_slice_whole, Rect.mem_set_unit]
  exact Iff.rfl

/-- Every index of the output array lies in some point's block: the point is the row number divided by 5000. -/
theorem cover (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ := idx_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The output array after the region, whole. -/
theorem value (c : Dev nD) :
    (dat2 V c).arrAt 3 cfg2.N = scaledProduct (n := 50000) (K := 128) (M := 128) (ψ := .f32) (V c main_v44) (V c main_arg6) (V c main_v22) :=
  (dat2 V c).arrAt_eq_of_cover 3 _ (fun t _ => flushed_eq V c t) cover

end Cert.Gnn.Region2

end
-- ==== Proof.Region3.lean ====
/-
  Region 3 (the finish of a layer): block `t` of the output holds rows `5000·t … 5000·t + 4999` of
  `max (A p q · s p + b q) 0`, where the aggregate `A`, the scale column `s` and the bias row `b` are the three input arrays as
  the region finds them; the ten blocks tile the 50000 rows, so the output array is that function whole.
-/
import proofs.«173324_j25683904430211_2_alg».proof.Proof.Gen.KernelIdeal.Frame
import proofs.«173324_j25683904430211_2_alg».proof.Proof.LibGcnBlocks

set_option maxRecDepth 16384

noncomputable section

namespace Cert.Gnn.Region3

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Lib
open scoped BigOperators

theorem hz : (![0, 0] : Fin 2 → Nat) = fun _ => 0 := funext fun a => by fin_cases a <;> rfl

/-- The body's arithmetic at an entry of the block. -/
theorem pay_apply (x0 : Vec Ideal S5000x128 .f32) (x1 : Vec Ideal S5000x1 .f32) (x2 : Vec Ideal S1x128 .f32) (p : Fin 5000) (q : Fin 128) :
    k3_pay1 (F := Ideal) x0 x1 x2 (ix2 p q) = finishRows (n := 5000) (M := 128) x0 x1 x2 (ix2 p q) := by
  unfold k3_pay1
  exact blockFinish_apply x0 x1 x2 shapeCasts_S5000x128_S5000x128 shapeCasts_S5000x1_S5000x1 shapeCasts_S1x128_S1x128 broadcasts_S5000x1_S5000x128 broadcasts_S1x128_S5000x128 p q

/-- The body's result on blocks that are pieces of whole arrays: if every entry a block contributes is the whole array's
    entry at the place `e` puts the output entry (row `e j`'s row, column `e j`'s column), the result is the whole-array
    function read through `e`. -/
theorem block_eq (A0 : S50000x128.Idx → EReal) (A1 : S50000x1.Idx → EReal) (A2 : S1x128.Idx → EReal)
    (x0 : Vec Ideal S5000x128 .f32) (x1 : Vec Ideal S5000x1 .f32) (x2 : Vec Ideal S1x128 .f32) (e : S5000x128.Idx → S50000x128.Idx)
    (h0 : ∀ (j : S5000x128.Idx), x0 (j) = A0 (e j))
    (h1 : ∀ (j : S5000x128.Idx), x1 (ix2 (j 0) (0 : Fin 1)) = A1 (ix2 ((e j) 0) (0 : Fin 1)))
    (h2 : ∀ (j : S5000x128.Idx), x2 (ix2 (0 : Fin 1) (j 1)) = A2 (ix2 (0 : Fin 1) ((e j) 1))) :
    k3_pay1 (F := Ideal) x0 x1 x2 = fun j => finishRows (n := 50000) (M := 128) A0 A1 A2 (e j) := by
  funext j
  refine ((congrArg (k3_pay1 (F := Ideal) x0 x1 x2) (eq_ix2 j)).trans (pay_apply x0 x1 x2 (j 0) (j 1))).trans ?_
  show max (x0 (ix2 (j 0) (j 1)) * x1 (ix2 (j 0) (0 : Fin 1)) + x2 (ix2 (0 : Fin 1) (j 1))) (Ideal.ofBits .f32 0x00000000#32)
    = max (A0 (e j) * A1 (ix2 ((e j) 0) (0 : Fin 1)) + A2 (ix2 (0 : Fin 1) ((e j) 1))) (Ideal.ofBits .f32 0x00000000#32)
  exact congrArg (max · _) (congrArg₂ (· + ·) (congrArg₂ (· * ·) ((congrArg x0 (eq_ix2 j).symm).trans (h0 j)) (h1 j)) (h2 j))

/-- The printed index maps over the ten grid points: the row blocks move with the point, the whole-array operands and the
    column axis stay at block 0. -/
theorem idx_facts : ∀ t : Fin cfg3.N, win3_0.index t (0 : Fin 2) = win3_3.index t (0 : Fin 2)
    ∧ win3_0.index t (1 : Fin 2) = 0
    ∧ win3_1.index t (0 : Fin 2) = win3_3.index t (0 : Fin 2)
    ∧ win3_1.index t (1 : Fin 2) = 0
    ∧ win3_2.index t (0 : Fin 2) = 0
    ∧ win3_2.index t (1 : Fin 2) = 0
    ∧ win3_3.index t (1 : Fin 2) = 0
    ∧ win3_3.index t (0 : Fin 2) ≤ 9 :=
  (by decide +kernel : ∀ t : Fin grid3.N, _)

/-- Every row block is some point's. -/
theorem idx_onto : ∀ q0 : Fin 10, ∃ t : Fin cfg3.N, win3_3.index t = ![q0.val, 0] :=
  (by decide +kernel : ∀ q0 : Fin 10, ∃ t : Fin grid3.N, win3_3.index t = ![q0.val, 0])

variable (V : (c : Dev nD) → (b : Ref sig .tc) → Buf (Elt Ideal) ((c : Thread nD τ).loc b))

set_option maxHeartbeats 3200000 in
/-- What point `t` writes back is block `t` of the whole-array function of the region's input arrays. -/
theorem flushed_eq (c : Dev nD) (t : Fin cfg3.N) :
    (dat3 V c).flushed 3 t = ((cfg3.win 3).blk t).view.read (Elt Ideal) (finishRows (n := 50000) (M := 128) (V c main_v55) (V c main_v22) (V c main_v56)) := by
  show (cfg3.win 3).cut (grid3.coords t) ((dat3 V c).after 3 t) = _
  rw [after3_3]
  unfold out3_3
  rw [View.canon_unit_zero hz]
  simp only [View.ld_unit_zero (S := S5000x128) hz, View.ld_unit_zero (S := S5000x1) hz, View.ld_unit_zero (S := S1x128) hz]
  obtain ⟨f0, f1, f2, f3, f4, f5, f6, f7⟩ := idx_facts t
  refine block_eq (V c main_v55) (V c main_v22) (V c main_v56) (iblk3 V c 0 t) (iblk3 V c 1 t) (iblk3 V c 2 t) (((cfg3.win 3).blk t).view.emb) ?_ ?_ ?_
  · intro j
    have hj0 : (j 0).val < 5000 := (j 0).isLt
    have hj1 : (j 1).val < 128 := (j 1).isLt
    show V c main_v55 (((cfg3.win 0).blk t).view.emb (j)) = V c main_v55 (((cfg3.win 3).blk t).view.emb j)
    refine congrArg (V c main_v55) ?_
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * (j 1).val = win3_3.index t (1 : Fin 2) * 128 + 1 * (j 1).val; omega
  · intro j
    have hj0 : (j 0).val < 5000 := (j 0).isLt
    have hj1 : (j 1).val < 128 := (j 1).isLt
    show V c main_v22 (((cfg3.win 1).blk t).view.emb (ix2 (j 0) (0 : Fin 1))) = V c main_v22 (ix2 ((((cfg3.win 3).blk t).view.emb j) 0) (0 : Fin 1))
    refine congrArg (V c main_v22) ?_
    funext a; apply Fin.ext
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 1 + 1 * 0 = 0; omega
  · intro j
    have hj0 : (j 0).val < 5000 := (j 0).isLt
    have hj1 : (j 1).val < 128 := (j 1).isLt
    show V c main_v56 (((cfg3.win 2).blk t).view.emb (ix2 (0 : Fin 1) (j 1))) = V c main_v56 (ix2 (0 : Fin 1) ((((cfg3.win 3).blk t).view.emb j) 1))
    refine congrArg (V c main_v56) ?_
    funext a; apply Fin.ext
    match a with
    | ⟨0, _⟩ => show win3_2.index t (0 : Fin 2) * 1 + 1 * 0 = 0; omega
    | ⟨1, _⟩ => show win3_2.index t (1 : Fin 2) * 128 + 1 * (j 1).val = win3_3.index t (1 : Fin 2) * 128 + 1 * (j 1).val; omega

/-- An index of the array is in point `t`'s block iff each coordinate is in the block's range on its axis. -/
theorem mem_blk (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v57).slice (win3_3.rect t)).set ↔ _
  rw [View.set_slice_whole, Rect.mem_set_unit]
  exact Iff.rfl

/-- Every index of the output array lies in some point's block: the point is the row number divided by 5000. -/
theorem cover (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  obtain ⟨t, ht⟩ := idx_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The output array after the region, whole. -/
theorem value (c : Dev nD) :
    (dat3 V c).arrAt 3 cfg3.N = finishRows (n := 50000) (M := 128) (V c main_v55) (V c main_v22) (V c main_v56) :=
  (dat3 V c).arrAt_eq_of_cover 3 _ (fun t _ => flushed_eq V c t) cover

end Cert.Gnn.Region3

end
-- ==== Proof.Region4.lean ====
/-
  Region 4 (a scaled feature product): block `t` of the output holds rows `5000·t … 5000·t + 4999` of
  `(X·W)` with row `p` scaled by the column's entry `p`, where `X`, `W` and the column are the three input arrays as the
  region finds them; the ten blocks tile the 50000 rows, so the output array is that function whole.
-/
import proofs.«173324_j25683904430211_2_alg».proof.Proof.Gen.KernelIdeal.Frame
import proofs.«173324_j25683904430211_2_alg».proof.Proof.LibGcnBlocks

set_option maxRecDepth 16384

noncomputable section

namespace Cert.Gnn.Region4

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Lib
open scoped BigOperators

theorem hz : (![0, 0] : Fin 2 → Nat) = fun _ => 0 := funext fun a => by fin_cases a <;> rfl

/-- The body's arithmetic at an entry of the block. -/
theorem pay_apply (x0 : Vec Ideal S5000x128 .f32) (x1 : Vec Ideal S128x128 .f32) (x2 : Vec Ideal S5000x1 .f32) (p : Fin 5000) (q : Fin 128) :
    k4_pay1 (F := Ideal) x0 x1 x2 (ix2 p q) = scaledProduct (n := 5000) (K := 128) (M := 128) (ψ := .f32) x0 x1 x2 (ix2 p q) := by
  unfold k4_pay1
  exact blockScaled_apply dot_S5000x128_S128x128_S5000x128_1_0_0_1_n_n.wf bitsLt_bf16_f32 x0 x1 x2 shapeCasts_S5000x1_S5000x1 broadcasts_S5000x1_S5000x128 p q

/-- The body's result on blocks that are pieces of whole arrays: if every entry a block contributes is the whole array's
    entry at the place `e` puts the output entry (row `e j`'s row, column `e j`'s column), the result is the whole-array
    function read through `e`. -/
theorem block_eq (A0 : S50000x128.Idx → EReal) (A1 : S128x128.Idx → EReal) (A2 : S50000x1.Idx → EReal)
    (x0 : Vec Ideal S5000x128 .f32) (x1 : Vec Ideal S128x128 .f32) (x2 : Vec Ideal S5000x1 .f32) (e : S5000x128.Idx → S50000x128.Idx)
    (h0 : ∀ (j : S5000x128.Idx) (k : Fin 128), x0 (ix2 (j 0) k) = A0 (ix2 ((e j) 0) k))
    (h1 : ∀ (j : S5000x128.Idx) (k : Fin 128), x1 (ix2 k (j 1)) = A1 (ix2 k ((e j) 1)))
    (h2 : ∀ (j : S5000x128.Idx), x2 (ix2 (j 0) (0 : Fin 1)) = A2 (ix2 ((e j) 0) (0 : Fin 1))) :
    k4_pay1 (F := Ideal) x0 x1 x2 = fun j => scaledProduct (n := 50000) (K := 128) (M := 128) (ψ := .f32) A0 A1 A2 (e j) := by
  funext j
  refine ((congrArg (k4_pay1 (F := Ideal) x0 x1 x2) (eq_ix2 j)).trans (pay_apply x0 x1 x2 (j 0) (j 1))).trans ?_
  show (∑ k : Fin 128, x0 (ix2 (j 0) k) * x1 (ix2 k (j 1))) * x2 (ix2 (j 0) (0 : Fin 1))
    = (∑ k : Fin 128, A0 (ix2 ((e j) 0) k) * A1 (ix2 k ((e j) 1))) * A2 (ix2 ((e j) 0) (0 : Fin 1))
  rw [h2 j]
  exact congrArg (· * _) (Finset.sum_congr rfl fun k _ => by rw [h0 j k, h1 j k])

/-- The printed index maps over the ten grid points: the row blocks move with the point, the whole-array operands and the
    column axis stay at block 0. -/
theorem idx_facts : ∀ t : Fin cfg4.N, win4_0.index t (0 : Fin 2) = win4_3.index t (0 : Fin 2)
    ∧ win4_0.index t (1 : Fin 2) = 0
    ∧ win4_1.index t (0 : Fin 2) = 0
    ∧ win4_1.index t (1 : Fin 2) = 0
    ∧ win4_2.index t (0 : Fin 2) = win4_3.index t (0 : Fin 2)
    ∧ win4_2.index t (1 : Fin 2) = 0
    ∧ win4_3.index t (1 : Fin 2) = 0
    ∧ win4_3.index t (0 : Fin 2) ≤ 9 :=
  (by decide +kernel : ∀ t : Fin grid4.N, _)

/-- Every row block is some point's. -/
theorem idx_onto : ∀ q0 : Fin 10, ∃ t : Fin cfg4.N, win4_3.index t = ![q0.val, 0] :=
  (by decide +kernel : ∀ q0 : Fin 10, ∃ t : Fin grid4.N, win4_3.index t = ![q0.val, 0])

variable (V : (c : Dev nD) → (b : Ref sig .tc) → Buf (Elt Ideal) ((c : Thread nD τ).loc b))

set_option maxHeartbeats 3200000 in
/-- What point `t` writes back is block `t` of the whole-array function of the region's input arrays. -/
theorem flushed_eq (c : Dev nD) (t : Fin cfg4.N) :
    (dat4 V c).flushed 3 t = ((cfg4.win 3).blk t).view.read (Elt Ideal) (scaledProduct (n := 50000) (K := 128) (M := 128) (ψ := .f32) (V c main_arg2) (V c main_arg8) (V c main_v31)) := by
  show (cfg4.win 3).cut (grid4.coords t) ((dat4 V c).after 3 t) = _
  rw [after4_3]
  unfold out4_3
  rw [View.canon_unit_zero hz]
  simp only [View.ld_unit_zero (S := S5000x128) hz, View.ld_unit_zero (S := S128x128) hz, View.ld_unit_zero (S := S5000x1) hz]
  obtain ⟨f0, f1, f2, f3, f4, f5, f6, f7⟩ := idx_facts t
  refine block_eq (V c main_arg2) (V c main_arg8) (V c main_v31) (iblk4 V c 0 t) (iblk4 V c 1 t) (iblk4 V c 2 t) (((cfg4.win 3).blk t).view.emb) ?_ ?_ ?_
  · intro j k
    have hj0 : (j 0).val < 5000 := (j 0).isLt
    have hj1 : (j 1).val < 128 := (j 1).isLt
    show V c main_arg2 (((cfg4.win 0).blk t).view.emb (ix2 (j 0) k)) = V c main_arg2 (ix2 ((((cfg4.win 3).blk t).view.emb j) 0) k)
    refine congrArg (V c main_arg2) ?_
    funext a; apply Fin.ext
    match a with
    | ⟨0, _⟩ => show win4_0.index t (0 : Fin 2) * 5000 + 1 * (j 0).val = win4_3.index t (0 : Fin 2) * 5000 + 1 * (j 0).val; omega
    | ⟨1, _⟩ => show win4_0.index t (1 : Fin 2) * 128 + 1 * k.val = k.val; omega
  · intro j k
    have hj0 : (j 0).val < 5000 := (j 0).isLt
    have hj1 : (j 1).val < 128 := (j 1).isLt
    show V c main_arg8 (((cfg4.win 1).blk t).view.emb (ix2 k (j 1))) = V c main_arg8 (ix2 k ((((cfg4.win 3).blk t).view.emb j) 1))
    refine congrArg (V c main_arg8) ?_
    funext a; apply Fin.ext
    match a with
    | ⟨0, _⟩ => show win4_1.index t (0 : Fin 2) * 128 + 1 * k.val = k.val; omega
    | ⟨1, _⟩ => show win4_1.index t (1 : Fin 2) * 128 + 1 * (j 1).val = win4_3.index t (1 : Fin 2) * 128 + 1 * (j 1).val; omega
  · intro j
    have hj0 : (j 0).val < 5000 := (j 0).isLt
    have hj1 : (j 1).val < 128 := (j 1).isLt
    show V c main_v31 (((cfg4.win 2).blk t).view.emb (ix2 (j 0) (0 : Fin 1))) = V c main_v31 (ix2 ((((cfg4.win 3).blk t).view.emb j) 0) (0 : Fin 1))
    refine congrArg (V c main_v31) ?_
    funext a; apply Fin.ext
    match a with
    | ⟨0, _⟩ => show win4_2.index t (0 : Fin 2) * 5000 + 1 * (j 0).val = win4_3.index t (0 : Fin 2) * 5000 + 1 * (j 0).val; omega
    | ⟨1, _⟩ => show win4_2.index t (1 : Fin 2) * 1 + 1 * 0 = 0; omega

/-- An index of the array is in point `t`'s block iff each coordinate is in the block's range on its axis. -/
theorem mem_blk (t : Fin cfg4.N) (i : S50000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v58).slice (win4_3.rect t)).set ↔ _
  rw [View.set_slice_whole, Rect.mem_set_unit]
  exact Iff.rfl

/-- Every index of the output array lies in some point's block: the point is the row number divided by 5000. -/
theorem cover (i : S50000x128.Idx) : ∃ t : Fin cfg4.N, (cfg4.win 3).flush t = true ∧ i ∈ ((cfg4.win 3).blk t).view.set := by
  have hi0 : (i 0).val < 50000 := (i 0).isLt
  have hi1 : (i 1).val < 128 := (i 1).isLt
  obtain ⟨t, ht⟩ := idx_onto ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 128 ≤ (i 1).val ∧ (i 1).val < win4_3.index t (1 : Fin 2) * 128 + 128; omega

/-- The output array after the region, whole. -/
theorem value (c : Dev nD) :
    (dat4 V c).arrAt 3 cfg4.N = scaledProduct (n := 50000) (K := 128) (M := 128) (ψ := .f32) (V c main_arg2) (V c main_arg8) (V c main_v31) :=
  (dat4 V c).arrAt_eq_of_cover 3 _ (fun t _ => flushed_eq V c t) cover

end Cert.Gnn.Region4

end
-- ==== Proof.Region5.lean ====
/-
  Region 5 (the finish of a layer): block `t` of the output holds rows `5000·t … 5000·t + 4999` of
  `max (A p q · s p + b q) 0`, where the aggregate `A`, the scale column `s` and the bias row `b` are the three input arrays as
  the region finds them; the ten blocks tile the 50000 rows, so the output array is that function whole.
-/
import proofs.«173324_j25683904430211_2_alg».proof.Proof.Gen.KernelIdeal.Frame
import proofs.«173324_j25683904430211_2_alg».proof.Proof.LibGcnBlocks

set_option maxRecDepth 16384

noncomputable section

namespace Cert.Gnn.Region5

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Lib
open scoped BigOperators

theorem hz : (![0, 0] : Fin 2 → Nat) = fun _ => 0 := funext fun a => by fin_cases a <;> rfl

/-- The body's arithmetic at an entry of the block. -/
theorem pay_apply (x0 : Vec Ideal S5000x128 .f32) (x1 : Vec Ideal S5000x1 .f32) (x2 : Vec Ideal S1x128 .f32) (p : Fin 5000) (q : Fin 128) :
    k5_pay1 (F := Ideal) x0 x1 x2 (ix2 p q) = finishRows (n := 5000) (M := 128) x0 x1 x2 (ix2 p q) := by
  unfold k5_pay1
  exact blockFinish_apply x0 x1 x2 shapeCasts_S5000x128_S5000x128 shapeCasts_S5000x1_S5000x1 shapeCasts_S1x128_S1x128 broadcasts_S5000x1_S5000x128 broadcasts_S1x128_S5000x128 p q

/-- The body's result on blocks that are pieces of whole arrays: if every entry a block contributes is the whole array's
    entry at the place `e` puts the output entry (row `e j`'s row, column `e j`'s column), the result is the whole-array
    function read through `e`. -/
theorem block_eq (A0 : S50000x128.Idx → EReal) (A1 : S50000x1.Idx → EReal) (A2 : S1x128.Idx → EReal)
    (x0 : Vec Ideal S5000x128 .f32) (x1 : Vec Ideal S5000x1 .f32) (x2 : Vec Ideal S1x128 .f32) (e : S5000x128.Idx → S50000x128.Idx)
    (h0 : ∀ (j : S5000x128.Idx), x0 (j) = A0 (e j))
    (h1 : ∀ (j : S5000x128.Idx), x1 (ix2 (j 0) (0 : Fin 1)) = A1 (ix2 ((e j) 0) (0 : Fin 1)))
    (h2 : ∀ (j : S5000x128.Idx), x2 (ix2 (0 : Fin 1) (j 1)) = A2 (ix2 (0 : Fin 1) ((e j) 1))) :
    k5_pay1 (F := Ideal) x0 x1 x2 = fun j => finishRows (n := 50000) (M := 128) A0 A1 A2 (e j) := by
  funext j
  refine ((congrArg (k5_pay1 (F := Ideal) x0 x1 x2) (eq_ix2 j)).trans (pay_apply x0 x1 x2 (j 0) (j 1))).trans ?_
  show max (x0 (ix2 (j 0) (j 1)) * x1 (ix2 (j 0) (0 : Fin 1)) + x2 (ix2 (0 : Fin 1) (j 1))) (Ideal.ofBits .f32 0x00000000#32)
    = max (A0 (e j) * A1 (ix2 ((e j) 0) (0 : Fin 1)) + A2 (ix2 (0 : Fin 1) ((e j) 1))) (Ideal.ofBits .f32 0x00000000#32)
  exact congrArg (max · _) (congrArg₂ (· + ·) (congrArg₂ (· * ·) ((congrArg x0 (eq_ix2 j).symm).trans (h0 j)) (h1 j)) (h2 j))

/-- The printed index maps over the ten grid points: the row blocks move with the point, the whole-array operands and the
    column axis stay at block 0. -/
theorem idx_facts : ∀ t : Fin cfg5.N, win5_0.index t (0 : Fin 2) = win5_3.index t (0 : Fin 2)
    ∧ win5_0.index t (1 : Fin 2) = 0
    ∧ win5_1.index t (0 : Fin 2) = win5_3.index t (0 : Fin 2)
    ∧ win5_1.index t (1 : Fin 2) = 0
    ∧ win5_2.index t (0 : Fin 2) = 0
    ∧ win5_2.index t (1 : Fin 2) = 0
    ∧ win5_3.index t (1 : Fin 2) = 0
    ∧ win5_3.index t (0 : Fin 2) ≤ 9 :=
  (by decide +kernel : ∀ t : Fin grid5.N, _)

/-- Every row block is some point's. -/
theorem idx_onto : ∀ q0 : Fin 10, ∃ t : Fin cfg5.N, win5_3.index t = ![q0.val, 0] :=
  (by decide +kernel : ∀ q0 : Fin 10, ∃ t : Fin grid5.N, win5_3.index t = ![q0.val, 0])

variable (V : (c : Dev nD) → (b : Ref sig .tc) → Buf (Elt Ideal) ((c : Thread nD τ).loc b))

set_option maxHeartbeats 3200000 in
/-- What point `t` writes back is block `t` of the whole-array function of the region's input arrays. -/
theorem flushed_eq (c : Dev nD) (t : Fin cfg5.N) :
    (dat5 V c).flushed 3 t = ((cfg5.win 3).blk t).view.read (Elt Ideal) (finishRows (n := 50000) (M := 128) (V c main_v68) (V c main_v31) (V c main_v69)) := by
  show (cfg5.win 3).cut (grid5.coords t) ((dat5 V c).after 3 t) = _
  rw [after5_3]
  unfold out5_3
  rw [View.canon_unit_zero hz]
  simp only [View.ld_unit_zero (S := S5000x128) hz, View.ld_unit_zero (S := S5000x1) hz, View.ld_unit_zero (S := S1x128) hz]
  obtain ⟨f0, f1, f2, f3, f4, f5, f6, f7⟩ := idx_facts t
  refine block_eq (V c main_v68) (V c main_v31) (V c main_v69) (iblk5 V c 0 t) (iblk5 V c 1 t) (iblk5 V c 2 t) (((cfg5.win 3).blk t).view.emb) ?_ ?_ ?_
  · intro j
    have hj0 : (j 0).val < 5000 := (j 0).isLt
    have hj1 : (j 1).val < 128 := (j 1).isLt
    show V c main_v68 (((cfg5.win 0).blk t).view.emb (j)) = V c main_v68 (((cfg5.win 3).blk t).view.emb j)
    refine congrArg (V c main_v68) ?_
    funext a; apply Fin.ext
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 128 + 1 * (j 1).val = win5_3.index t (1 : Fin 2) * 128 + 1 * (j 1).val; omega
  · intro j
    have hj0 : (j 0).val < 5000 := (j 0).isLt
    have hj1 : (j 1).val < 128 := (j 1).isLt
    show V c main_v31 (((cfg5.win 1).blk t).view.emb (ix2 (j 0) (0 : Fin 1))) = V c main_v31 (ix2 ((((cfg5.win 3).blk t).view.emb j) 0) (0 : Fin 1))
    refine congrArg (V c main_v31) ?_
    funext a; apply Fin.ext
    match a with
    | ⟨0, _⟩ => show win5_1.index t (0 : Fin 2) * 5000 + 1 * (j 0).val = win5_3.index t (0 : Fin 2) * 5000 + 1 * (j 0).val; omega
    | ⟨1, _⟩ => show win5_1.index t (1 : Fin 2) * 1 + 1 * 0 = 0; omega
  · intro j
    have hj0 : (j 0).val < 5000 := (j 0).isLt
    have hj1 : (j 1).val < 128 := (j 1).isLt
    show V c main_v69 (((cfg5.win 2).blk t).view.emb (ix2 (0 : Fin 1) (j 1))) = V c main_v69 (ix2 (0 : Fin 1) ((((cfg5.win 3).blk t).view.emb j) 1))
    refine congrArg (V c main_v69) ?_
    funext a; apply Fin.ext
    match a with
    | ⟨0, _⟩ => show win5_2.index t (0 : Fin 2) * 1 + 1 * 0 = 0; omega
    | ⟨1, _⟩ => show win5_2.index t (1 : Fin 2) * 128 + 1 * (j 1).val = win5_3.index t (1 : Fin 2) * 128 + 1 * (j 1).val; omega

/-- An index of the array is in point `t`'s block iff each coordinate is in the block's range on its axis. -/
theorem mem_blk (t : Fin cfg5.N) (i : S50000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v70).slice (win5_3.rect t)).set ↔ _
  rw [View.set_slice_whole, Rect.mem_set_unit]
  exact Iff.rfl

/-- Every index of the output array lies in some point's block: the point is the row number divided by 5000. -/
theorem cover (i : S50000x128.Idx) : ∃ t : Fin cfg5.N, (cfg5.win 3).flush t = true ∧ i ∈ ((cfg5.win 3).blk t).view.set := by
  have hi0 : (i 0).val < 50000 := (i 0).isLt
  have hi1 : (i 1).val < 128 := (i 1).isLt
  obtain ⟨t, ht⟩ := idx_onto ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_blk]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

/-- The output array after the region, whole. -/
theorem value (c : Dev nD) :
    (dat5 V c).arrAt 3 cfg5.N = finishRows (n := 50000) (M := 128) (V c main_v68) (V c main_v31) (V c main_v69) :=
  (dat5 V c).arrAt_eq_of_cover 3 _ (fun t _ => flushed_eq V c t) cover

end Cert.Gnn.Region5

end
-- ==== Proof.Region6.lean ====
/-
  Region 6 (a scaled feature product): block `t` of the output holds rows `5000·t … 5000·t + 4999` of
  `(X·W)` with row `p` scaled by the column's entry `p`, where `X`, `W` and the column are the three input arrays as the
  region finds them; the ten blocks tile the 50000 rows, so the output array is that function whole.
-/
import proofs.«173324_j25683904430211_2_alg».proof.Proof.Gen.KernelIdeal.Frame
import proofs.«173324_j25683904430211_2_alg».proof.Proof.LibGcnBlocks

set_option maxRecDepth 16384

noncomputable section

namespace Cert.Gnn.Region6

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Lib
open scoped BigOperators

theorem hz : (![0, 0] : Fin 2 → Nat) = fun _ => 0 := funext fun a => by fin_cases a <;> rfl

/-- The body's arithmetic at an entry of the block. -/
theorem pay_apply (x0 : Vec Ideal S5000x128 .f32) (x1 : Vec Ideal S128x128 .f32) (x2 : Vec Ideal S5000x1 .f32) (p : Fin 5000) (q : Fin 128) :
    k6_pay1 (F := Ideal) x0 x1 x2 (ix2 p q) = scaledProduct (n := 5000) (K := 128) (M := 128) (ψ := .f32) x0 x1 x2 (ix2 p q) := by
  unfold k6_pay1
  rw [shapeCast_self x0 shapeCasts_S5000x128_S5000x128]
  exact blockScaled_apply dot_S5000x128_S128x128_S5000x128_1_0_0_1_n_n.wf bitsLt_bf16_f32 x0 x1 x2 shapeCasts_S5000x1_S5000x1 broadcasts_S5000x1_S5000x128 p q

/-- The body's result on blocks that are pieces of whole arrays: if every entry a block contributes is the whole array's
    entry at the place `e` puts the output entry (row `e j`'s row, column `e j`'s column), the result is the whole-array
    function read through `e`. -/
theorem block_eq (A0 : S50000x128.Idx → EReal) (A1 : S128x128.Idx → EReal) (A2 : S50000x1.Idx → EReal)
    (x0 : Vec Ideal S5000x128 .f32) (x1 : Vec Ideal S128x128 .f32) (x2 : Vec Ideal S5000x1 .f32) (e : S5000x128.Idx → S50000x128.Idx)
    (h0 : ∀ (j : S5000x128.Idx) (k : Fin 128), x0 (ix2 (j 0) k) = A0 (ix2 ((e j) 0) k))
    (h1 : ∀ (j : S5000x128.Idx) (k : Fin 128), x1 (ix2 k (j 1)) = A1 (ix2 k ((e j) 1)))
    (h2 : ∀ (j : S5000x128.Idx), x2 (ix2 (j 0) (0 : Fin 1)) = A2 (ix2 ((e j) 0) (0 : Fin 1))) :
    k6_pay1 (F := Ideal) x0 x1 x2 = fun j => scaledProduct (n := 50000) (K := 128) (M := 128) (ψ := .f32) A0 A1 A2 (e j) := by
  funext j
  refine ((congrArg (k6_pay1 (F := Ideal) x0 x1 x2) (eq_ix2 j)).trans (pay_apply x0 x1 x2 (j 0) (j 1))).trans ?_
  show (∑ k : Fin 128, x0 (ix2 (j 0) k) * x1 (ix2 k (j 1))) * x2 (ix2 (j 0) (0 : Fin 1))
    = (∑ k : Fin 128, A0 (ix2 ((e j) 0) k) * A1 (ix2 k ((e j) 1))) * A2 (ix2 ((e j) 0) (0 : Fin 1))
  rw [h2 j]
  exact congrArg (· * _) (Finset.sum_congr rfl fun k _ => by rw [h0 j k, h1 j k])

/-- The printed index maps over the ten grid points: the row blocks move with the point, the whole-array operands and the
    column axis stay at block 0. -/
theorem idx_facts : ∀ t : Fin cfg6.N, win6_0.index t (0 : Fin 2) = win6_3.index t (0 : Fin 2)
    ∧ win6_0.index t (1 : Fin 2) = 0
    ∧ win6_1.index t (0 : Fin 2) = 0
    ∧ win6_1.index t (1 : Fin 2) = 0
    ∧ win6_2.index t (0 : Fin 2) = win6_3.index t (0 : Fin 2)
    ∧ win6_2.index t (1 : Fin 2) = 0
    ∧ win6_3.index t (1 : Fin 2) = 0
    ∧ win6_3.index t (0 : Fin 2) ≤ 9 :=
  (by decide +kernel : ∀ t : Fin grid6.N, _)

/-- Every row block is some point's. -/
theorem idx_onto : ∀ q0 : Fin 10, ∃ t : Fin cfg6.N, win6_3.index t = ![q0.val, 0] :=
  (by decide +kernel : ∀ q0 : Fin 10, ∃ t : Fin grid6.N, win6_3.index t = ![q0.val, 0])

variable (V : (c : Dev nD) → (b : Ref sig .tc) → Buf (Elt Ideal) ((c : Thread nD τ).loc b))

set_option maxHeartbeats 3200000 in
/-- What point `t` writes back is block `t` of the whole-array function of the region's input arrays. -/
theorem flushed_eq (c : Dev nD) (t : Fin cfg6.N) :
    (dat6 V c).flushed 3 t = ((cfg6.win 3).blk t).view.read (Elt Ideal) (scaledProduct (n := 50000) (K := 128) (M := 128) (ψ := .f32) (V c main_v70) (V c main_arg10) (V c main_v31)) := by
  show (cfg6.win 3).cut (grid6.coords t) ((dat6 V c).after 3 t) = _
  rw [after6_3]
  unfold out6_3
  rw [View.canon_unit_zero hz]
  simp only [View.ld_unit_zero (S := S5000x128) hz, View.ld_unit_zero (S := S128x128) hz, View.ld_unit_zero (S := S5000x1) hz]
  obtain ⟨f0, f1, f2, f3, f4, f5, f6, f7⟩ := idx_facts t
  refine block_eq (V c main_v70) (V c main_arg10) (V c main_v31) (iblk6 V c 0 t) (iblk6 V c 1 t) (iblk6 V c 2 t) (((cfg6.win 3).blk t).view.emb) ?_ ?_ ?_
  · intro j k
    have hj0 : (j 0).val < 5000 := (j 0).isLt
    have hj1 : (j 1).val < 128 := (j 1).isLt
    show V c main_v70 (((cfg6.win 0).blk t).view.emb (ix2 (j 0) k)) = V c main_v70 (ix2 ((((cfg6.win 3).blk t).view.emb j) 0) k)
    refine congrArg (V c main_v70) ?_
    funext a; apply Fin.ext
    match a with
    | ⟨0, _⟩ => show win6_0.index t (0 : Fin 2) * 5000 + 1 * (j 0).val = win6_3.index t (0 : Fin 2) * 5000 + 1 * (j 0).val; omega
    | ⟨1, _⟩ => show win6_0.index t (1 : Fin 2) * 128 + 1 * k.val = k.val; omega
  · intro j k
    have hj0 : (j 0).val < 5000 := (j 0).isLt
    have hj1 : (j 1).val < 128 := (j 1).isLt
    show V c main_arg10 (((cfg6.win 1).blk t).view.emb (ix2 k (j 1))) = V c main_arg10 (ix2 k ((((cfg6.win 3).blk t).view.emb j) 1))
    refine congrArg (V c main_arg10) ?_
    funext a; apply Fin.ext
    match a with
    | ⟨0, _⟩ => show win6_1.index t (0 : Fin 2) * 128 + 1 * k.val = k.val; omega
    | ⟨1, _⟩ => show win6_1.index t (1 : Fin 2) * 128 + 1 * (j 1).val = win6_3.index t (1 : Fin 2) * 128 + 1 * (j 1).val; omega
  · intro j
    have hj0 : (j 0).val < 5000 := (j 0).isLt
    have hj1 : (j 1).val < 128 := (j 1).isLt
    show V c main_v31 (((cfg6.win 2).blk t).view.emb (ix2 (j 0) (0 : Fin 1))) = V c main_v31 (ix2 ((((cfg6.win 3).blk t).view.emb j) 0) (0 : Fin 1))
    refine congrArg (V c main_v31) ?_
    funext a; apply Fin.ext
    match a with
    | ⟨0, _⟩ => show win6_2.index t (0 : Fin 2) * 5000 + 1 * (j 0).val = win6_3.index t (0 : Fin 2) * 5000 + 1 * (j 0).val; omega
    | ⟨1, _⟩ => show win6_2.index t (1 : Fin 2) * 1 + 1 * 0 = 0; omega

/-- An index of the array is in point `t`'s block iff each coordinate is in the block's range on its axis. -/
theorem mem_blk (t : Fin cfg6.N) (i : S50000x128.Idx) :
    i ∈ ((cfg6.win 3).blk t).view.set ↔ ∀ a : Fin 2, win6_3.index t a * S5000x128.size a ≤ (i a).val ∧ (i a).val < win6_3.index t a * S5000x128.size a + S5000x128.size a := by
  show i ∈ ((View.whole main_v71).slice (win6_3.rect t)).set ↔ _
  rw [View.set_slice_whole, Rect.mem_set_unit]
  exact Iff.rfl

/-- Every index of the output array lies in some point's block: the point is the row number divided by 5000. -/
theorem cover (i : S50000x128.Idx) : ∃ t : Fin cfg6.N, (cfg6.win 3).flush t = true ∧ i ∈ ((cfg6.win 3).blk t).view.set := by
  have hi0 : (i 0).val < 50000 := (i 0).isLt
  have hi1 : (i 1).val < 128 := (i 1).isLt
  obtain ⟨t, ht⟩ := idx_onto ⟨(i 0).val / 5000, by omega⟩
  have q0 : win6_3.index t (0 : Fin 2) = (i 0).val / 5000 := congrFun ht 0
  have q1 : win6_3.index t (1 : Fin 2) = 0 := congrFun ht 1
  refine ⟨t, flush6_3 t, ?_⟩
  rw [mem_blk]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 128 ≤ (i 1).val ∧ (i 1).val < win6_3.index t (1 : Fin 2) * 128 + 128; omega

/-- The output array after the region, whole. -/
theorem value (c : Dev nD) :
    (dat6 V c).arrAt 3 cfg6.N = scaledProduct (n := 50000) (K := 128) (M := 128) (ψ := .f32) (V c main_v70) (V c main_arg10) (V c main_v31) :=
  (dat6 V c).arrAt_eq_of_cover 3 _ (fun t _ => flushed_eq V c t) cover

end Cert.Gnn.Region6

end
-- ==== Proof.Region7.lean ====
/-
  Region 7 (the finish of a layer): block `t` of the output holds rows `5000·t … 5000·t + 4999` of
  `max (A p q · s p + b q) 0`, where the aggregate `A`, the scale column `s` and the bias row `b` are the three input arrays as
  the region finds them; the ten blocks tile the 50000 rows, so the output array is that function whole.
-/
import proofs.«173324_j25683904430211_2_alg».proof.Proof.Gen.KernelIdeal.Frame
import proofs.«173324_j25683904430211_2_alg».proof.Proof.LibGcnBlocks

set_option maxRecDepth 16384

noncomputable section

namespace Cert.Gnn.Region7

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Lib
open scoped BigOperators

theorem hz : (![0, 0] : Fin 2 → Nat) = fun _ => 0 := funext fun a => by fin_cases a <;> rfl

/-- The body's arithmetic at an entry of the block. -/
theorem pay_apply (x0 : Vec Ideal S5000x128 .f32) (x1 : Vec Ideal S5000x1 .f32) (x2 : Vec Ideal S1x128 .f32) (p : Fin 5000) (q : Fin 128) :
    k7_pay1 (F := Ideal) x0 x1 x2 (ix2 p q) = finishRows (n := 5000) (M := 128) x0 x1 x2 (ix2 p q) := by
  unfold k7_pay1
  exact blockFinish_apply x0 x1 x2 shapeCasts_S5000x128_S5000x128 shapeCasts_S5000x1_S5000x1 shapeCasts_S1x128_S1x128 broadcasts_S5000x1_S5000x128 broadcasts_S1x128_S5000x128 p q

/-- The body's result on blocks that are pieces of whole arrays: if every entry a block contributes is the whole array's
    entry at the place `e` puts the output entry (row `e j`'s row, column `e j`'s column), the result is the whole-array
    function read through `e`. -/
theorem block_eq (A0 : S50000x128.Idx → EReal) (A1 : S50000x1.Idx → EReal) (A2 : S1x128.Idx → EReal)
    (x0 : Vec Ideal S5000x128 .f32) (x1 : Vec Ideal S5000x1 .f32) (x2 : Vec Ideal S1x128 .f32) (e : S5000x128.Idx → S50000x128.Idx)
    (h0 : ∀ (j : S5000x128.Idx), x0 (j) = A0 (e j))
    (h1 : ∀ (j : S5000x128.Idx), x1 (ix2 (j 0) (0 : Fin 1)) = A1 (ix2 ((e j) 0) (0 : Fin 1)))
    (h2 : ∀ (j : S5000x128.Idx), x2 (ix2 (0 : Fin 1) (j 1)) = A2 (ix2 (0 : Fin 1) ((e j) 1))) :
    k7_pay1 (F := Ideal) x0 x1 x2 = fun j => finishRows (n := 50000) (M := 128) A0 A1 A2 (e j) := by
  funext j
  refine ((congrArg (k7_pay1 (F := Ideal) x0 x1 x2) (eq_ix2 j)).trans (pay_apply x0 x1 x2 (j 0) (j 1))).trans ?_
  show max (x0 (ix2 (j 0) (j 1)) * x1 (ix2 (j 0) (0 : Fin 1)) + x2 (ix2 (0 : Fin 1) (j 1))) (Ideal.ofBits .f32 0x00000000#32)
    = max (A0 (e j) * A1 (ix2 ((e j) 0) (0 : Fin 1)) + A2 (ix2 (0 : Fin 1) ((e j) 1))) (Ideal.ofBits .f32 0x00000000#32)
  exact congrArg (max · _) (congrArg₂ (· + ·) (congrArg₂ (· * ·) ((congrArg x0 (eq_ix2 j).symm).trans (h0 j)) (h1 j)) (h2 j))

/-- The printed index maps over the ten grid points: the row blocks move with the point, the whole-array operands and the
    column axis stay at block 0. -/
theorem idx_facts : ∀ t : Fin cfg7.N, win7_0.index t (0 : Fin 2) = win7_3.index t (0 : Fin 2)
    ∧ win7_0.index t (1 : Fin 2) = 0
    ∧ win7_1.index t (0 : Fin 2) = win7_3.index t (0 : Fin 2)
    ∧ win7_1.index t (1 : Fin 2) = 0
    ∧ win7_2.index t (0 : Fin 2) = 0
    ∧ win7_2.index t (1 : Fin 2) = 0
    ∧ win7_3.index t (1 : Fin 2) = 0
    ∧ win7_3.index t (0 : Fin 2) ≤ 9 :=
  (by decide +kernel : ∀ t : Fin grid7.N, _)

/-- Every row block is some point's. -/
theorem idx_onto : ∀ q0 : Fin 10, ∃ t : Fin cfg7.N, win7_3.index t = ![q0.val, 0] :=
  (by decide +kernel : ∀ q0 : Fin 10, ∃ t : Fin grid7.N, win7_3.index t = ![q0.val, 0])

variable (V : (c : Dev nD) → (b : Ref sig .tc) → Buf (Elt Ideal) ((c : Thread nD τ).loc b))

set_option maxHeartbeats 3200000 in
/-- What point `t` writes back is block `t` of the whole-array function of the region's input arrays. -/
theorem flushed_eq (c : Dev nD) (t : Fin cfg7.N) :
    (dat7 V c).flushed 3 t = ((cfg7.win 3).blk t).view.read (Elt Ideal) (finishRows (n := 50000) (M := 128) (V c main_v81) (V c main_v31) (V c main_v82)) := by
  show (cfg7.win 3).cut (grid7.coords t) ((dat7 V c).after 3 t) = _
  rw [after7_3]
  unfold out7_3
  rw [View.canon_unit_zero hz]
  simp only [View.ld_unit_zero (S := S5000x128) hz, View.ld_unit_zero (S := S5000x1) hz, View.ld_unit_zero (S := S1x128) hz]
  obtain ⟨f0, f1, f2, f3, f4, f5, f6, f7⟩ := idx_facts t
  refine block_eq (V c main_v81) (V c main_v31) (V c main_v82) (iblk7 V c 0 t) (iblk7 V c 1 t) (iblk7 V c 2 t) (((cfg7.win 3).blk t).view.emb) ?_ ?_ ?_
  · intro j
    have hj0 : (j 0).val < 5000 := (j 0).isLt
    have hj1 : (j 1).val < 128 := (j 1).isLt
    show V c main_v81 (((cfg7.win 0).blk t).view.emb (j)) = V c main_v81 (((cfg7.win 3).blk t).view.emb j)
    refine congrArg (V c main_v81) ?_
    funext a; apply Fin.ext
    match a with
    | ⟨0, _⟩ => show win7_0.index t (0 : Fin 2) * 5000 + 1 * (j 0).val = win7_3.index t (0 : Fin 2) * 5000 + 1 * (j 0).val; omega
    | ⟨1, _⟩ => show win7_0.index t (1 : Fin 2) * 128 + 1 * (j 1).val = win7_3.index t (1 : Fin 2) * 128 + 1 * (j 1).val; omega
  · intro j
    have hj0 : (j 0).val < 5000 := (j 0).isLt
    have hj1 : (j 1).val < 128 := (j 1).isLt
    show V c main_v31 (((cfg7.win 1).blk t).view.emb (ix2 (j 0) (0 : Fin 1))) = V c main_v31 (ix2 ((((cfg7.win 3).blk t).view.emb j) 0) (0 : Fin 1))
    refine congrArg (V c main_v31) ?_
    funext a; apply Fin.ext
    match a with
    | ⟨0, _⟩ => show win7_1.index t (0 : Fin 2) * 5000 + 1 * (j 0).val = win7_3.index t (0 : Fin 2) * 5000 + 1 * (j 0).val; omega
    | ⟨1, _⟩ => show win7_1.index t (1 : Fin 2) * 1 + 1 * 0 = 0; omega
  · intro j
    have hj0 : (j 0).val < 5000 := (j 0).isLt
    have hj1 : (j 1).val < 128 := (j 1).isLt
    show V c main_v82 (((cfg7.win 2).blk t).view.emb (ix2 (0 : Fin 1) (j 1))) = V c main_v82 (ix2 (0 : Fin 1) ((((cfg7.win 3).blk t).view.emb j) 1))
    refine congrArg (V c main_v82) ?_
    funext a; apply Fin.ext
    match a with
    | ⟨0, _⟩ => show win7_2.index t (0 : Fin 2) * 1 + 1 * 0 = 0; omega
    | ⟨1, _⟩ => show win7_2.index t (1 : Fin 2) * 128 + 1 * (j 1).val = win7_3.index t (1 : Fin 2) * 128 + 1 * (j 1).val; omega

/-- An index of the array is in point `t`'s block iff each coordinate is in the block's range on its axis. -/
theorem mem_blk (t : Fin cfg7.N) (i : S50000x128.Idx) :
    i ∈ ((cfg7.win 3).blk t).view.set ↔ ∀ a : Fin 2, win7_3.index t a * S5000x128.size a ≤ (i a).val ∧ (i a).val < win7_3.index t a * S5000x128.size a + S5000x128.size a := by
  show i ∈ ((View.whole main_v83).slice (win7_3.rect t)).set ↔ _
  rw [View.set_slice_whole, Rect.mem_set_unit]
  exact Iff.rfl

/-- Every index of the output array lies in some point's block: the point is the row number divided by 5000. -/
theorem cover (i : S50000x128.Idx) : ∃ t : Fin cfg7.N, (cfg7.win 3).flush t = true ∧ i ∈ ((cfg7.win 3).blk t).view.set := by
  have hi0 : (i 0).val < 50000 := (i 0).isLt
  have hi1 : (i 1).val < 128 := (i 1).isLt
  obtain ⟨t, ht⟩ := idx_onto ⟨(i 0).val / 5000, by omega⟩
  have q0 : win7_3.index t (0 : Fin 2) = (i 0).val / 5000 := congrFun ht 0
  have q1 : win7_3.index t (1 : Fin 2) = 0 := congrFun ht 1
  refine ⟨t, flush7_3 t, ?_⟩
  rw [mem_blk]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 128 ≤ (i 1).val ∧ (i 1).val < win7_3.index t (1 : Fin 2) * 128 + 128; omega

/-- The output array after the region, whole. -/
theorem value (c : Dev nD) :
    (dat7 V c).arrAt 3 cfg7.N = finishRows (n := 50000) (M := 128) (V c main_v81) (V c main_v31) (V c main_v82) :=
  (dat7 V c).arrAt_eq_of_cover 3 _ (fun t _ => flushed_eq V c t) cover

end Cert.Gnn.Region7

end
-- ==== Proof.Region8.lean ====
/-
  Region 8 (the last step): block `t` of the output holds rows `5000·t … 5000·t + 4999` of
  `∑ k, H p k · W k q + ∑ k, H' p k · W' k q + b q`, where the two branches' outputs `H`, `H'`, the two halves `W`, `W'` of the
  matrix and the bias row `b` are the five input arrays as the region finds them; the ten blocks tile the 50000 rows, so the
  output array is that function whole.
-/
import proofs.«173324_j25683904430211_2_alg».proof.Proof.Gen.KernelIdeal.Frame
import proofs.«173324_j25683904430211_2_alg».proof.Proof.LibGcnBlocks

set_option maxRecDepth 16384

noncomputable section

namespace Cert.Gnn.Region8

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Lib
open scoped BigOperators

theorem hz : (![0, 0] : Fin 2 → Nat) = fun _ => 0 := funext fun a => by fin_cases a <;> rfl

/-- The body's arithmetic at an entry of the block. -/
theorem pay_apply (x0 : Vec Ideal S5000x128 .f32) (x1 : Vec Ideal S5000x128 .f32) (x2 : Vec Ideal S128x64 .f32) (x3 : Vec Ideal S128x64 .f32) (x4 : Vec Ideal S1x64 .f32) (p : Fin 5000) (q : Fin 64) :
    k8_pay1 (F := Ideal) x0 x1 x2 x3 x4 (ix2 p q) = twoProducts (n := 5000) (K := 128) (M := 64) x0 x1 x2 x3 x4 (ix2 p q) := by
  unfold k8_pay1
  exact blockTwoProducts_apply dot_S5000x128_S128x64_S5000x64_1_0_0_1_n_n.wf bitsLt_bf16_f32 x0 x1 x2 x3 x4 shapeCasts_S5000x128_S5000x128 shapeCasts_S128x64_S128x64 shapeCasts_S1x64_S1x64 broadcasts_S1x64_S5000x64 p q

/-- The body's result on blocks that are pieces of whole arrays: if every entry a block contributes is the whole array's
    entry at the place `e` puts the output entry (row `e j`'s row, column `e j`'s column), the result is the whole-array
    function read through `e`. -/
theorem block_eq (A0 : S50000x128.Idx → EReal) (A1 : S50000x128.Idx → EReal) (A2 : S128x64.Idx → EReal) (A3 : S128x64.Idx → EReal) (A4 : S1x64.Idx → EReal)
    (x0 : Vec Ideal S5000x128 .f32) (x1 : Vec Ideal S5000x128 .f32) (x2 : Vec Ideal S128x64 .f32) (x3 : Vec Ideal S128x64 .f32) (x4 : Vec Ideal S1x64 .f32) (e : S5000x64.Idx → S50000x64.Idx)
    (h0 : ∀ (j : S5000x64.Idx) (k : Fin 128), x0 (ix2 (j 0) k) = A0 (ix2 ((e j) 0) k))
    (h1 : ∀ (j : S5000x64.Idx) (k : Fin 128), x1 (ix2 (j 0) k) = A1 (ix2 ((e j) 0) k))
    (h2 : ∀ (j : S5000x64.Idx) (k : Fin 128), x2 (ix2 k (j 1)) = A2 (ix2 k ((e j) 1)))
    (h3 : ∀ (j : S5000x64.Idx) (k : Fin 128), x3 (ix2 k (j 1)) = A3 (ix2 k ((e j) 1)))
    (h4 : ∀ (j : S5000x64.Idx), x4 (ix2 (0 : Fin 1) (j 1)) = A4 (ix2 (0 : Fin 1) ((e j) 1))) :
    k8_pay1 (F := Ideal) x0 x1 x2 x3 x4 = fun j => twoProducts (n := 50000) (K := 128) (M := 64) A0 A1 A2 A3 A4 (e j) := by
  funext j
  refine ((congrArg (k8_pay1 (F := Ideal) x0 x1 x2 x3 x4) (eq_ix2 j)).trans (pay_apply x0 x1 x2 x3 x4 (j 0) (j 1))).trans ?_
  show (∑ k : Fin 128, x0 (ix2 (j 0) k) * x2 (ix2 k (j 1))) + (∑ k : Fin 128, x1 (ix2 (j 0) k) * x3 (ix2 k (j 1))) + x4 (ix2 (0 : Fin 1) (j 1))
    = (∑ k : Fin 128, A0 (ix2 ((e j) 0) k) * A2 (ix2 k ((e j) 1))) + (∑ k : Fin 128, A1 (ix2 ((e j) 0) k) * A3 (ix2 k ((e j) 1))) + A4 (ix2 (0 : Fin 1) ((e j) 1))
  rw [h4 j]
  exact congrArg (· + _) (congrArg₂ (· + ·) (Finset.sum_congr rfl fun k _ => by rw [h0 j k, h2 j k]) (Finset.sum_congr rfl fun k _ => by rw [h1 j k, h3 j k]))

/-- The printed index maps over the ten grid points: the row blocks move with the point, the whole-array operands and the
    column axis stay at block 0. -/
theorem idx_facts : ∀ t : Fin cfg8.N, win8_0.index t (0 : Fin 2) = win8_5.index t (0 : Fin 2)
    ∧ win8_0.index t (1 : Fin 2) = 0
    ∧ win8_1.index t (0 : Fin 2) = win8_5.index t (0 : Fin 2)
    ∧ win8_1.index t (1 : Fin 2) = 0
    ∧ win8_2.index t (0 : Fin 2) = 0
    ∧ win8_2.index t (1 : Fin 2) = 0
    ∧ win8_3.index t (0 : Fin 2) = 0
    ∧ win8_3.index t (1 : Fin 2) = 0
    ∧ win8_4.index t (0 : Fin 2) = 0
    ∧ win8_4.index t (1 : Fin 2) = 0
    ∧ win8_5.index t (1 : Fin 2) = 0
    ∧ win8_5.index t (0 : Fin 2) ≤ 9 :=
  (by decide +kernel : ∀ t : Fin grid8.N, _)

/-- Every row block is some point's. -/
theorem idx_onto : ∀ q0 : Fin 10, ∃ t : Fin cfg8.N, win8_5.index t = ![q0.val, 0] :=
  (by decide +kernel : ∀ q0 : Fin 10, ∃ t : Fin grid8.N, win8_5.index t = ![q0.val, 0])

variable (V : (c : Dev nD) → (b : Ref sig .tc) → Buf (Elt Ideal) ((c : Thread nD τ).loc b))

set_option maxHeartbeats 3200000 in
/-- What point `t` writes back is block `t` of the whole-array function of the region's input arrays. -/
theorem flushed_eq (c : Dev nD) (t : Fin cfg8.N) :
    (dat8 V c).flushed 5 t = ((cfg8.win 5).blk t).view.read (Elt Ideal) (twoProducts (n := 50000) (K := 128) (M := 64) (V c main_v57) (V c main_v83) (V c main_v84) (V c main_v85) (V c main_v86)) := by
  show (cfg8.win 5).cut (grid8.coords t) ((dat8 V c).after 5 t) = _
  rw [after8_5]
  unfold out8_5
  rw [View.canon_unit_zero hz]
  simp only [View.ld_unit_zero (S := S5000x128) hz, View.ld_unit_zero (S := S128x64) hz, View.ld_unit_zero (S := S1x64) hz]
  obtain ⟨f0, f1, f2, f3, f4, f5, f6, f7, f8, f9, f10, f11⟩ := idx_facts t
  refine block_eq (V c main_v57) (V c main_v83) (V c main_v84) (V c main_v85) (V c main_v86) (iblk8 V c 0 t) (iblk8 V c 1 t) (iblk8 V c 2 t) (iblk8 V c 3 t) (iblk8 V c 4 t) (((cfg8.win 5).blk t).view.emb) ?_ ?_ ?_ ?_ ?_
  · intro j k
    have hj0 : (j 0).val < 5000 := (j 0).isLt
    have hj1 : (j 1).val < 64 := (j 1).isLt
    show V c main_v57 (((cfg8.win 0).blk t).view.emb (ix2 (j 0) k)) = V c main_v57 (ix2 ((((cfg8.win 5).blk t).view.emb j) 0) k)
    refine congrArg (V c main_v57) ?_
    funext a; apply Fin.ext
    match a with
    | ⟨0, _⟩ => show win8_0.index t (0 : Fin 2) * 5000 + 1 * (j 0).val = win8_5.index t (0 : Fin 2) * 5000 + 1 * (j 0).val; omega
    | ⟨1, _⟩ => show win8_0.index t (1 : Fin 2) * 128 + 1 * k.val = k.val; omega
  · intro j k
    have hj0 : (j 0).val < 5000 := (j 0).isLt
    have hj1 : (j 1).val < 64 := (j 1).isLt
    show V c main_v83 (((cfg8.win 1).blk t).view.emb (ix2 (j 0) k)) = V c main_v83 (ix2 ((((cfg8.win 5).blk t).view.emb j) 0) k)
    refine congrArg (V c main_v83) ?_
    funext a; apply Fin.ext
    match a with
    | ⟨0, _⟩ => show win8_1.index t (0 : Fin 2) * 5000 + 1 * (j 0).val = win8_5.index t (0 : Fin 2) * 5000 + 1 * (j 0).val; omega
    | ⟨1, _⟩ => show win8_1.index t (1 : Fin 2) * 128 + 1 * k.val = k.val; omega
  · intro j k
    have hj0 : (j 0).val < 5000 := (j 0).isLt
    have hj1 : (j 1).val < 64 := (j 1).isLt
    show V c main_v84 (((cfg8.win 2).blk t).view.emb (ix2 k (j 1))) = V c main_v84 (ix2 k ((((cfg8.win 5).blk t).view.emb j) 1))
    refine congrArg (V c main_v84) ?_
    funext a; apply Fin.ext
    match a with
    | ⟨0, _⟩ => show win8_2.index t (0 : Fin 2) * 128 + 1 * k.val = k.val; omega
    | ⟨1, _⟩ => show win8_2.index t (1 : Fin 2) * 64 + 1 * (j 1).val = win8_5.index t (1 : Fin 2) * 64 + 1 * (j 1).val; omega
  · intro j k
    have hj0 : (j 0).val < 5000 := (j 0).isLt
    have hj1 : (j 1).val < 64 := (j 1).isLt
    show V c main_v85 (((cfg8.win 3).blk t).view.emb (ix2 k (j 1))) = V c main_v85 (ix2 k ((((cfg8.win 5).blk t).view.emb j) 1))
    refine congrArg (V c main_v85) ?_
    funext a; apply Fin.ext
    match a with
    | ⟨0, _⟩ => show win8_3.index t (0 : Fin 2) * 128 + 1 * k.val = k.val; omega
    | ⟨1, _⟩ => show win8_3.index t (1 : Fin 2) * 64 + 1 * (j 1).val = win8_5.index t (1 : Fin 2) * 64 + 1 * (j 1).val; omega
  · intro j
    have hj0 : (j 0).val < 5000 := (j 0).isLt
    have hj1 : (j 1).val < 64 := (j 1).isLt
    show V c main_v86 (((cfg8.win 4).blk t).view.emb (ix2 (0 : Fin 1) (j 1))) = V c main_v86 (ix2 (0 : Fin 1) ((((cfg8.win 5).blk t).view.emb j) 1))
    refine congrArg (V c main_v86) ?_
    funext a; apply Fin.ext
    match a with
    | ⟨0, _⟩ => show win8_4.index t (0 : Fin 2) * 1 + 1 * 0 = 0; omega
    | ⟨1, _⟩ => show win8_4.index t (1 : Fin 2) * 64 + 1 * (j 1).val = win8_5.index t (1 : Fin 2) * 64 + 1 * (j 1).val; omega

/-- An index of the array is in point `t`'s block iff each coordinate is in the block's range on its axis. -/
theorem mem_blk (t : Fin cfg8.N) (i : S50000x64.Idx) :
    i ∈ ((cfg8.win 5).blk t).view.set ↔ ∀ a : Fin 2, win8_5.index t a * S5000x64.size a ≤ (i a).val ∧ (i a).val < win8_5.index t a * S5000x64.size a + S5000x64.size a := by
  show i ∈ ((View.whole main_v87).slice (win8_5.rect t)).set ↔ _
  rw [View.set_slice_whole, Rect.mem_set_unit]
  exact Iff.rfl

/-- Every index of the output array lies in some point's block: the point is the row number divided by 5000. -/
theorem cover (i : S50000x64.Idx) : ∃ t : Fin cfg8.N, (cfg8.win 5).flush t = true ∧ i ∈ ((cfg8.win 5).blk t).view.set := by
  have hi0 : (i 0).val < 50000 := (i 0).isLt
  have hi1 : (i 1).val < 64 := (i 1).isLt
  obtain ⟨t, ht⟩ := idx_onto ⟨(i 0).val / 5000, by omega⟩
  have q0 : win8_5.index t (0 : Fin 2) = (i 0).val / 5000 := congrFun ht 0
  have q1 : win8_5.index t (1 : Fin 2) = 0 := congrFun ht 1
  refine ⟨t, flush8_5 t, ?_⟩
  rw [mem_blk]
  intro a
  match a with
  | ⟨0, _⟩ => show win8_5.index t (0 : Fin 2) * 5000 ≤ (i 0).val ∧ (i 0).val < win8_5.index t (0 : Fin 2) * 5000 + 5000; omega
  | ⟨1, _⟩ => show win8_5.index t (1 : Fin 2) * 64 ≤ (i 1).val ∧ (i 1).val < win8_5.index t (1 : Fin 2) * 64 + 64; omega

/-- The output array after the region, whole. -/
theorem value (c : Dev nD) :
    (dat8 V c).arrAt 5 cfg8.N = twoProducts (n := 50000) (K := 128) (M := 64) (V c main_v57) (V c main_v83) (V c main_v84) (V c main_v85) (V c main_v86) :=
  (dat8 V c).arrAt_eq_of_cover 5 _ (fun t _ => flushed_eq V c t) cover

end Cert.Gnn.Region8

end
-- ==== Proof.Chain.lean ====
/-
  The idealized kernel program's result as one function of its arguments. The buffer contents at each of @main's
  nineteen segment boundaries are followed forward: a stretch of host operations leaves each value it writes at that
  operation of its operands and every other buffer as it was; a kernel region leaves its output array at the region's
  whole-array function of its input arrays (the `Region` modules) and every other buffer as it was. The edge lists with
  their self-loops, the degrees and the scales `deg^(-1/2)` are the same operations of the same arguments as in the
  reference, and are named by the reference's stages. The result: two layers per branch in the kernel's arrangement
  (`kerLayer`), then the two half products (`kerFinal`).
-/
import proofs.«173324_j25683904430211_2_alg».proof.Proof.ChainScale
import proofs.«173324_j25683904430211_2_alg».proof.Proof.Region0
import proofs.«173324_j25683904430211_2_alg».proof.Proof.Region1
import proofs.«173324_j25683904430211_2_alg».proof.Proof.Region2
import proofs.«173324_j25683904430211_2_alg».proof.Proof.Region3
import proofs.«173324_j25683904430211_2_alg».proof.Proof.Region4
import proofs.«173324_j25683904430211_2_alg».proof.Proof.Region5
import proofs.«173324_j25683904430211_2_alg».proof.Proof.Region6
import proofs.«173324_j25683904430211_2_alg».proof.Proof.Region7
import proofs.«173324_j25683904430211_2_alg».proof.Proof.Region8

set_option maxRecDepth 16384
set_option maxHeartbeats 3200000

noncomputable section

namespace Cert.Gnn.Chain

open Idealize.ShloMosaic Idealize.ShloMosaic.TcCoe Idealize.ShloMosaic.StableHlo
open Idealize.SL Idealize.SL.Sem
open Cert.KernelIdeal Cert.KernelIdeal.Gen
open Idealize.ShloMosaic.ValueIdx Cert.Lib Cert.Gnn
open Cert.ReferenceIdeal.Read (val_main_v3 val_main_v6 val_main_v20 val_main_v21 val_main_v22 val_main_cst_2 val_main_v43 val_main_v48 val_main_v49)

variable (m : (ℓ : Loc nD τ sig) → Buf (Elt Ideal) ℓ) (ρ : Dev nD → PrngReg) (c : Dev nD)

theorem at6_v32 : W6 m ρ c (Proc.devRef .tc main_v32) = (scaledProduct (n := 50000) (K := 128) (M := 128) (ψ := .f32) (m ((c : Thread nD τ).loc main_arg0)) (m ((c : Thread nD τ).loc main_arg4)) (dcol shapeCasts_S50000_S50000x1 (m ((c : Thread nD τ).loc main_arg1)))) :=
  (W6_arr m ρ c 3).trans ((Region0.value (V5 m ρ) c).trans (by
    rw [show V5 m ρ c main_arg0 = _ from (at5_arg0 m ρ c),
      show V5 m ρ c main_arg4 = _ from (at5_arg4 m ρ c),
      show V5 m ρ c main_v22 = _ from (at5_v22 m ρ c)]))

theorem at7_v42 : W7 m ρ c (Proc.devRef .tc main_v42) = (Host.scatterAdd (F := Ideal) (φ := .f32) Cert.ReferenceIdeal.scatter_S50000x128_S650000x1_S650000x128_1_0_0_1 (val_main_v48 (F := Ideal)) (val_main_v49 (F := Ideal) (m ((c : Thread nD τ).loc main_arg1))) (Host.gather (α := EReal) Cert.ReferenceIdeal.gather_S50000x128_S650000x1_S650000x128_1_0_n_n_0_1_1128 (scaledProduct (n := 50000) (K := 128) (M := 128) (ψ := .f32) (m ((c : Thread nD τ).loc main_arg0)) (m ((c : Thread nD τ).loc main_arg4)) (dcol shapeCasts_S50000_S50000x1 (m ((c : Thread nD τ).loc main_arg1)))) (val_main_v43 (F := Ideal) (m ((c : Thread nD τ).loc main_arg1))))) :=
  by
  show StableHlo.after hostOps1 (W6 m ρ c) (Proc.devRef .tc main_v42) = _
  after_results
  rw [(at6_v3 m ρ c), (at6_v6 m ρ c), (at6_v32 m ρ c)]
  rfl

theorem at7_v43 : W7 m ρ c (Proc.devRef .tc main_v43) = (shapeCast ⟨2, ![1, 128]⟩ (m ((c : Thread nD τ).loc main_arg5)) shapeCasts_S128_S1x128) :=
  by
  show StableHlo.after hostOps1 (W6 m ρ c) (Proc.devRef .tc main_v43) = _
  after_results
  rw [(at6_arg5 m ρ c)]
  rfl

theorem at8_v44 : W8 m ρ c (Proc.devRef .tc main_v44) = (kerLayer shapeCasts_S50000_S50000x1 shapeCasts_S128_S1x128 (m ((c : Thread nD τ).loc main_arg0)) (m ((c : Thread nD τ).loc main_arg4)) (m ((c : Thread nD τ).loc main_arg5)) (m ((c : Thread nD τ).loc main_arg1))) :=
  (W8_arr m ρ c 3).trans ((Region1.value (V7 m ρ) c).trans (by
    rw [show V7 m ρ c main_v42 = _ from (at7_v42 m ρ c),
      show V7 m ρ c main_v22 = _ from (at7_v22 m ρ c),
      show V7 m ρ c main_v43 = _ from (at7_v43 m ρ c)]
    rfl))

theorem at9_v45 : W9 m ρ c (Proc.devRef .tc main_v45) = (scaledProduct (n := 50000) (K := 128) (M := 128) (ψ := .f32) (kerLayer shapeCasts_S50000_S50000x1 shapeCasts_S128_S1x128 (m ((c : Thread nD τ).loc main_arg0)) (m ((c : Thread nD τ).loc main_arg4)) (m ((c : Thread nD τ).loc main_arg5)) (m ((c : Thread nD τ).loc main_arg1))) (m ((c : Thread nD τ).loc main_arg6)) (dcol shapeCasts_S50000_S50000x1 (m ((c : Thread nD τ).loc main_arg1)))) :=
  (W9_arr m ρ c 3).trans ((Region2.value (V8 m ρ) c).trans (by
    rw [show V8 m ρ c main_v44 = _ from (at8_v44 m ρ c),
      show V8 m ρ c main_arg6 = _ from (at8_arg6 m ρ c),
      show V8 m ρ c main_v22 = _ from (at8_v22 m ρ c)]))

theorem at10_v55 : W10 m ρ c (Proc.devRef .tc main_v55) = (Host.scatterAdd (F := Ideal) (φ := .f32) Cert.ReferenceIdeal.scatter_S50000x128_S650000x1_S650000x128_1_0_0_1 (val_main_v48 (F := Ideal)) (val_main_v49 (F := Ideal) (m ((c : Thread nD τ).loc main_arg1))) (Host.gather (α := EReal) Cert.ReferenceIdeal.gather_S50000x128_S650000x1_S650000x128_1_0_n_n_0_1_1128 (scaledProduct (n := 50000) (K := 128) (M := 128) (ψ := .f32) (kerLayer shapeCasts_S50000_S50000x1 shapeCasts_S128_S1x128 (m ((c : Thread nD τ).loc main_arg0)) (m ((c : Thread nD τ).loc main_arg4)) (m ((c : Thread nD τ).loc main_arg5)) (m ((c : Thread nD τ).loc main_arg1))) (m ((c : Thread nD τ).loc main_arg6)) (dcol shapeCasts_S50000_S50000x1 (m ((c : Thread nD τ).loc main_arg1)))) (val_main_v43 (F := Ideal) (m ((c : Thread nD τ).loc main_arg1))))) :=
  by
  show StableHlo.after hostOps3 (W9 m ρ c) (Proc.devRef .tc main_v55) = _
  after_results
  rw [(at9_v3 m ρ c), (at9_v6 m ρ c), (at9_v45 m ρ c)]
  rfl

theorem at10_v56 : W10 m ρ c (Proc.devRef .tc main_v56) = (shapeCast ⟨2, ![1, 128]⟩ (m ((c : Thread nD τ).loc main_arg7)) shapeCasts_S128_S1x128) :=
  by
  show StableHlo.after hostOps3 (W9 m ρ c) (Proc.devRef .tc main_v56) = _
  after_results
  rw [(at9_arg7 m ρ c)]
  rfl

theorem at11_v57 : W11 m ρ c (Proc.devRef .tc main_v57) = (kerLayer shapeCasts_S50000_S50000x1 shapeCasts_S128_S1x128 (kerLayer shapeCasts_S50000_S50000x1 shapeCasts_S128_S1x128 (m ((c : Thread nD τ).loc main_arg0)) (m ((c : Thread nD τ).loc main_arg4)) (m ((c : Thread nD τ).loc main_arg5)) (m ((c : Thread nD τ).loc main_arg1))) (m ((c : Thread nD τ).loc main_arg6)) (m ((c : Thread nD τ).loc main_arg7)) (m ((c : Thread nD τ).loc main_arg1))) :=
  (W11_arr m ρ c 3).trans ((Region3.value (V10 m ρ) c).trans (by
    rw [show V10 m ρ c main_v55 = _ from (at10_v55 m ρ c),
      show V10 m ρ c main_v22 = _ from (at10_v22 m ρ c),
      show V10 m ρ c main_v56 = _ from (at10_v56 m ρ c)]
    rfl))

theorem at12_v58 : W12 m ρ c (Proc.devRef .tc main_v58) = (scaledProduct (n := 50000) (K := 128) (M := 128) (ψ := .f32) (m ((c : Thread nD τ).loc main_arg2)) (m ((c : Thread nD τ).loc main_arg8)) (dcol shapeCasts_S50000_S50000x1 (m ((c : Thread nD τ).loc main_arg3)))) :=
  (W12_arr m ρ c 3).trans ((Region4.value (V11 m ρ) c).trans (by
    rw [show V11 m ρ c main_arg2 = _ from (at11_arg2 m ρ c),
      show V11 m ρ c main_arg8 = _ from (at11_arg8 m ρ c),
      show V11 m ρ c main_v31 = _ from (at11_v31 m ρ c)]))

theorem at13_v68 : W13 m ρ c (Proc.devRef .tc main_v68) = (Host.scatterAdd (F := Ideal) (φ := .f32) Cert.ReferenceIdeal.scatter_S50000x128_S650000x1_S650000x128_1_0_0_1 (val_main_v48 (F := Ideal)) (val_main_v49 (F := Ideal) (m ((c : Thread nD τ).loc main_arg3))) (Host.gather (α := EReal) Cert.ReferenceIdeal.gather_S50000x128_S650000x1_S650000x128_1_0_n_n_0_1_1128 (scaledProduct (n := 50000) (K := 128) (M := 128) (ψ := .f32) (m ((c : Thread nD τ).loc main_arg2)) (m ((c : Thread nD τ).loc main_arg8)) (dcol shapeCasts_S50000_S50000x1 (m ((c : Thread nD τ).loc main_arg3)))) (val_main_v43 (F := Ideal) (m ((c : Thread nD τ).loc main_arg3))))) :=
  by
  show StableHlo.after hostOps5 (W12 m ρ c) (Proc.devRef .tc main_v68) = _
  after_results
  rw [(at12_v10 m ρ c), (at12_v13 m ρ c), (at12_v58 m ρ c)]
  rfl

theorem at13_v69 : W13 m ρ c (Proc.devRef .tc main_v69) = (shapeCast ⟨2, ![1, 128]⟩ (m ((c : Thread nD τ).loc main_arg9)) shapeCasts_S128_S1x128) :=
  by
  show StableHlo.after hostOps5 (W12 m ρ c) (Proc.devRef .tc main_v69) = _
  after_results
  rw [(at12_arg9 m ρ c)]
  rfl

theorem at14_v70 : W14 m ρ c (Proc.devRef .tc main_v70) = (kerLayer shapeCasts_S50000_S50000x1 shapeCasts_S128_S1x128 (m ((c : Thread nD τ).loc main_arg2)) (m ((c : Thread nD τ).loc main_arg8)) (m ((c : Thread nD τ).loc main_arg9)) (m ((c : Thread nD τ).loc main_arg3))) :=
  (W14_arr m ρ c 3).trans ((Region5.value (V13 m ρ) c).trans (by
    rw [show V13 m ρ c main_v68 = _ from (at13_v68 m ρ c),
      show V13 m ρ c main_v31 = _ from (at13_v31 m ρ c),
      show V13 m ρ c main_v69 = _ from (at13_v69 m ρ c)]
    rfl))

theorem at15_v71 : W15 m ρ c (Proc.devRef .tc main_v71) = (scaledProduct (n := 50000) (K := 128) (M := 128) (ψ := .f32) (kerLayer shapeCasts_S50000_S50000x1 shapeCasts_S128_S1x128 (m ((c : Thread nD τ).loc main_arg2)) (m ((c : Thread nD τ).loc main_arg8)) (m ((c : Thread nD τ).loc main_arg9)) (m ((c : Thread nD τ).loc main_arg3))) (m ((c : Thread nD τ).loc main_arg10)) (dcol shapeCasts_S50000_S50000x1 (m ((c : Thread nD τ).loc main_arg3)))) :=
  (W15_arr m ρ c 3).trans ((Region6.value (V14 m ρ) c).trans (by
    rw [show V14 m ρ c main_v70 = _ from (at14_v70 m ρ c),
      show V14 m ρ c main_arg10 = _ from (at14_arg10 m ρ c),
      show V14 m ρ c main_v31 = _ from (at14_v31 m ρ c)]))

theorem at16_v81 : W16 m ρ c (Proc.devRef .tc main_v81) = (Host.scatterAdd (F := Ideal) (φ := .f32) Cert.ReferenceIdeal.scatter_S50000x128_S650000x1_S650000x128_1_0_0_1 (val_main_v48 (F := Ideal)) (val_main_v49 (F := Ideal) (m ((c : Thread nD τ).loc main_arg3))) (Host.gather (α := EReal) Cert.ReferenceIdeal.gather_S50000x128_S650000x1_S650000x128_1_0_n_n_0_1_1128 (scaledProduct (n := 50000) (K := 128) (M := 128) (ψ := .f32) (kerLayer shapeCasts_S50000_S50000x1 shapeCasts_S128_S1x128 (m ((c : Thread nD τ).loc main_arg2)) (m ((c : Thread nD τ).loc main_arg8)) (m ((c : Thread nD τ).loc main_arg9)) (m ((c : Thread nD τ).loc main_arg3))) (m ((c : Thread nD τ).loc main_arg10)) (dcol shapeCasts_S50000_S50000x1 (m ((c : Thread nD τ).loc main_arg3)))) (val_main_v43 (F := Ideal) (m ((c : Thread nD τ).loc main_arg3))))) :=
  by
  show StableHlo.after hostOps7 (W15 m ρ c) (Proc.devRef .tc main_v81) = _
  after_results
  rw [(at15_v10 m ρ c), (at15_v13 m ρ c), (at15_v71 m ρ c)]
  rfl

theorem at16_v82 : W16 m ρ c (Proc.devRef .tc main_v82) = (shapeCast ⟨2, ![1, 128]⟩ (m ((c : Thread nD τ).loc main_arg11)) shapeCasts_S128_S1x128) :=
  by
  show StableHlo.after hostOps7 (W15 m ρ c) (Proc.devRef .tc main_v82) = _
  after_results
  rw [(at15_arg11 m ρ c)]
  rfl

theorem at17_v83 : W17 m ρ c (Proc.devRef .tc main_v83) = (kerLayer shapeCasts_S50000_S50000x1 shapeCasts_S128_S1x128 (kerLayer shapeCasts_S50000_S50000x1 shapeCasts_S128_S1x128 (m ((c : Thread nD τ).loc main_arg2)) (m ((c : Thread nD τ).loc main_arg8)) (m ((c : Thread nD τ).loc main_arg9)) (m ((c : Thread nD τ).loc main_arg3))) (m ((c : Thread nD τ).loc main_arg10)) (m ((c : Thread nD τ).loc main_arg11)) (m ((c : Thread nD τ).loc main_arg3))) :=
  (W17_arr m ρ c 3).trans ((Region7.value (V16 m ρ) c).trans (by
    rw [show V16 m ρ c main_v81 = _ from (at16_v81 m ρ c),
      show V16 m ρ c main_v31 = _ from (at16_v31 m ρ c),
      show V16 m ρ c main_v82 = _ from (at16_v82 m ρ c)]
    rfl))

theorem at18_v57 : W18 m ρ c (Proc.devRef .tc main_v57) = (kerLayer shapeCasts_S50000_S50000x1 shapeCasts_S128_S1x128 (kerLayer shapeCasts_S50000_S50000x1 shapeCasts_S128_S1x128 (m ((c : Thread nD τ).loc main_arg0)) (m ((c : Thread nD τ).loc main_arg4)) (m ((c : Thread nD τ).loc main_arg5)) (m ((c : Thread nD τ).loc main_arg1))) (m ((c : Thread nD τ).loc main_arg6)) (m ((c : Thread nD τ).loc main_arg7)) (m ((c : Thread nD τ).loc main_arg1))) :=
  (tr_v57_11_18 m ρ c).trans (at11_v57 m ρ c)

theorem at18_v83 : W18 m ρ c (Proc.devRef .tc main_v83) = (kerLayer shapeCasts_S50000_S50000x1 shapeCasts_S128_S1x128 (kerLayer shapeCasts_S50000_S50000x1 shapeCasts_S128_S1x128 (m ((c : Thread nD τ).loc main_arg2)) (m ((c : Thread nD τ).loc main_arg8)) (m ((c : Thread nD τ).loc main_arg9)) (m ((c : Thread nD τ).loc main_arg3))) (m ((c : Thread nD τ).loc main_arg10)) (m ((c : Thread nD τ).loc main_arg11)) (m ((c : Thread nD τ).loc main_arg3))) :=
  (tr_v83_17_18 m ρ c).trans (at17_v83 m ρ c)

theorem at18_v84 : W18 m ρ c (Proc.devRef .tc main_v84) = extractStridedSlice ⟨2, ![128, 64]⟩ ![0, 0] (m ((c : Thread nD τ).loc main_arg12)) slices_S256x64_S128x64_0_0 :=
  by
  show StableHlo.after hostOps8 (W17 m ρ c) (Proc.devRef .tc main_v84) = _
  after_results
  rw [(at17_arg12 m ρ c)]

theorem at18_v85 : W18 m ρ c (Proc.devRef .tc main_v85) = extractStridedSlice ⟨2, ![128, 64]⟩ ![128, 0] (m ((c : Thread nD τ).loc main_arg12)) slices_S256x64_S128x64_128_0 :=
  by
  show StableHlo.after hostOps8 (W17 m ρ c) (Proc.devRef .tc main_v85) = _
  after_results
  rw [(at17_arg12 m ρ c)]

theorem at18_v86 : W18 m ρ c (Proc.devRef .tc main_v86) = shapeCast ⟨2, ![1, 64]⟩ (m ((c : Thread nD τ).loc main_arg13)) shapeCasts_S64_S1x64 :=
  by
  show StableHlo.after hostOps8 (W17 m ρ c) (Proc.devRef .tc main_v86) = _
  after_results
  rw [(at17_arg13 m ρ c)]
  rfl

/-- THE KERNEL'S RESULT: the network in the kernel's arrangement, of the argument arrays as launched. -/
theorem at19_v87 : W19 m ρ c (Proc.devRef .tc main_v87) = (kerFinal slices_S256x64_S128x64_0_0 slices_S256x64_S128x64_128_0 shapeCasts_S64_S1x64 (kerLayer shapeCasts_S50000_S50000x1 shapeCasts_S128_S1x128 (kerLayer shapeCasts_S50000_S50000x1 shapeCasts_S128_S1x128 (m ((c : Thread nD τ).loc main_arg0)) (m ((c : Thread nD τ).loc main_arg4)) (m ((c : Thread nD τ).loc main_arg5)) (m ((c : Thread nD τ).loc main_arg1))) (m ((c : Thread nD τ).loc main_arg6)) (m ((c : Thread nD τ).loc main_arg7)) (m ((c : Thread nD τ).loc main_arg1))) (kerLayer shapeCasts_S50000_S50000x1 shapeCasts_S128_S1x128 (kerLayer shapeCasts_S50000_S50000x1 shapeCasts_S128_S1x128 (m ((c : Thread nD τ).loc main_arg2)) (m ((c : Thread nD τ).loc main_arg8)) (m ((c : Thread nD τ).loc main_arg9)) (m ((c : Thread nD τ).loc main_arg3))) (m ((c : Thread nD τ).loc main_arg10)) (m ((c : Thread nD τ).loc main_arg11)) (m ((c : Thread nD τ).loc main_arg3))) (m ((c : Thread nD τ).loc main_arg12)) (m ((c : Thread nD τ).loc main_arg13))) :=
  (W19_arr m ρ c 5).trans ((Region8.value (V18 m ρ) c).trans (by
    rw [show V18 m ρ c main_v57 = _ from (at18_v57 m ρ c),
      show V18 m ρ c main_v83 = _ from (at18_v83 m ρ c),
      show V18 m ρ c main_v84 = _ from (at18_v84 m ρ c),
      show V18 m ρ c main_v85 = _ from (at18_v85 m ρ c),
      show V18 m ρ c main_v86 = _ from (at18_v86 m ρ c)]
    rfl))

/-- The network in the kernel's arrangement, of the argument arrays of device `c` as launched. -/
def kerNetOf : FVec Ideal Cert.ReferenceIdeal.S50000x64 .f32 :=
  (kerFinal slices_S256x64_S128x64_0_0 slices_S256x64_S128x64_128_0 shapeCasts_S64_S1x64 (kerLayer shapeCasts_S50000_S50000x1 shapeCasts_S128_S1x128 (kerLayer shapeCasts_S50000_S50000x1 shapeCasts_S128_S1x128 (m ((c : Thread nD τ).loc main_arg0)) (m ((c : Thread nD τ).loc main_arg4)) (m ((c : Thread nD τ).loc main_arg5)) (m ((c : Thread nD τ).loc main_arg1))) (m ((c : Thread nD τ).loc main_arg6)) (m ((c : Thread nD τ).loc main_arg7)) (m ((c : Thread nD τ).loc main_arg1))) (kerLayer shapeCasts_S50000_S50000x1 shapeCasts_S128_S1x128 (kerLayer shapeCasts_S50000_S50000x1 shapeCasts_S128_S1x128 (m ((c : Thread nD τ).loc main_arg2)) (m ((c : Thread nD τ).loc main_arg8)) (m ((c : Thread nD τ).loc main_arg9)) (m ((c : Thread nD τ).loc main_arg3))) (m ((c : Thread nD τ).loc main_arg10)) (m ((c : Thread nD τ).loc main_arg11)) (m ((c : Thread nD τ).loc main_arg3))) (m ((c : Thread nD τ).loc main_arg12)) (m ((c : Thread nD τ).loc main_arg13)))

/-- The result buffer after the run holds the network in the kernel's arrangement. -/
theorem result_eq : W19 m ρ c (Proc.devRef .tc main_v87) = kerNetOf m c := at19_v87 m ρ c

end Cert.Gnn.Chain

end
-- ==== Proof.LibRealEntries.lean ====
/-
  General lemmas: arrays of reals among arrays of extended reals, and how a finiteness precondition yields them.

  A float input read on the extended reals ranges over `[-∞, +∞]`; an algebraic law that fails at the infinities
  (cancelling, distributing, a quotient of exponentials) needs the entries to be reals. A precondition of the form
  `all (|x| < +∞)` says exactly that:
  * `AllReal x`: every entry of `x` is the coercion of a real;
  * `top_word_f32`: the f32 word `0x7F800000` denotes `+∞`;
  * `real_of_abs_lt_top`: an extended real whose absolute value `max x (-x)` compares below that word is a real
    (`|±∞| = +∞` is not below `+∞`);
  * `allReal_of_all_abs_lt`: if the host's reduction by `and`, over all axes into a result of one index, of the
    comparison `|x| < inf` (with `inf` the splat of that word) answers one, then `x` is an array of reals.
-/
import Idealize.ShloMosaic.Lib.ReduceAll
import Idealize.ShloMosaic.PureOps.Ideal.Laws

noncomputable section

namespace Cert.Lib

open Idealize.ShloMosaic

/-- Every entry of an array of extended reals is a real. -/
def AllReal {ι : Type} (x : ι → EReal) : Prop := ∀ i, ∃ r : ℝ, x i = (r : EReal)

/-- The f32 word of `+∞` denotes `⊤`. -/
theorem top_word_f32 : Ideal.ofBits .f32 0x7F800000#32 = ⊤ := by simp [Ideal.ofBits, Ideal.ieee]

/-- An extended real whose absolute value is below `+∞` is a real. -/
theorem real_of_abs_lt_top (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [top_word_f32] at h
  induction x using EReal.rec with
  | bot => exfalso; revert h; simp [Ideal.cmpf_def, Ideal.absf_def, Ideal.cmp]
  | top => exfalso; revert h; simp [Ideal.cmpf_def, Ideal.absf_def, Ideal.cmp]
  | coe r => exact ⟨r, rfl⟩

/-- An array all of whose entries pass `|x| < +∞` — the host's reduction by `and` over every axis, into a result of one
    index, answers one — is an array of reals. -/
theorem allReal_of_all_abs_lt {s t u : Shape} [Subsingleton t.Idx] (x inf : FVec Ideal s .f32)
    (hinf : ∀ i, inf i = Ideal.ofBits .f32 0x7F800000#32) {axes : List (Fin s.rank)} (hr : s.ReducesTo axes t)
    (init : u.Idx → BitVec 1) (hu : 0 < u.numel) (j : t.Idx)
    (e : Host.reduce IntOp.andi (cmpf .olt (Host.absf x) inf) init hr hu j = 1#1) : AllReal x := fun i => by
  have hi := Host.reduce_andi_all _ init hr hu j e i
  exact real_of_abs_lt_top (x i) (by rw [← hinf i]; exact hi)

end Cert.Lib

end
-- ==== Proof.RefNet.lean ====
/-
  The reference's result, stage by stage, is the network in the reference's arrangement: each branch's two layers are
  `refLayer` of the branch's features, weights, bias and edge list (the second layer's features the first layer's
  value), and the result is `refFinal` of the two branches' outputs. The whole network in the kernel's arrangement equals
  it when every float argument is real: layer by layer (`layer_eq`, the first layer's value being real for the second),
  then the split of the last product (`final_eq`).
-/
import proofs.«173324_j25683904430211_2_alg».proof.Proof.Net
import proofs.«173324_j25683904430211_2_alg».proof.Proof.LibRealEntries

noncomputable section

namespace Cert.Gnn

open Idealize.ShloMosaic Idealize.ShloMosaic.ValueIdx Cert.ReferenceIdeal Cert.ReferenceIdeal.Read Cert.Lib

theorem ref_layer1_i (x0 : FVec Ideal S50000x128 .f32) (x1 : Edges) (x4 : FVec Ideal S128x128 .f32) (x5 : FVec Ideal S128 .f32) :
    val_main_v54 (F := Ideal) x0 x1 x4 x5 = refLayer x0 x4 x5 x1 := rfl

theorem ref_layer2_i (x0 : FVec Ideal S50000x128 .f32) (x1 : Edges) (x4 : FVec Ideal S128x128 .f32) (x5 : FVec Ideal S128 .f32) (x6 : FVec Ideal S128x128 .f32) (x7 : FVec Ideal S128 .f32) :
    val_main_v95 (F := Ideal) x0 x1 x4 x5 x6 x7 = refLayer (val_main_v54 (F := Ideal) x0 x1 x4 x5) x6 x7 x1 := rfl

theorem ref_layer1_s (x2 : FVec Ideal S50000x128 .f32) (x3 : Edges) (x8 : FVec Ideal S128x128 .f32) (x9 : FVec Ideal S128 .f32) :
    val_main_v136 (F := Ideal) x2 x3 x8 x9 = refLayer x2 x8 x9 x3 := rfl

theorem ref_layer2_s (x2 : FVec Ideal S50000x128 .f32) (x3 : Edges) (x8 : FVec Ideal S128x128 .f32) (x9 : FVec Ideal S128 .f32) (x10 : FVec Ideal S128x128 .f32) (x11 : FVec Ideal S128 .f32) :
    val_main_v177 (F := Ideal) x2 x3 x8 x9 x10 x11 = refLayer (val_main_v136 (F := Ideal) x2 x3 x8 x9) x10 x11 x3 := rfl

theorem ref_final (x0 : FVec Ideal S50000x128 .f32) (x1 : Edges) (x2 : FVec Ideal S50000x128 .f32) (x3 : Edges) (x4 : FVec Ideal S128x128 .f32) (x5 : FVec Ideal S128 .f32) (x6 : FVec Ideal S128x128 .f32) (x7 : FVec Ideal S128 .f32) (x8 : FVec Ideal S128x128 .f32) (x9 : FVec Ideal S128 .f32) (x10 : FVec Ideal S128x128 .f32) (x11 : FVec Ideal S128 .f32) (x12 : FVec Ideal S256x64 .f32) (x13 : FVec Ideal S64 .f32) :
    val_main_v182 (F := Ideal) x0 x1 x2 x3 x4 x5 x6 x7 x8 x9 x10 x11 x12 x13
      = refFinal (val_main_v95 (F := Ideal) x0 x1 x4 x5 x6 x7) (val_main_v177 (F := Ideal) x2 x3 x8 x9 x10 x11) x12 x13 := rfl

variable (hcol : S50000.ShapeCasts ⟨2, ![50000, 1]⟩) (hrow : S128.ShapeCasts ⟨2, ![1, 128]⟩)
  (hs0 : S256x64.Slices ![0, 0] ⟨2, ![128, 64]⟩) (hs1 : S256x64.Slices ![128, 0] ⟨2, ![128, 64]⟩)
  (hr : S64.ShapeCasts ⟨2, ![1, 64]⟩)

/-- THE BRIDGE: for real float arguments the network in the kernel's arrangement is the reference's result. -/
theorem net_eq (x0 : FVec Ideal S50000x128 .f32) (x1 : Edges) (x2 : FVec Ideal S50000x128 .f32) (x3 : Edges) (x4 : FVec Ideal S128x128 .f32) (x5 : FVec Ideal S128 .f32) (x6 : FVec Ideal S128x128 .f32) (x7 : FVec Ideal S128 .f32) (x8 : FVec Ideal S128x128 .f32) (x9 : FVec Ideal S128 .f32) (x10 : FVec Ideal S128x128 .f32) (x11 : FVec Ideal S128 .f32) (x12 : FVec Ideal S256x64 .f32) (x13 : FVec Ideal S64 .f32)
    (h0 : AllReal x0) (h2 : AllReal x2) (h4 : AllReal x4) (h5 : AllReal x5) (h6 : AllReal x6) (h7 : AllReal x7) (h8 : AllReal x8) (h9 : AllReal x9) (h10 : AllReal x10) (h11 : AllReal x11) (h12 : AllReal x12) (h13 : AllReal x13) :
    kerFinal hs0 hs1 hr (kerLayer hcol hrow (kerLayer hcol hrow x0 x4 x5 x1) x6 x7 x1)
        (kerLayer hcol hrow (kerLayer hcol hrow x2 x8 x9 x3) x10 x11 x3) x12 x13
      = val_main_v182 (F := Ideal) x0 x1 x2 x3 x4 x5 x6 x7 x8 x9 x10 x11 x12 x13 := by
  rw [ref_final, ref_layer2_i, ref_layer2_s, ref_layer1_i, ref_layer1_s, final_eq,
    layer_eq hcol hrow x0 x4 x5 x1 h0 h4, layer_eq hcol hrow x2 x8 x9 x3 h2 h8,
    layer_eq hcol hrow (refLayer x0 x4 x5 x1) x6 x7 x1 (refLayer_real x0 x4 x5 x1 h0 h4 h5) h6,
    layer_eq hcol hrow (refLayer x2 x8 x9 x3) x10 x11 x3 (refLayer_real x2 x8 x9 x3 h2 h8 h9) h10]

end Cert.Gnn

end
-- ==== Proof.Finite.lean ====
/-
  The precondition read: `finite_inputs` is the conjunction, over the twelve float arguments, of "every entry has absolute
  value below +∞" — each a reduction by `and` over all axes of the comparison `|x| < +∞`, the twelve answers joined by
  `and` from the left. If it answers one, every entry of every float argument is a real number.
-/
import proofs.«173324_j25683904430211_2_alg».proof.Pre_finite_inputs
import proofs.«173324_j25683904430211_2_alg».proof.Proof.Gen.Pre_finite_inputs
import proofs.«173324_j25683904430211_2_alg».proof.Proof.LibRealEntries
import Idealize.ShloMosaic.Lib.Affine
import Idealize.ShloMosaic.Lib.ValueIdx
import Idealize.ShloMosaic.Lib.Pipeline.Value

noncomputable section

namespace Cert.Gnn

open Idealize.ShloMosaic Cert.Pre_finite_inputs Cert.Lib

instance subsingleton_scalar_idx : Subsingleton S_.Idx := ⟨fun a b => funext fun d => d.elim0⟩

/-- The +∞ word repeated over any shape reads +∞ everywhere. -/
theorem inf_apply {s : Shape} (h : S_.BroadcastsInDim s (![] : Fin 0 → Fin s.rank)) (i : s.Idx) :
    broadcastInDim s ![] h (constant (F := Ideal) S_ .f32 0x7F800000#32) i = Ideal.ofBits .f32 0x7F800000#32 :=
  broadcastInDim_apply _ h _ i ValueIdx.ix0 fun a => a.elim0

/-- Under the precondition every float argument is an array of reals. -/
theorem reals_of_pre (a0 : FVec Ideal S50000x128 .f32) (a1 : IVec S2x600000 32) (a2 : FVec Ideal S50000x128 .f32) (a3 : IVec S2x600000 32) (a4 : FVec Ideal S128x128 .f32) (a5 : FVec Ideal S128 .f32) (a6 : FVec Ideal S128x128 .f32) (a7 : FVec Ideal S128 .f32) (a8 : FVec Ideal S128x128 .f32) (a9 : FVec Ideal S128 .f32) (a10 : FVec Ideal S128x128 .f32) (a11 : FVec Ideal S128 .f32) (a12 : FVec Ideal S256x64 .f32) (a13 : FVec Ideal S64 .f32)
    (h : fn (F := Ideal) a0 a1 a2 a3 a4 a5 a6 a7 a8 a9 a10 a11 a12 a13 = fun _ => 1#1) :
    AllReal a0 ∧ AllReal a2 ∧ AllReal a4 ∧ AllReal a5 ∧ AllReal a6 ∧ AllReal a7 ∧ AllReal a8 ∧ AllReal a9 ∧ AllReal a10 ∧ AllReal a11 ∧ AllReal a12 ∧ AllReal a13 := by
  have h0 := congrFun h ValueIdx.ix0
  dsimp only [fn, fn_part1, fn_part2, fn_part3] at h0
  obtain ⟨h0, e11⟩ := IntOp.andi_eq_one.mp h0
  obtain ⟨h0, e10⟩ := IntOp.andi_eq_one.mp h0
  obtain ⟨h0, e9⟩ := IntOp.andi_eq_one.mp h0
  obtain ⟨h0, e8⟩ := IntOp.andi_eq_one.mp h0
  obtain ⟨h0, e7⟩ := IntOp.andi_eq_one.mp h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨h0, e2⟩ := IntOp.andi_eq_one.mp h0
  obtain ⟨h0, e1⟩ := IntOp.andi_eq_one.mp h0
  exact ⟨allReal_of_all_abs_lt a0 _ (fun i => inf_apply _ i) _ _ _ _ h0,
    allReal_of_all_abs_lt a2 _ (fun i => inf_apply _ i) _ _ _ _ e1,
    allReal_of_all_abs_lt a4 _ (fun i => inf_apply _ i) _ _ _ _ e2,
    allReal_of_all_abs_lt a5 _ (fun i => inf_apply _ i) _ _ _ _ e3,
    allReal_of_all_abs_lt a6 _ (fun i => inf_apply _ i) _ _ _ _ e4,
    allReal_of_all_abs_lt a7 _ (fun i => inf_apply _ i) _ _ _ _ e5,
    allReal_of_all_abs_lt a8 _ (fun i => inf_apply _ i) _ _ _ _ e6,
    allReal_of_all_abs_lt a9 _ (fun i => inf_apply _ i) _ _ _ _ e7,
    allReal_of_all_abs_lt a10 _ (fun i => inf_apply _ i) _ _ _ _ e8,
    allReal_of_all_abs_lt a11 _ (fun i => inf_apply _ i) _ _ _ _ e9,
    allReal_of_all_abs_lt a12 _ (fun i => inf_apply _ i) _ _ _ _ e10,
    allReal_of_all_abs_lt a13 _ (fun i => inf_apply _ i) _ _ _ _ e11⟩

end Cert.Gnn

end
-- ==== Proof.lean ====
/-
  The certificate of a two-branch graph-convolution network: the kernel's `forward` against the jnp `reference`, equal as
  extended reals under the precondition that every float input is finite.

  Each branch runs two graph-convolution layers over its own edge list with self-loops; with `d = deg^(-1/2)` a layer is
  `max (∑ over the edges landing on p of (X·W)[src e] · d[src e] · d[dst e] + b) 0`. The reference weighs every edge by
  `d[src] · d[dst]`; the kernel scales the rows of `X·W` by `d` in one region, sums the gathered rows over the edges on the
  host, and multiplies row `p` by `d p` (adding the bias and clamping at zero) in a second region. The factor `d p` comes out
  of the sum over the edges landing on `p` because every entry is a real number: the inputs by the precondition, `d` because
  a degree is a count. The last step, one product of the two branches' outputs side by side with a [256, 64] matrix, is
  computed by the kernel as two products with the matrix's halves: a sum over 256 columns split at 128.

  The three frames are the generated ones (the reference's is its run with the result dropped); the idealization
  rewrote nothing, so `preserves` is trivial; `algebraic` puts the kernel program's run — its result read through the nine
  regions and the host operations between them — beside the reference's run and joins their results by the equality above.
-/
import proofs.«173324_j25683904430211_2_alg».proof.Defs
import proofs.«173324_j25683904430211_2_alg».proof.Proof.Gen.Kernel
import proofs.«173324_j25683904430211_2_alg».proof.Proof.Gen.Kernel.Frame
import proofs.«173324_j25683904430211_2_alg».proof.Proof.Gen.KernelIdeal
import proofs.«173324_j25683904430211_2_alg».proof.Proof.Gen.KernelIdeal.Frame
import proofs.«173324_j25683904430211_2_alg».proof.Proof.Gen.ReferenceIdeal
import proofs.«173324_j25683904430211_2_alg».proof.Proof.Gen.Pre_finite_inputs
import proofs.«173324_j25683904430211_2_alg».proof.Proof.ReadPatched
import proofs.«173324_j25683904430211_2_alg».proof.Proof.KRun
import proofs.«173324_j25683904430211_2_alg».proof.Proof.Chain
import proofs.«173324_j25683904430211_2_alg».proof.Proof.RefNet
import proofs.«173324_j25683904430211_2_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the network's value: the kernel's in its own arrangement, the reference's in the weighted one,
    equal because the arguments agree and the float arguments are real. -/
theorem algebraic : Cert.algebraic_KernelIdeal_ReferenceIdeal := by
  intro m ρ m' ρ' hpre hagree
  refine ⟨fun c => Cert.Gnn.Chain.kerNetOf m c, ?_, ?_⟩
  · exact (θ_run Cert.KernelIdeal.defs _ _).mono
      (fun r h c => ⟨(h c).1.trans (Cert.Gnn.Chain.result_eq m ρ c), (h c).2⟩) (Cert.Gnn.kernel_run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13⟩ := hagree c
    obtain ⟨r0, r2, r4, r5, r6, r7, r8, r9, r10, r11, r12, r13⟩ := Cert.Gnn.reals_of_pre _ _ _ _ _ _ _ _ _ _ _ _ _ _ (hpre c)
    rw [Cert.ReferenceIdeal.Read.val_main_v182_eq, e0, e1, e2, e3, e4, e5, e6, e7, e8, e9, e10, e11, e12, e13]
    exact (Cert.Gnn.net_eq _ _ _ _ _ (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) r0 r2 r4 r5 r6 r7 r8 r9 r10 r11 r12 r13).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
